-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x3072 : Shape := ⟨2, ![1024, 3072]⟩
abbrev S2x16x2048x64 : Shape := ⟨4, ![2, 16, 2048, 64]⟩
abbrev S16x64x1024 : Shape := ⟨3, ![16, 64, 1024]⟩
abbrev S1x128x1024 : Shape := ⟨3, ![1, 128, 1024]⟩
abbrev S1x16x128x64 : Shape := ⟨4, ![1, 16, 128, 64]⟩
abbrev S128x1024 : Shape := ⟨2, ![128, 1024]⟩
abbrev S128x3072 : Shape := ⟨2, ![128, 3072]⟩
abbrev S1x3072 : Shape := ⟨2, ![1, 3072]⟩
abbrev S128x16x64 : Shape := ⟨3, ![128, 16, 64]⟩
abbrev S16x128x64 : Shape := ⟨3, ![16, 128, 64]⟩
abbrev S1x1x512x64 : Shape := ⟨4, ![1, 1, 512, 64]⟩
abbrev S1x1x2048x64 : Shape := ⟨4, ![1, 1, 2048, 64]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S1x64x1024 : Shape := ⟨3, ![1, 64, 1024]⟩
abbrev S1x512x1024 : Shape := ⟨3, ![1, 512, 1024]⟩
abbrev S512x1024 : Shape := ⟨2, ![512, 1024]⟩
abbrev S64x1024 : Shape := ⟨2, ![64, 1024]⟩
abbrev S1x1024 : Shape := ⟨2, ![1, 1024]⟩

abbrev nBuf : Space → Nat
  | .hbm => 13
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x3072, .f32⟩
  | .hbm, ⟨6, _⟩ => ⟨S2x16x2048x64, .bf16⟩
  | .hbm, ⟨7, _⟩ => ⟨S2x16x2048x64, .bf16⟩
  | .hbm, ⟨8, _⟩ => ⟨S2x16x2048x64, .bf16⟩
  | .hbm, ⟨9, _⟩ => ⟨S2x16x2048x64, .bf16⟩
  | .hbm, ⟨10, _⟩ => ⟨S1024x1024, .f32⟩
  | .hbm, ⟨11, _⟩ => ⟨S16x64x1024, .f32⟩
  | .hbm, ⟨12, _⟩ => ⟨S2x2048x1024, .f32⟩
  | .local _ .vmem, ⟨0, _⟩ => ⟨S1x128x1024, .f32⟩
  | .local _ .vmem, ⟨1, _⟩ => ⟨S1x128x1024, .f32⟩
  | .local _ .vmem, ⟨2, _⟩ => ⟨S1024x3072, .f32⟩
  | .local _ .vmem, ⟨3, _⟩ => ⟨S3072, .f32⟩
  | .local _ .vmem, ⟨4, _⟩ => ⟨S1x16x128x64, .bf16⟩
  | .local _ .vmem, ⟨5, _⟩ => ⟨S1x16x128x64, .bf16⟩
  | .local _ .vmem, ⟨6, _⟩ => ⟨S1x16x128x64, .bf16⟩
  | .local _ .vmem, ⟨7, _⟩ => ⟨S1x16x128x64, .bf16⟩
  | .local _ .vmem, ⟨8, _⟩ => ⟨S1x16x128x64, .bf16⟩
  | .local _ .vmem, ⟨9, _⟩ => ⟨S1x16x128x64, .bf16⟩
  | .local _ .vmem, ⟨10, _⟩ => ⟨S1x1x512x64, .bf16⟩
  | .local _ .vmem, ⟨11, _⟩ => ⟨S1x1x512x64, .bf16⟩
  | .local _ .vmem, ⟨12, _⟩ => ⟨S1x1x2048x64, .bf16⟩
  | .local _ .vmem, ⟨13, _⟩ => ⟨S1x1x2048x64, .bf16⟩
  | .local _ .vmem, ⟨14, _⟩ => ⟨S1x1x2048x64, .bf16⟩
  | .local _ .vmem, ⟨15, _⟩ => ⟨S1x1x2048x64, .bf16⟩
  | .local _ .vmem, ⟨16, _⟩ => ⟨S1x1x512x64, .bf16⟩
  | .local _ .vmem, ⟨17, _⟩ => ⟨S1x1x512x64, .bf16⟩
  | .local _ .vmem, ⟨18, _⟩ => ⟨S1x1x512x64, .bf16⟩
  | .local _ .vmem, ⟨19, _⟩ => ⟨S1x1x512x64, .bf16⟩
  | .local _ .vmem, ⟨20, _⟩ => ⟨S1x64x1024, .f32⟩
  | .local _ .vmem, ⟨21, _⟩ => ⟨S1x64x1024, .f32⟩
  | .local _ .vmem, ⟨22, _⟩ => ⟨S1024, .f32⟩
  | .local _ .vmem, ⟨23, _⟩ => ⟨S1x512x1024, .f32⟩
  | .local _ .vmem, ⟨24, _⟩ => ⟨S1x512x1024, .f32⟩
  | .local _ .vmem, ⟨25, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1_0 : Ref sig .tc := ⟨.hbm, 6, rfl⟩
abbrev main_call0_v1_1 : Ref sig .tc := ⟨.hbm, 7, rfl⟩
abbrev main_call0_v1_2 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem3_1 : DmaSem sig := 24

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![2, 16, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨3, ![2, 4, 16], ![false, false, false]⟩

def k2_cond2 (i : grid2.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_11 : BitVec 32 := 0#32
  let v16 : BitVec 1 := Scalar.cmpi .ne v15 c0_i32_11
  v16

def cc2_transform_0 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  transposes_S3072x1024_S1024x3072_1_0 : S3072x1024.Transposes [1, 0] S1024x3072
  transposes_S1024x1024_S1024x1024_1_0 : S1024x1024.Transposes [1, 0] S1024x1024
  shapeCasts_S1024x1024_S16x64x1024 : S1024x1024.ShapeCasts S16x64x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  bitsLt_bf16_f32 : FTy.bits .bf16 < FTy.bits .f32
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S128x3072 : S1x3072.Broadcasts S128x3072
  slices_S128x3072_o0_0_S128x1024 : S128x3072.Slices ![0, 0] S128x1024
  slices_S128x3072_o0_1024_S128x1024 : S128x3072.Slices ![0, 1024] S128x1024
  slices_S128x3072_o0_2048_S128x1024 : S128x3072.Slices ![0, 2048] S128x1024
  shapeCasts_S128x1024_S128x16x64 : S128x1024.ShapeCasts S128x16x64
  transposes_S128x16x64_p1_0_2_S16x128x64 : S128x16x64.Transposes [1, 0, 2] S16x128x64
  inb_S1x16x128x64_S1x16x128x64_0_0_0_0 : ∀ a, (![0, 0, 0, 0] : Fin 4 → Nat) a + S1x16x128x64.size a ≤ S1x16x128x64.size a
  h_S1x16x128x64 : 0 < S1x16x128x64.numel
  shapeCasts_S1x16x128x64_S16x128x64 : S1x16x128x64.ShapeCasts S16x128x64
  shapeCasts_S16x128x64_S1x16x128x64 : S16x128x64.ShapeCasts S1x16x128x64
  packedbf16_S1x16x128x64_S1x16x128x64_0_0_0_0 : (Rect.unit (s := S1x16x128x64) ![0, 0, 0, 0] S1x16x128x64.size inb_S1x16x128x64_S1x16x128x64_0_0_0_0).PackedRows (EltTy.packing .bf16)
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x64_S1x1x512x64 : S512x64.ShapeCasts S1x1x512x64
  packedbf16_S1x1x512x64_S1x1x512x64_0_0_0_0 : (Rect.unit (s := S1x1x512x64) ![0, 0, 0, 0] S1x1x512x64.size inb_S1x1x512x64_S1x1x512x64_0_0_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S128x1024_S1024x3072_S128x3072_1_0_0_1_n_n_wf : DotDims.WF S128x1024 S1024x3072 S128x3072 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S2x2048x1024.size a
  hwx0_0 : ∀ i : grid0.Coords, EltTy.bits .f32 = 32 ∨ (Rect.block (s := S2x2048x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .f32 = 32 ∨ (Rect.block (s := S1024x3072) S1024x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x128x64.size a ≤ S2x16x2048x64.size a
  hwx0_3 : ∀ i : grid0.Coords, EltTy.bits .bf16 = 32 ∨ (Rect.block (s := S2x16x2048x64) S1x16x128x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x128x64.size a ≤ S2x16x2048x64.size a
  hwx0_4 : ∀ i : grid0.Coords, EltTy.bits .bf16 = 32 ∨ (Rect.block (s := S2x16x2048x64) S1x16x128x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x128x64.size a ≤ S2x16x2048x64.size a
  hwx0_5 : ∀ i : grid0.Coords, EltTy.bits .bf16 = 32 ∨ (Rect.block (s := S2x16x2048x64) S1x16x128x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S2x16x2048x64.size a
  hwx1_0 : ∀ i : grid1.Coords, EltTy.bits .bf16 = 32 ∨ (Rect.block (s := S2x16x2048x64) S1x1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x16x2048x64.size a
  hwx1_1 : ∀ i : grid1.Coords, EltTy.bits .bf16 = 32 ∨ (Rect.block (s := S2x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .bf16 = 32 ∨ (Rect.block (s := S2x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x64.size a ≤ S2x16x2048x64.size a
  hwx1_3 : ∀ i : grid1.Coords, EltTy.bits .bf16 = 32 ∨ (Rect.block (s := S2x16x2048x64) S1x1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x512x64.size a ≤ S2x16x2048x64.size a
  hwx2_0 : ∀ i : grid2.Coords, EltTy.bits .bf16 = 32 ∨ (Rect.block (s := S2x16x2048x64) S1x1x512x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x1024.size a ≤ S16x64x1024.size a
  hwx2_1 : ∀ i : grid2.Coords, EltTy.bits .f32 = 32 ∨ (Rect.block (s := S16x64x1024) S1x64x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S2x2048x1024.size a
  hwx2_3 : ∀ i : grid2.Coords, EltTy.bits .f32 = 32 ∨ (Rect.block (s := S2x2048x1024) S1x512x1024.size (cc2_transform_3 i) (hinb2_3 i)).WholeWords (EltTy.packing .f32)

variable [Facts₀]

def dot_S128x1024_S1024x3072_S128x3072_1_0_0_1_n_n : DotDims S128x1024 S1024x3072 S128x3072 where
  lhsContracting := [1]
  rhsContracting := [0]
  lhsNonContracting := [0]
  rhsNonContracting := [1]
  lhsBatch := []
  rhsBatch := []
  wf := dot_S128x1024_S1024x3072_S128x3072_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1_0) S1x16x128x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1_1) S1x16x128x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1_2) S1x16x128x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v1_0) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1_1) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1_2) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2) S1x1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v2) S1x1x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v4) S1x64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S1x512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S2x2048x16x64, .f32⟩
  | .hbm, ⟨15, _⟩ => ⟨S2x16x2048x64, .f32⟩
  | .hbm, ⟨16, _⟩ => ⟨S2x2048x16x64, .f32⟩
  | .hbm, ⟨17, _⟩ => ⟨S2x16x2048x64, .f32⟩
  | .hbm, ⟨18, _⟩ => ⟨S2x16x2048x2048, .f32⟩
  | .hbm, ⟨19, _⟩ => ⟨S_, .f32⟩
  | .hbm, ⟨20, _⟩ => ⟨S2x16x2048x2048, .f32⟩
  | .hbm, ⟨21, _⟩ => ⟨S2x16x2048x2048, .f32⟩
  | .hbm, ⟨22, _⟩ => ⟨S_, .f32⟩
  | .hbm, ⟨23, _⟩ => ⟨S2x16x2048, .f32⟩
  | .hbm, ⟨24, _⟩ => ⟨S_, .f32⟩
  | .hbm, ⟨25, _⟩ => ⟨S2x16x2048, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S_, .f32⟩
  | .hbm, ⟨32, _⟩ => ⟨S2x16x2048, .f32⟩
  | .hbm, ⟨33, _⟩ => ⟨S2x16x2048x1, .f32⟩
  | .hbm, ⟨34, _⟩ => ⟨S2x16x2048x2048, .f32⟩
  | .hbm, ⟨35, _⟩ => ⟨S2x16x2048x2048, .f32⟩
  | .hbm, ⟨36, _⟩ => ⟨S2x16x2048x64, .f32⟩
  | .hbm, ⟨37, _⟩ => ⟨S2x2048x16x64, .f32⟩
  | .hbm, ⟨38, _⟩ => ⟨S2x2048x1024, .f32⟩
  | .hbm, ⟨39, _⟩ => ⟨S2x2048x1024, .f32⟩
  | .hbm, ⟨40, _⟩ => ⟨S1x1x1024, .f32⟩
  | .hbm, ⟨41, _⟩ => ⟨S2x2048x1024, .f32⟩
  | .hbm, ⟨42, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.K.Reg0.lean ====
import proofs.«167322_j54778012893327_2_alg».proof.Proof.Gen.Kernel.Launch
import proofs.«167322_j54778012893327_2_alg».proof.Proof.Gen.Kernel.Skeleton
import proofs.«167322_j54778012893327_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of region 0 (the fused QKV projection), at any entry contents `V` of the TensorCore's buffers: each
    window's block at a grid point, what the body leaves in each output window's buffer as a function of the three input
    blocks, the body's separation-logic triple, the pipeline's proof data and its body obligation. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0: custom_call 0, `cc0__qkv_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x128x1024 := Rect.unit (s := S1x128x1024) ![0, 0, 0] S1x128x1024.size inb_S1x128x1024_S1x128x1024_0_0_0
abbrev r0_1 : Rect S1024x3072 := Rect.unit (s := S1024x3072) ![0, 0] S1024x3072.size inb_S1024x3072_S1024x3072_0_0
abbrev r0_2 : Rect S3072 := Rect.unit (s := S3072) ![0] S3072.size inb_S3072_S3072_0
abbrev r0_3 : Rect S1x16x128x64 := Rect.unit (s := S1x16x128x64) ![0, 0, 0, 0] S1x16x128x64.size inb_S1x16x128x64_S1x16x128x64_0_0_0_0

/-! ## What the body leaves in each output window's buffer -/

/-- Window 3's staging buffer after the body, from the input windows' blocks: its one whole-block store as a
    piece (the payload is the skeleton's). -/
def out0_3 (x0 : Vec F S1x128x1024 .f32) (x1 : Vec F S1024x3072 .f32) (x2 : Vec F S3072 .f32) : Vec F S1x16x128x64 .bf16 :=
  View.canon [⟨r0_3, k0_pay2 (View.ld x0 r0_0) (View.ld x1 r0_1) (View.ld x2 r0_2)⟩]

/-- Its one store is of the whole buffer, so it covers it. -/
theorem cover0_3 (p0 : Vec F S1x16x128x64 .bf16) (y : S1x16x128x64.Idx) :
    ∃ pc ∈ ([⟨r0_3, p0⟩] : List (View.Piece (Elt F) S1x16x128x64 .bf16)), y ∈ pc.1.set :=
  View.cover_of_tiled [⟨r0_3, p0⟩] S1x16x128x64.size (by rfl) y

/-- Window 4's staging buffer after the body, from the input windows' blocks: its one whole-block store as a
    piece (the payload is the skeleton's). -/
def out0_4 (x0 : Vec F S1x128x1024 .f32) (x1 : Vec F S1024x3072 .f32) (x2 : Vec F S3072 .f32) : Vec F S1x16x128x64 .bf16 :=
  View.canon [⟨r0_3, k0_pay3 (View.ld x0 r0_0) (View.ld x1 r0_1) (View.ld x2 r0_2)⟩]

/-- Its one store is of the whole buffer, so it covers it. -/
theorem cover0_4 (p0 : Vec F S1x16x128x64 .bf16) (y : S1x16x128x64.Idx) :
    ∃ pc ∈ ([⟨r0_3, p0⟩] : List (View.Piece (Elt F) S1x16x128x64 .bf16)), y ∈ pc.1.set :=
  View.cover_of_tiled [⟨r0_3, p0⟩] S1x16x128x64.size (by rfl) y

/-- Window 5's staging buffer after the body, from the input windows' blocks: its one whole-block store as a
    piece (the payload is the skeleton's). -/
def out0_5 (x0 : Vec F S1x128x1024 .f32) (x1 : Vec F S1024x3072 .f32) (x2 : Vec F S3072 .f32) : Vec F S1x16x128x64 .bf16 :=
  View.canon [⟨r0_3, k0_pay4 (View.ld x0 r0_0) (View.ld x1 r0_1) (View.ld x2 r0_2)⟩]

/-- Its one store is of the whole buffer, so it covers it. -/
theorem cover0_5 (p0 : Vec F S1x16x128x64 .bf16) (y : S1x16x128x64.Idx) :
    ∃ pc ∈ ([⟨r0_3, p0⟩] : List (View.Piece (Elt F) S1x16x128x64 .bf16)), y ∈ pc.1.set :=
  View.cover_of_tiled [⟨r0_3, p0⟩] S1x16x128x64.size (by rfl) y

/-! ## The body's triple -/

set_option maxHeartbeats 1000000 in
/-- The kernel body on whole staging memrefs, the inputs' at read contents `xW` and the outputs' at anything, at any
    grid coordinates, runs to the continuation holding the inputs' as they were and each output's at `out0_W` of the
    inputs': each output buffer is read once (the value is unused) and then stored whole. -/
theorem sound_kernel0 (c : Dev nD) (E : Set ℕ) (i : grid0.Coords) (a0 : Memref sig .tc .vmem S1x128x1024 .f32) (ha0 : a0.IsWhole) (a1 : Memref sig .tc .vmem S1024x3072 .f32) (ha1 : a1.IsWhole) (a2 : Memref sig .tc .vmem S3072 .f32) (ha2 : a2.IsWhole) (a3 : Memref sig .tc .vmem S1x16x128x64 .bf16) (ha3 : a3.IsWhole) (a4 : Memref sig .tc .vmem S1x16x128x64 .bf16) (ha4 : a4.IsWhole) (a5 : Memref sig .tc .vmem S1x16x128x64 .bf16) (ha5 : a5.IsWhole)
    (x0 : Vec F S1x128x1024 .f32) (x1 : Vec F S1024x3072 .f32) (x2 : Vec F S3072 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d) ∗ (∃ d, owns (c : Thread nD τ) a4 fullShare d) ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare (out0_3 x0 x1 x2) ∗ owns (c : Thread nD τ) a4 fullShare (out0_4 x0 x1 x2) ∗ owns (c : Thread nD τ) a5 fullShare (out0_5 x0 x1 x2)) -∗ K ⟨⟩))
      ⊢ wp frame (wpE (defs₀ (F := F)) Variants.none c none) E (cc0__qkv_kernel i a0 ha0 a1 ha1 a2 ha2 a3 ha3 a4 ha4 a5 ha5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and each output's at `out0_W` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«167322_j54778012893327_2_alg».proof.Proof.Gen.Kernel.Launch
import proofs.«167322_j54778012893327_2_alg».proof.Proof.Gen.Kernel.Skeleton
import proofs.«167322_j54778012893327_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of region 1 (the per-head softmax attention), at any entry contents `V` of the TensorCore's buffers:
    each window's block at a grid point, what the body leaves in the output window's buffer as a function of the three
    input blocks, the body's separation-logic triple, the pipeline's proof data and its body obligation. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1: custom_call 1, `cc1__attn_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x1x512x64 := Rect.unit (s := S1x1x512x64) ![0, 0, 0, 0] S1x1x512x64.size inb_S1x1x512x64_S1x1x512x64_0_0_0_0
abbrev r1_1 : Rect S1x1x2048x64 := Rect.unit (s := S1x1x2048x64) ![0, 0, 0, 0] S1x1x2048x64.size inb_S1x1x2048x64_S1x1x2048x64_0_0_0_0

/-! ## What the body leaves in each output window's buffer -/

/-- Window 3's staging buffer after the body, from the input windows' blocks: its one whole-block store as a
    piece (the payload is the skeleton's). -/
def out1_3 (x0 : Vec F S1x1x512x64 .bf16) (x1 : Vec F S1x1x2048x64 .bf16) (x2 : Vec F S1x1x2048x64 .bf16) : Vec F S1x1x512x64 .bf16 :=
  View.canon [⟨r1_0, k1_pay1 (View.ld x0 r1_0) (View.ld x1 r1_1) (View.ld x2 r1_1)⟩]

/-- Its one store is of the whole buffer, so it covers it. -/
theorem cover1_3 (p0 : Vec F S1x1x512x64 .bf16) (y : S1x1x512x64.Idx) :
    ∃ pc ∈ ([⟨r1_0, p0⟩] : List (View.Piece (Elt F) S1x1x512x64 .bf16)), y ∈ pc.1.set :=
  View.cover_of_tiled [⟨r1_0, p0⟩] S1x1x512x64.size (by rfl) y

/-! ## The body's triple -/

set_option maxHeartbeats 1000000 in
/-- The kernel body on whole staging memrefs, the inputs' at read contents `xW` and the outputs' at anything, at any
    grid coordinates, runs to the continuation holding the inputs' as they were and each output's at `out1_W` of the
    inputs': each output buffer is read once (the value is unused) and then stored whole. -/
theorem sound_kernel1 (c : Dev nD) (E : Set ℕ) (i : grid1.Coords) (a0 : Memref sig .tc .vmem S1x1x512x64 .bf16) (ha0 : a0.IsWhole) (a1 : Memref sig .tc .vmem S1x1x2048x64 .bf16) (ha1 : a1.IsWhole) (a2 : Memref sig .tc .vmem S1x1x2048x64 .bf16) (ha2 : a2.IsWhole) (a3 : Memref sig .tc .vmem S1x1x512x64 .bf16) (ha3 : a3.IsWhole)
    (x0 : Vec F S1x1x512x64 .bf16) (x1 : Vec F S1x1x2048x64 .bf16) (x2 : Vec F S1x1x2048x64 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__attn_kernel i a0 ha0 a1 ha1 a2 ha2 a3 ha3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and each output's at `out1_W` of the input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2Base.lean ====
/-
  The output projection's region (the third pallas_call), what its three control cases share: the windows' blocks
  read off the arrays as the region finds them, the two branch conditions of the body — "this is the first head"
  and "this is the last head" of the reduction axis — decided over the grid, where the output window is idle,
  the staging and scratch memrefs by name, and the region invariant split into the accumulator scratch, the
  other scoped buffers and the generator register.
-/
import proofs.«167322_j54778012893327_2_alg».proof.Proof.Gen.Kernel.Launch
import proofs.«167322_j54778012893327_2_alg».proof.Proof.Gen.Kernel.Skeleton
import proofs.«167322_j54778012893327_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions -/

/-- "The head coordinate is 0": the accumulator is reset. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
/-- "The head coordinate is 15": the accumulator plus the bias is written to the output block. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last head the output window is idle and not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The memrefs by name -/

abbrev VO2_3 : View sig .tc .vmem S1x512x1024 .f32 := (Memref.whole cc2_stg3_0 : Memref sig .tc .vmem S1x512x1024 .f32).view
abbrev ms2_0 (t : Fin cfg2.N) : Memref sig .tc .vmem S1x1x512x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512x1024 .f32 := win2_3.stage (cfg2.slots t 3)
abbrev hs2_3 (t : Fin cfg2.N) : (ms2_3 t).IsWhole := hstage2_3 ((cfg2.slots t 3).cast nbuf2_3)
/-- The accumulator scratch. -/
abbrev scM2_0 : Memref sig .tc .vmem S512x1024 .f32 := Memref.whole cc2_scratch0
abbrev VS2_0 : View sig .tc .vmem S512x1024 .f32 := scM2_0.view

/-! ## The invariant's parts -/

/-- The scoped buffers of the other two regions, each whole at some contents: they ride through this region untouched. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant opened: the other regions' scoped buffers, the accumulator scratch at some contents, the generator register. -/
theorem PhiA2_elim (c : Dev nD) :
    (Pipeline.ΦA spec2 c : sProp 𝕄) ⊢ iprop(iprop(rest2 c ∗ (∃ d, owns (c : Thread nD τ) scM2_0 fullShare d)) ∗ (∃ r, prngReg c r)) := by
  unfold Pipeline.ΦA; rw [scopedRest2_eq]; unfold rest2
  iintro ⟨⟨A0, A1, A2, A3, A4, A5, A6, A7, A8, A9, A10, A11, A12, A13, A14, A15, A16, A17, ⟨%f, HS⟩⟩, Hg⟩
  isplitr [Hg]
  swap; · iexact Hg
  isplitr [HS]
  swap; · iexists f; rw [owns_whole]; iexact HS
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  iexact A17

/-- And closed again. -/
theorem PhiA2_intro (c : Dev nD) :
    iprop(iprop(rest2 c ∗ (∃ d, owns (c : Thread nD τ) scM2_0 fullShare d)) ∗ (∃ r, prngReg c r)) ⊢ (Pipeline.ΦA spec2 c : sProp 𝕄) := by
  unfold Pipeline.ΦA; rw [scopedRest2_eq]; unfold rest2
  iintro ⟨⟨⟨A0, A1, A2, A3, A4, A5, A6, A7, A8, A9, A10, A11, A12, A13, A14, A15, A16, A17⟩, ⟨%d, HS⟩⟩, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  iexists d; rw [← owns_whole]; iexact HS

end Cert.Kernel.Hand

end
-- ==== Proof.K.Run2A.lean ====
/-
  The output projection's body run once in the case of the first head of a tile: the accumulator is reset to zero, then this head's product is added; the output block is left as found.
  The stores each buffer ends with are found by running the body symbolically; they are the witness.
-/
import proofs.«167322_j54778012893327_2_alg».proof.Proof.K.Reg2Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output block (`L3`) and in the accumulator scratch (`LS0`), last first, with the proof
    that on whole memrefs holding the three input blocks the body runs to the continuation with those pieces written. -/
noncomputable def kernelRun2_A (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : cond2_0 i) (hc1 : ¬cond2_1 i)
    (x0 : Vec F S1x1x512x64 .bf16) (x1 : Vec F S1x64x1024 .f32) (x2 : Vec F S1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__out_proj_kernel i arg3 harg3 arg4 harg4 arg5 harg5 arg6 harg6 arg7 harg7) K } := by
  refine ⟨[], ?_, fun xi3 E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.Run2B.lean ====
/-
  The output projection's body run once in the case of a head strictly between the first and the last: this head's product is added to the accumulator; the output block is left as found.
  The stores each buffer ends with are found by running the body symbolically; they are the witness.
-/
import proofs.«167322_j54778012893327_2_alg».proof.Proof.K.Run2A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output block (`L3`) and in the accumulator scratch (`LS0`), last first, with the proof
    that on whole memrefs holding the three input blocks the body runs to the continuation with those pieces written. -/
noncomputable def kernelRun2_B (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : ¬cond2_1 i)
    (x0 : Vec F S1x1x512x64 .bf16) (x1 : Vec F S1x64x1024 .f32) (x2 : Vec F S1024 .f32) (xs0 : Vec F S512x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__out_proj_kernel i arg3 harg3 arg4 harg4 arg5 harg5 arg6 harg6 arg7 harg7) K } := by
  refine ⟨[], ?_, fun xi3 E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.Run2C.lean ====
/-
  The output projection's body run once in the case of the last head of a tile: this head's product is added to the accumulator, and the accumulator plus the bias is stored into the output block.
  The stores each buffer ends with are found by running the body symbolically; they are the witness.
-/
import proofs.«167322_j54778012893327_2_alg».proof.Proof.K.Run2B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output block (`L3`) and in the accumulator scratch (`LS0`), last first, with the proof
    that on whole memrefs holding the three input blocks the body runs to the continuation with those pieces written. -/
noncomputable def kernelRun2_C (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x1x512x64 .bf16) (x1 : Vec F S1x64x1024 .f32) (x2 : Vec F S1024 .f32) (xs0 : Vec F S512x1024 .f32) :
    Σ' (L3 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__out_proj_kernel i arg3 harg3 arg4 harg4 arg5 harg5 arg6 harg6 arg7 harg7) K } := by
  refine ⟨?_, ?_, fun E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.Reg2.lean ====
/-
  The output projection's region: what the output block and the accumulator scratch hold after each grid point
  (the accumulator is zero plus the first head's product at a tile's first point, the previous point's plus this
  head's product afterwards; at a tile's last point the output block is the accumulator plus the bias), the region
  invariant carrying the accumulator between points, the proof data, and the body obligation at every point.
-/
import proofs.«167322_j54778012893327_2_alg».proof.Proof.K.Run2C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator scratch after the body in case A: the run's pieces cover it, -/
theorem scover2_A_0 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : cond2_0 i) (hc1 : ¬cond2_1 i)
    (x0 : Vec F S1x1x512x64 .bf16) (x1 : Vec F S1x64x1024 .f32) (x2 : Vec F S1024 .f32) (y : S512x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S512x1024.size (by sl_kernel_rfl) y
/-- and what it holds is those pieces read back. -/
def sout2_A_0 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : cond2_0 i) (hc1 : ¬cond2_1 i)
    (x0 : Vec F S1x1x512x64 .bf16) (x1 : Vec F S1x64x1024 .f32) (x2 : Vec F S1024 .f32) : Vec F S512x1024 .f32 :=
  VS2_0.read (Elt F) (VS2_0.writes (Elt F) VS2_0.junk (kernelRun2_A c i arg3 harg3 arg4 harg4 arg5 harg5 arg6 harg6 arg7 harg7 hc0 hc1 x0 x1 x2).2.1)
/-- The output block after the body in case A (no store: a placeholder nothing consults, the window being idle and not written back there). -/
def out2_A_3 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : cond2_0 i) (hc1 : ¬cond2_1 i)
    (x0 : Vec F S1x1x512x64 .bf16) (x1 : Vec F S1x64x1024 .f32) (x2 : Vec F S1024 .f32) : Vec F S1x512x1024 .f32 :=
  VO2_3.read (Elt F) (VO2_3.writes (Elt F) VO2_3.junk (kernelRun2_A c i arg3 harg3 arg4 harg4 arg5 harg5 arg6 harg6 arg7 harg7 hc0 hc1 x0 x1 x2).1)

/-- The accumulator scratch after the body in case B: the run's pieces cover it, -/
theorem scover2_B_0 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : ¬cond2_1 i)
    (x0 : Vec F S1x1x512x64 .bf16) (x1 : Vec F S1x64x1024 .f32) (x2 : Vec F S1024 .f32) (xs0 : Vec F S512x1024 .f32) (y : S512x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S512x1024.size (by sl_kernel_rfl) y
/-- and what it holds is those pieces read back. -/
def sout2_B_0 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : ¬cond2_1 i)
    (x0 : Vec F S1x1x512x64 .bf16) (x1 : Vec F S1x64x1024 .f32) (x2 : Vec F S1024 .f32) (xs0 : Vec F S512x1024 .f32) : Vec F S512x1024 .f32 :=
  VS2_0.read (Elt F) (VS2_0.writes (Elt F) VS2_0.junk (kernelRun2_B c i arg3 harg3 arg4 harg4 arg5 harg5 arg6 harg6 arg7 harg7 hc0 hc1 x0 x1 x2 xs0).2.1)
/-- The output block after the body in case B (no store: a placeholder nothing consults, the window being idle and not written back there). -/
def out2_B_3 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : ¬cond2_1 i)
    (x0 : Vec F S1x1x512x64 .bf16) (x1 : Vec F S1x64x1024 .f32) (x2 : Vec F S1024 .f32) (xs0 : Vec F S512x1024 .f32) : Vec F S1x512x1024 .f32 :=
  VO2_3.read (Elt F) (VO2_3.writes (Elt F) VO2_3.junk (kernelRun2_B c i arg3 harg3 arg4 harg4 arg5 harg5 arg6 harg6 arg7 harg7 hc0 hc1 x0 x1 x2 xs0).1)

/-- The accumulator scratch after the body in case C: the run's pieces cover it, -/
theorem scover2_C_0 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x1x512x64 .bf16) (x1 : Vec F S1x64x1024 .f32) (x2 : Vec F S1024 .f32) (xs0 : Vec F S512x1024 .f32) (y : S512x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S512x1024.size (by sl_kernel_rfl) y
/-- and what it holds is those pieces read back. -/
def sout2_C_0 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x1x512x64 .bf16) (x1 : Vec F S1x64x1024 .f32) (x2 : Vec F S1024 .f32) (xs0 : Vec F S512x1024 .f32) : Vec F S512x1024 .f32 :=
  VS2_0.read (Elt F) (VS2_0.writes (Elt F) VS2_0.junk (kernelRun2_C c i arg3 harg3 arg4 harg4 arg5 harg5 arg6 harg6 arg7 harg7 hc0 hc1 x0 x1 x2 xs0).2.1)
/-- The output block after the body in case C. -/
def out2_C_3 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x1x512x64 .bf16) (x1 : Vec F S1x64x1024 .f32) (x2 : Vec F S1024 .f32) (xs0 : Vec F S512x1024 .f32) : Vec F S1x512x1024 .f32 :=
  VO2_3.read (Elt F) (VO2_3.writes (Elt F) VO2_3.junk (kernelRun2_C c i arg3 harg3 arg4 harg4 arg5 harg5 arg6 harg6 arg7 harg7 hc0 hc1 x0 x1 x2 xs0).1)
/-- In the last-head case the output block is covered by the run's pieces. -/
theorem cover2_C_3 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x1x512x64 .bf16) (x1 : Vec F S1x64x1024 .f32) (x2 : Vec F S1024 .f32) (xs0 : Vec F S512x1024 .f32) (y : S1x512x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1x512x1024.size (by sl_kernel_rfl) y

/-! ## What the output block and the accumulator hold after each point -/

/-- After the body at position `n`: (the output block, the accumulator scratch), by recursion on the position — the case
    the closed forms select, the accumulator it starts from being what the point before left. -/
def outsAt2 (c : Dev nD) : (n : ℕ) → n < cfg2.N → Vec F S1x512x1024 .f32 × Vec F S512x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 16 = 0 then
      if h1 : (n + 1) % 16 = 15 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 16 = 15 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 16 = 0) (h1 : ¬t.val % 16 = 15) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 16 = 0) (h1 : ¬t.val % 16 = 15) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 16 = 0) (h1 : t.val % 16 = 15) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the start the class invariant (every scoped buffer at anything); afterwards the other regions'
    scoped buffers, the accumulator scratch at what the point before left, and the generator register. -/
def PhiS2 (c : Dev nD) : (n : ℕ) → n ≤ cfg2.N → sProp 𝕄
  | 0, _ => Pipeline.ΦA spec2 c
  | n + 1, hn => iprop(iprop(rest2 c ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(rest2 c ∗ owns (c : Thread nD τ) scM2_0 fullShare ((outsAt2 V c n hn).2)) ∗ (∃ r, prngReg c r)) := rfl
theorem PhiS2_pos (c : Dev nD) (n : ℕ) (h : n ≤ cfg2.N) (hz : n ≠ 0) :
    PhiS2 V c n h = iprop(iprop(rest2 c ∗ owns (c : Thread nD τ) scM2_0 fullShare ((outsAt2 V c (n - 1) (by omega)).2)) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

end Cert.Kernel.Hand

end
-- ==== Proof.K.Reg2Body.lean ====
/-
  The output projection's body at every grid point meets the pipeline's obligation: by the closed forms of the two
  branch conditions the point is in one of three cases; the invariant hands the body the accumulator scratch at what
  the point before left (at anything at a tile's first point, where the body resets it) and takes it back at this
  point's contents; away from a tile's last point the output block is handed back untouched.
-/
import proofs.«167322_j54778012893327_2_alg».proof.Proof.K.Reg2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 16 = 0
  · have h1 : ¬t.val % 16 = 15 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1)]
    rw [outsAt2_A V c t h0 h1]
    unfold sout2_A_0; (try dsimp only)
    by_cases hz : t.val = 0
    · rw [PhiS2_castSucc V c t, PhiS2_zero V c _ _ hz]
      refine (sep_mono (PhiA2_elim c) .rfl).trans ?_
      iintro ⟨⟨⟨Hrest, HS0⟩, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hrest HS0 Hg]
      · isplitl [Hrest HS0]
        · isplitl [Hrest]; · iexact Hrest
          unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨Hrest, HS0⟩, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Hrest HS0 Hg]
      · isplitl [Hrest HS0]
        · isplitl [Hrest]; · iexact Hrest
          unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond2_0 (grid2.coords t) := fun h => h0 ((hcond2_0 t).mp h)
    by_cases h1 : t.val % 16 = 15
    · have hc1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hc1], after2_3]
      rw [outsAt2_C V c t h0 h1]
      unfold out2_C_3 sout2_C_0; (try dsimp only)
      rw [PhiS2_castSucc V c t, PhiS2_pos V c _ _ hz]
      iintro ⟨⟨⟨Hrest, HS0⟩, Hg⟩, Ho, ⟨%d0, H0⟩, ⟨%d1, H1⟩, ⟨%d2, H2⟩, ⟨%d3, H3⟩⟩
      iapply ((kernelRun2_C c (grid2.coords t) _ _ _ _ _ _ _ _ _ _ hc0 hc1 (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hrest HS0 Hg]
      · isplitl [Hrest HS0]
        · isplitl [Hrest]; · iexact Hrest
          unfold owns; iexists _; isplitr
          swap; · iexact HS0
          ipureintro; exact View.read_writes_of_cover _ _ _ _ _ (scover2_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · have hc1 : ¬cond2_1 (grid2.coords t) := fun h => h1 ((hcond2_1 t).mp h)
      rw [Dat.leavesExact_idle (dat2 V c) 3 t (idleAt2_3 t hc1) (noFlush2_3 t hc1)]
      rw [outsAt2_B V c t h0 h1]
      unfold sout2_B_0; (try dsimp only)
      rw [PhiS2_castSucc V c t, PhiS2_pos V c _ _ hz]
      iintro ⟨⟨⟨Hrest, HS0⟩, Hg⟩, Ho, ⟨%d0, H0⟩, ⟨%d1, H1⟩, ⟨%d2, H2⟩, ⟨%d3, H3⟩⟩
      iapply ((kernelRun2_B c (grid2.coords t) _ _ _ _ _ _ _ _ _ _ hc0 hc1 (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hrest HS0 Hg]
      · isplitl [Hrest HS0]
        · isplitl [Hrest]; · iexact Hrest
          unfold owns; iexists _; isplitr
          swap; · iexact HS0
          ipureintro; exact View.read_writes_of_cover _ _ _ _ _ (scover2_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- The class invariant the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 128 := N_2; omega)]
  refine .trans ?_ (PhiA2_intro c)
  iintro ⟨⟨Hrest, HS0⟩, Hg⟩
  isplitr [Hg]
  swap; · iexact Hg
  isplitl [Hrest]; · iexact Hrest
  iexists _; iexact HS0

end Cert.Kernel.Hand

end
-- ==== Proof.K.Run.lean ====
/-
  The whole program as a chain of five segments — a transpose of the projection weight on the host, the projection
  region, the attention region, a transpose and a re-view of the output weight on the host, the output-projection region
  — with the buffer contents at every boundary as a fold from the launch memory: a host stretch applies its operations,
  a region leaves its arrays at what its write-backs produce. Every weakly fair execution terminates without a fault;
  at the end the result buffer holds what the last region's write-backs leave, and the five arguments are as launched
  (no host operation and no region writes one).
-/
import proofs.«167322_j54778012893327_2_alg».proof.Proof.K.Reg0
import proofs.«167322_j54778012893327_2_alg».proof.Proof.K.Reg1
import proofs.«167322_j54778012893327_2_alg».proof.Proof.K.Reg2Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W4_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W4_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W4_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W4_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := (W6_arr m ρ c 2).trans (((dat2 (V5 m ρ) c).arrAt_in 2 rfl _).trans (A_eq2 (V5 m ρ) c 2))
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W4_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment: entered with every unscoped buffer at the boundary's contents, left with its arrays at what its
    write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the boundary's contents, left with its arrays at what its
    write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the boundary's contents, left with its arrays at what its
    write-backs leave and every other buffer as entered. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V5 m ρ) c); unfold Pipeline.ΦA
    iintro ⟨Hp, -, Hr⟩
    isplitl [Hr]; · iexact Hr
    iexact Hp
  hout c := by
    refine (hout2 (V5 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .host (hseg hostOps2 hostOps2_sub hostOps2_fresh' (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting; the result buffer
    ends at what the output-projection region's write-backs leave, the five arguments as launched. -/
theorem run_main : θ_run defs (onTc (τ := τ) (main (F := F))) ⟨m, fun _ => 0, ρ⟩ (fun r => ∀ c : Dev nD,
      r.2.mem ((c.tc : Thread nD τ).loc main_v0) = (dat2 (V5 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v0 (by decide))).trans (W6_arr m ρ c 3),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.Kernel.Hand

end
-- ==== Proof.KI.Reg0.lean ====
import proofs.«167322_j54778012893327_2_alg».proof.Proof.Gen.KernelIdeal.Launch
import proofs.«167322_j54778012893327_2_alg».proof.Proof.Gen.KernelIdeal.Skeleton
import proofs.«167322_j54778012893327_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of region 0 (the fused QKV projection), at any entry contents `V` of the TensorCore's buffers: each
    window's block at a grid point, what the body leaves in each output window's buffer as a function of the three input
    blocks, the body's separation-logic triple, the pipeline's proof data and its body obligation. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0: custom_call 0, `cc0__qkv_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x128x1024 := Rect.unit (s := S1x128x1024) ![0, 0, 0] S1x128x1024.size inb_S1x128x1024_S1x128x1024_0_0_0
abbrev r0_1 : Rect S1024x3072 := Rect.unit (s := S1024x3072) ![0, 0] S1024x3072.size inb_S1024x3072_S1024x3072_0_0
abbrev r0_2 : Rect S3072 := Rect.unit (s := S3072) ![0] S3072.size inb_S3072_S3072_0
abbrev r0_3 : Rect S1x16x128x64 := Rect.unit (s := S1x16x128x64) ![0, 0, 0, 0] S1x16x128x64.size inb_S1x16x128x64_S1x16x128x64_0_0_0_0

/-! ## What the body leaves in each output window's buffer -/

/-- Window 3's staging buffer after the body, from the input windows' blocks: its one whole-block store as a
    piece (the payload is the skeleton's). -/
def out0_3 (x0 : Vec F S1x128x1024 .f32) (x1 : Vec F S1024x3072 .f32) (x2 : Vec F S3072 .f32) : Vec F S1x16x128x64 .bf16 :=
  View.canon [⟨r0_3, k0_pay2 (View.ld x0 r0_0) (View.ld x1 r0_1) (View.ld x2 r0_2)⟩]

/-- Its one store is of the whole buffer, so it covers it. -/
theorem cover0_3 (p0 : Vec F S1x16x128x64 .bf16) (y : S1x16x128x64.Idx) :
    ∃ pc ∈ ([⟨r0_3, p0⟩] : List (View.Piece (Elt F) S1x16x128x64 .bf16)), y ∈ pc.1.set :=
  View.cover_of_tiled [⟨r0_3, p0⟩] S1x16x128x64.size (by rfl) y

/-- Window 4's staging buffer after the body, from the input windows' blocks: its one whole-block store as a
    piece (the payload is the skeleton's). -/
def out0_4 (x0 : Vec F S1x128x1024 .f32) (x1 : Vec F S1024x3072 .f32) (x2 : Vec F S3072 .f32) : Vec F S1x16x128x64 .bf16 :=
  View.canon [⟨r0_3, k0_pay3 (View.ld x0 r0_0) (View.ld x1 r0_1) (View.ld x2 r0_2)⟩]

/-- Its one store is of the whole buffer, so it covers it. -/
theorem cover0_4 (p0 : Vec F S1x16x128x64 .bf16) (y : S1x16x128x64.Idx) :
    ∃ pc ∈ ([⟨r0_3, p0⟩] : List (View.Piece (Elt F) S1x16x128x64 .bf16)), y ∈ pc.1.set :=
  View.cover_of_tiled [⟨r0_3, p0⟩] S1x16x128x64.size (by rfl) y

/-- Window 5's staging buffer after the body, from the input windows' blocks: its one whole-block store as a
    piece (the payload is the skeleton's). -/
def out0_5 (x0 : Vec F S1x128x1024 .f32) (x1 : Vec F S1024x3072 .f32) (x2 : Vec F S3072 .f32) : Vec F S1x16x128x64 .bf16 :=
  View.canon [⟨r0_3, k0_pay4 (View.ld x0 r0_0) (View.ld x1 r0_1) (View.ld x2 r0_2)⟩]

/-- Its one store is of the whole buffer, so it covers it. -/
theorem cover0_5 (p0 : Vec F S1x16x128x64 .bf16) (y : S1x16x128x64.Idx) :
    ∃ pc ∈ ([⟨r0_3, p0⟩] : List (View.Piece (Elt F) S1x16x128x64 .bf16)), y ∈ pc.1.set :=
  View.cover_of_tiled [⟨r0_3, p0⟩] S1x16x128x64.size (by rfl) y

/-! ## The body's triple -/

set_option maxHeartbeats 1000000 in
/-- The kernel body on whole staging memrefs, the inputs' at read contents `xW` and the outputs' at anything, at any
    grid coordinates, runs to the continuation holding the inputs' as they were and each output's at `out0_W` of the
    inputs': each output buffer is read once (the value is unused) and then stored whole. -/
theorem sound_kernel0 (c : Dev nD) (E : Set ℕ) (i : grid0.Coords) (a0 : Memref sig .tc .vmem S1x128x1024 .f32) (ha0 : a0.IsWhole) (a1 : Memref sig .tc .vmem S1024x3072 .f32) (ha1 : a1.IsWhole) (a2 : Memref sig .tc .vmem S3072 .f32) (ha2 : a2.IsWhole) (a3 : Memref sig .tc .vmem S1x16x128x64 .bf16) (ha3 : a3.IsWhole) (a4 : Memref sig .tc .vmem S1x16x128x64 .bf16) (ha4 : a4.IsWhole) (a5 : Memref sig .tc .vmem S1x16x128x64 .bf16) (ha5 : a5.IsWhole)
    (x0 : Vec F S1x128x1024 .f32) (x1 : Vec F S1024x3072 .f32) (x2 : Vec F S3072 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d) ∗ (∃ d, owns (c : Thread nD τ) a4 fullShare d) ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare (out0_3 x0 x1 x2) ∗ owns (c : Thread nD τ) a4 fullShare (out0_4 x0 x1 x2) ∗ owns (c : Thread nD τ) a5 fullShare (out0_5 x0 x1 x2)) -∗ K ⟨⟩))
      ⊢ wp frame (wpE (defs₀ (F := F)) Variants.none c none) E (cc0__qkv_kernel i a0 ha0 a1 ha1 a2 ha2 a3 ha3 a4 ha4 a5 ha5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and each output's at `out0_W` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«167322_j54778012893327_2_alg».proof.Proof.Gen.KernelIdeal.Launch
import proofs.«167322_j54778012893327_2_alg».proof.Proof.Gen.KernelIdeal.Skeleton
import proofs.«167322_j54778012893327_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The frame half of region 1 (the per-head softmax attention), at any entry contents `V` of the TensorCore's buffers:
    each window's block at a grid point, what the body leaves in the output window's buffer as a function of the three
    input blocks, the body's separation-logic triple, the pipeline's proof data and its body obligation. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1: custom_call 1, `cc1__attn_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x1x512x64 := Rect.unit (s := S1x1x512x64) ![0, 0, 0, 0] S1x1x512x64.size inb_S1x1x512x64_S1x1x512x64_0_0_0_0
abbrev r1_1 : Rect S1x1x2048x64 := Rect.unit (s := S1x1x2048x64) ![0, 0, 0, 0] S1x1x2048x64.size inb_S1x1x2048x64_S1x1x2048x64_0_0_0_0

/-! ## What the body leaves in each output window's buffer -/

/-- Window 3's staging buffer after the body, from the input windows' blocks: its one whole-block store as a
    piece (the payload is the skeleton's). -/
def out1_3 (x0 : Vec F S1x1x512x64 .bf16) (x1 : Vec F S1x1x2048x64 .bf16) (x2 : Vec F S1x1x2048x64 .bf16) : Vec F S1x1x512x64 .bf16 :=
  View.canon [⟨r1_0, k1_pay1 (View.ld x0 r1_0) (View.ld x1 r1_1) (View.ld x2 r1_1)⟩]

/-- Its one store is of the whole buffer, so it covers it. -/
theorem cover1_3 (p0 : Vec F S1x1x512x64 .bf16) (y : S1x1x512x64.Idx) :
    ∃ pc ∈ ([⟨r1_0, p0⟩] : List (View.Piece (Elt F) S1x1x512x64 .bf16)), y ∈ pc.1.set :=
  View.cover_of_tiled [⟨r1_0, p0⟩] S1x1x512x64.size (by rfl) y

/-! ## The body's triple -/

set_option maxHeartbeats 1000000 in
/-- The kernel body on whole staging memrefs, the inputs' at read contents `xW` and the outputs' at anything, at any
    grid coordinates, runs to the continuation holding the inputs' as they were and each output's at `out1_W` of the
    inputs': each output buffer is read once (the value is unused) and then stored whole. -/
theorem sound_kernel1 (c : Dev nD) (E : Set ℕ) (i : grid1.Coords) (a0 : Memref sig .tc .vmem S1x1x512x64 .bf16) (ha0 : a0.IsWhole) (a1 : Memref sig .tc .vmem S1x1x2048x64 .bf16) (ha1 : a1.IsWhole) (a2 : Memref sig .tc .vmem S1x1x2048x64 .bf16) (ha2 : a2.IsWhole) (a3 : Memref sig .tc .vmem S1x1x512x64 .bf16) (ha3 : a3.IsWhole)
    (x0 : Vec F S1x1x512x64 .bf16) (x1 : Vec F S1x1x2048x64 .bf16) (x2 : Vec F S1x1x2048x64 .bf16) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1__attn_kernel i a0 ha0 a1 ha1 a2 ha2 a3 ha3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and each output's at `out1_W` of the input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2Base.lean ====
/-
  The output projection's region (the third pallas_call), what its three control cases share: the windows' blocks
  read off the arrays as the region finds them, the two branch conditions of the body — "this is the first head"
  and "this is the last head" of the reduction axis — decided over the grid, where the output window is idle,
  the staging and scratch memrefs by name, and the region invariant split into the accumulator scratch, the
  other scoped buffers and the generator register.
-/
import proofs.«167322_j54778012893327_2_alg».proof.Proof.Gen.KernelIdeal.Launch
import proofs.«167322_j54778012893327_2_alg».proof.Proof.Gen.KernelIdeal.Skeleton
import proofs.«167322_j54778012893327_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions -/

/-- "The head coordinate is 0": the accumulator is reset. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
/-- "The head coordinate is 15": the accumulator plus the bias is written to the output block. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last head the output window is idle and not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The memrefs by name -/

abbrev VO2_3 : View sig .tc .vmem S1x512x1024 .f32 := (Memref.whole cc2_stg3_0 : Memref sig .tc .vmem S1x512x1024 .f32).view
abbrev ms2_0 (t : Fin cfg2.N) : Memref sig .tc .vmem S1x1x512x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512x1024 .f32 := win2_3.stage (cfg2.slots t 3)
abbrev hs2_3 (t : Fin cfg2.N) : (ms2_3 t).IsWhole := hstage2_3 ((cfg2.slots t 3).cast nbuf2_3)
/-- The accumulator scratch. -/
abbrev scM2_0 : Memref sig .tc .vmem S512x1024 .f32 := Memref.whole cc2_scratch0
abbrev VS2_0 : View sig .tc .vmem S512x1024 .f32 := scM2_0.view

/-! ## The invariant's parts -/

/-- The scoped buffers of the other two regions, each whole at some contents: they ride through this region untouched. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant opened: the other regions' scoped buffers, the accumulator scratch at some contents, the generator register. -/
theorem PhiA2_elim (c : Dev nD) :
    (Pipeline.ΦA spec2 c : sProp 𝕄) ⊢ iprop(iprop(rest2 c ∗ (∃ d, owns (c : Thread nD τ) scM2_0 fullShare d)) ∗ (∃ r, prngReg c r)) := by
  unfold Pipeline.ΦA; rw [scopedRest2_eq]; unfold rest2
  iintro ⟨⟨A0, A1, A2, A3, A4, A5, A6, A7, A8, A9, A10, A11, A12, A13, A14, A15, A16, A17, ⟨%f, HS⟩⟩, Hg⟩
  isplitr [Hg]
  swap; · iexact Hg
  isplitr [HS]
  swap; · iexists f; rw [owns_whole]; iexact HS
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  iexact A17

/-- And closed again. -/
theorem PhiA2_intro (c : Dev nD) :
    iprop(iprop(rest2 c ∗ (∃ d, owns (c : Thread nD τ) scM2_0 fullShare d)) ∗ (∃ r, prngReg c r)) ⊢ (Pipeline.ΦA spec2 c : sProp 𝕄) := by
  unfold Pipeline.ΦA; rw [scopedRest2_eq]; unfold rest2
  iintro ⟨⟨⟨A0, A1, A2, A3, A4, A5, A6, A7, A8, A9, A10, A11, A12, A13, A14, A15, A16, A17⟩, ⟨%d, HS⟩⟩, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  iexists d; rw [← owns_whole]; iexact HS

end Cert.KernelIdeal.Hand

end
-- ==== Proof.KI.Run2A.lean ====
/-
  The output projection's body run once in the case of the first head of a tile: the accumulator is reset to zero, then this head's product is added; the output block is left as found.
  The stores each buffer ends with are found by running the body symbolically; they are the witness.
-/
import proofs.«167322_j54778012893327_2_alg».proof.Proof.KI.Reg2Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output block (`L3`) and in the accumulator scratch (`LS0`), last first, with the proof
    that on whole memrefs holding the three input blocks the body runs to the continuation with those pieces written. -/
noncomputable def kernelRun2_A (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : cond2_0 i) (hc1 : ¬cond2_1 i)
    (x0 : Vec F S1x1x512x64 .bf16) (x1 : Vec F S1x64x1024 .f32) (x2 : Vec F S1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__out_proj_kernel i arg3 harg3 arg4 harg4 arg5 harg5 arg6 harg6 arg7 harg7) K } := by
  refine ⟨[], ?_, fun xi3 E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.Run2B.lean ====
/-
  The output projection's body run once in the case of a head strictly between the first and the last: this head's product is added to the accumulator; the output block is left as found.
  The stores each buffer ends with are found by running the body symbolically; they are the witness.
-/
import proofs.«167322_j54778012893327_2_alg».proof.Proof.KI.Run2A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output block (`L3`) and in the accumulator scratch (`LS0`), last first, with the proof
    that on whole memrefs holding the three input blocks the body runs to the continuation with those pieces written. -/
noncomputable def kernelRun2_B (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : ¬cond2_1 i)
    (x0 : Vec F S1x1x512x64 .bf16) (x1 : Vec F S1x64x1024 .f32) (x2 : Vec F S1024 .f32) (xs0 : Vec F S512x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__out_proj_kernel i arg3 harg3 arg4 harg4 arg5 harg5 arg6 harg6 arg7 harg7) K } := by
  refine ⟨[], ?_, fun xi3 E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.Run2C.lean ====
/-
  The output projection's body run once in the case of the last head of a tile: this head's product is added to the accumulator, and the accumulator plus the bias is stored into the output block.
  The stores each buffer ends with are found by running the body symbolically; they are the witness.
-/
import proofs.«167322_j54778012893327_2_alg».proof.Proof.KI.Run2B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output block (`L3`) and in the accumulator scratch (`LS0`), last first, with the proof
    that on whole memrefs holding the three input blocks the body runs to the continuation with those pieces written. -/
noncomputable def kernelRun2_C (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x1x512x64 .bf16) (x1 : Vec F S1x64x1024 .f32) (x2 : Vec F S1024 .f32) (xs0 : Vec F S512x1024 .f32) :
    Σ' (L3 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__out_proj_kernel i arg3 harg3 arg4 harg4 arg5 harg5 arg6 harg6 arg7 harg7) K } := by
  refine ⟨?_, ?_, fun E K => ?run⟩
  case run =>
    simp only [cc2__out_proj_kernel_eq_skeleton]; unfold cc2__out_proj_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.Reg2.lean ====
/-
  The output projection's region: what the output block and the accumulator scratch hold after each grid point
  (the accumulator is zero plus the first head's product at a tile's first point, the previous point's plus this
  head's product afterwards; at a tile's last point the output block is the accumulator plus the bias), the region
  invariant carrying the accumulator between points, the proof data, and the body obligation at every point.
-/
import proofs.«167322_j54778012893327_2_alg».proof.Proof.KI.Run2C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator scratch after the body in case A: the run's pieces cover it, -/
theorem scover2_A_0 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : cond2_0 i) (hc1 : ¬cond2_1 i)
    (x0 : Vec F S1x1x512x64 .bf16) (x1 : Vec F S1x64x1024 .f32) (x2 : Vec F S1024 .f32) (y : S512x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S512x1024.size (by sl_kernel_rfl) y
/-- and what it holds is those pieces read back. -/
def sout2_A_0 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : cond2_0 i) (hc1 : ¬cond2_1 i)
    (x0 : Vec F S1x1x512x64 .bf16) (x1 : Vec F S1x64x1024 .f32) (x2 : Vec F S1024 .f32) : Vec F S512x1024 .f32 :=
  VS2_0.read (Elt F) (VS2_0.writes (Elt F) VS2_0.junk (kernelRun2_A c i arg3 harg3 arg4 harg4 arg5 harg5 arg6 harg6 arg7 harg7 hc0 hc1 x0 x1 x2).2.1)
/-- The output block after the body in case A (no store: a placeholder nothing consults, the window being idle and not written back there). -/
def out2_A_3 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : cond2_0 i) (hc1 : ¬cond2_1 i)
    (x0 : Vec F S1x1x512x64 .bf16) (x1 : Vec F S1x64x1024 .f32) (x2 : Vec F S1024 .f32) : Vec F S1x512x1024 .f32 :=
  VO2_3.read (Elt F) (VO2_3.writes (Elt F) VO2_3.junk (kernelRun2_A c i arg3 harg3 arg4 harg4 arg5 harg5 arg6 harg6 arg7 harg7 hc0 hc1 x0 x1 x2).1)

/-- The accumulator scratch after the body in case B: the run's pieces cover it, -/
theorem scover2_B_0 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : ¬cond2_1 i)
    (x0 : Vec F S1x1x512x64 .bf16) (x1 : Vec F S1x64x1024 .f32) (x2 : Vec F S1024 .f32) (xs0 : Vec F S512x1024 .f32) (y : S512x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S512x1024.size (by sl_kernel_rfl) y
/-- and what it holds is those pieces read back. -/
def sout2_B_0 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : ¬cond2_1 i)
    (x0 : Vec F S1x1x512x64 .bf16) (x1 : Vec F S1x64x1024 .f32) (x2 : Vec F S1024 .f32) (xs0 : Vec F S512x1024 .f32) : Vec F S512x1024 .f32 :=
  VS2_0.read (Elt F) (VS2_0.writes (Elt F) VS2_0.junk (kernelRun2_B c i arg3 harg3 arg4 harg4 arg5 harg5 arg6 harg6 arg7 harg7 hc0 hc1 x0 x1 x2 xs0).2.1)
/-- The output block after the body in case B (no store: a placeholder nothing consults, the window being idle and not written back there). -/
def out2_B_3 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : ¬cond2_1 i)
    (x0 : Vec F S1x1x512x64 .bf16) (x1 : Vec F S1x64x1024 .f32) (x2 : Vec F S1024 .f32) (xs0 : Vec F S512x1024 .f32) : Vec F S1x512x1024 .f32 :=
  VO2_3.read (Elt F) (VO2_3.writes (Elt F) VO2_3.junk (kernelRun2_B c i arg3 harg3 arg4 harg4 arg5 harg5 arg6 harg6 arg7 harg7 hc0 hc1 x0 x1 x2 xs0).1)

/-- The accumulator scratch after the body in case C: the run's pieces cover it, -/
theorem scover2_C_0 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x1x512x64 .bf16) (x1 : Vec F S1x64x1024 .f32) (x2 : Vec F S1024 .f32) (xs0 : Vec F S512x1024 .f32) (y : S512x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S512x1024.size (by sl_kernel_rfl) y
/-- and what it holds is those pieces read back. -/
def sout2_C_0 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x1x512x64 .bf16) (x1 : Vec F S1x64x1024 .f32) (x2 : Vec F S1024 .f32) (xs0 : Vec F S512x1024 .f32) : Vec F S512x1024 .f32 :=
  VS2_0.read (Elt F) (VS2_0.writes (Elt F) VS2_0.junk (kernelRun2_C c i arg3 harg3 arg4 harg4 arg5 harg5 arg6 harg6 arg7 harg7 hc0 hc1 x0 x1 x2 xs0).2.1)
/-- The output block after the body in case C. -/
def out2_C_3 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x1x512x64 .bf16) (x1 : Vec F S1x64x1024 .f32) (x2 : Vec F S1024 .f32) (xs0 : Vec F S512x1024 .f32) : Vec F S1x512x1024 .f32 :=
  VO2_3.read (Elt F) (VO2_3.writes (Elt F) VO2_3.junk (kernelRun2_C c i arg3 harg3 arg4 harg4 arg5 harg5 arg6 harg6 arg7 harg7 hc0 hc1 x0 x1 x2 xs0).1)
/-- In the last-head case the output block is covered by the run's pieces. -/
theorem cover2_C_3 (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x1x512x64 .bf16) (x1 : Vec F S1x64x1024 .f32) (x2 : Vec F S1024 .f32) (xs0 : Vec F S512x1024 .f32) (y : S1x512x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1x512x1024.size (by sl_kernel_rfl) y

/-! ## What the output block and the accumulator hold after each point -/

/-- After the body at position `n`: (the output block, the accumulator scratch), by recursion on the position — the case
    the closed forms select, the accumulator it starts from being what the point before left. -/
def outsAt2 (c : Dev nD) : (n : ℕ) → n < cfg2.N → Vec F S1x512x1024 .f32 × Vec F S512x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 16 = 0 then
      if h1 : (n + 1) % 16 = 15 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 16 = 15 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 16 = 0) (h1 : ¬t.val % 16 = 15) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 16 = 0) (h1 : ¬t.val % 16 = 15) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 16 = 0) (h1 : t.val % 16 = 15) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the start the class invariant (every scoped buffer at anything); afterwards the other regions'
    scoped buffers, the accumulator scratch at what the point before left, and the generator register. -/
def PhiS2 (c : Dev nD) : (n : ℕ) → n ≤ cfg2.N → sProp 𝕄
  | 0, _ => Pipeline.ΦA spec2 c
  | n + 1, hn => iprop(iprop(rest2 c ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(rest2 c ∗ owns (c : Thread nD τ) scM2_0 fullShare ((outsAt2 V c n hn).2)) ∗ (∃ r, prngReg c r)) := rfl
theorem PhiS2_pos (c : Dev nD) (n : ℕ) (h : n ≤ cfg2.N) (hz : n ≠ 0) :
    PhiS2 V c n h = iprop(iprop(rest2 c ∗ owns (c : Thread nD τ) scM2_0 fullShare ((outsAt2 V c (n - 1) (by omega)).2)) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

end Cert.KernelIdeal.Hand

end
-- ==== Proof.KI.Reg2Body.lean ====
/-
  The output projection's body at every grid point meets the pipeline's obligation: by the closed forms of the two
  branch conditions the point is in one of three cases; the invariant hands the body the accumulator scratch at what
  the point before left (at anything at a tile's first point, where the body resets it) and takes it back at this
  point's contents; away from a tile's last point the output block is handed back untouched.
-/
import proofs.«167322_j54778012893327_2_alg».proof.Proof.KI.Reg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 16 = 0
  · have h1 : ¬t.val % 16 = 15 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1)]
    rw [outsAt2_A V c t h0 h1]
    unfold sout2_A_0; (try dsimp only)
    by_cases hz : t.val = 0
    · rw [PhiS2_castSucc V c t, PhiS2_zero V c _ _ hz]
      refine (sep_mono (PhiA2_elim c) .rfl).trans ?_
      iintro ⟨⟨⟨Hrest, HS0⟩, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hrest HS0 Hg]
      · isplitl [Hrest HS0]
        · isplitl [Hrest]; · iexact Hrest
          unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨Hrest, HS0⟩, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Hrest HS0 Hg]
      · isplitl [Hrest HS0]
        · isplitl [Hrest]; · iexact Hrest
          unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond2_0 (grid2.coords t) := fun h => h0 ((hcond2_0 t).mp h)
    by_cases h1 : t.val % 16 = 15
    · have hc1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hc1], after2_3]
      rw [outsAt2_C V c t h0 h1]
      unfold out2_C_3 sout2_C_0; (try dsimp only)
      rw [PhiS2_castSucc V c t, PhiS2_pos V c _ _ hz]
      iintro ⟨⟨⟨Hrest, HS0⟩, Hg⟩, Ho, ⟨%d0, H0⟩, ⟨%d1, H1⟩, ⟨%d2, H2⟩, ⟨%d3, H3⟩⟩
      iapply ((kernelRun2_C c (grid2.coords t) _ _ _ _ _ _ _ _ _ _ hc0 hc1 (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hrest HS0 Hg]
      · isplitl [Hrest HS0]
        · isplitl [Hrest]; · iexact Hrest
          unfold owns; iexists _; isplitr
          swap; · iexact HS0
          ipureintro; exact View.read_writes_of_cover _ _ _ _ _ (scover2_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · have hc1 : ¬cond2_1 (grid2.coords t) := fun h => h1 ((hcond2_1 t).mp h)
      rw [Dat.leavesExact_idle (dat2 V c) 3 t (idleAt2_3 t hc1) (noFlush2_3 t hc1)]
      rw [outsAt2_B V c t h0 h1]
      unfold sout2_B_0; (try dsimp only)
      rw [PhiS2_castSucc V c t, PhiS2_pos V c _ _ hz]
      iintro ⟨⟨⟨Hrest, HS0⟩, Hg⟩, Ho, ⟨%d0, H0⟩, ⟨%d1, H1⟩, ⟨%d2, H2⟩, ⟨%d3, H3⟩⟩
      iapply ((kernelRun2_B c (grid2.coords t) _ _ _ _ _ _ _ _ _ _ hc0 hc1 (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hrest HS0 Hg]
      · isplitl [Hrest HS0]
        · isplitl [Hrest]; · iexact Hrest
          unfold owns; iexists _; isplitr
          swap; · iexact HS0
          ipureintro; exact View.read_writes_of_cover _ _ _ _ _ (scover2_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- The class invariant the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 128 := N_2; omega)]
  refine .trans ?_ (PhiA2_intro c)
  iintro ⟨⟨Hrest, HS0⟩, Hg⟩
  isplitr [Hg]
  swap; · iexact Hg
  isplitl [Hrest]; · iexact Hrest
  iexists _; iexact HS0

end Cert.KernelIdeal.Hand

end
-- ==== Proof.KI.Run.lean ====
/-
  The whole program as a chain of five segments — a transpose of the projection weight on the host, the projection
  region, the attention region, a transpose and a re-view of the output weight on the host, the output-projection region
  — with the buffer contents at every boundary as a fold from the launch memory: a host stretch applies its operations,
  a region leaves its arrays at what its write-backs produce. Every weakly fair execution terminates without a fault;
  at the end the result buffer holds what the last region's write-backs leave, and the five arguments are as launched
  (no host operation and no region writes one).
-/
import proofs.«167322_j54778012893327_2_alg».proof.Proof.KI.Reg0
import proofs.«167322_j54778012893327_2_alg».proof.Proof.KI.Reg1
import proofs.«167322_j54778012893327_2_alg».proof.Proof.KI.Reg2Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W4_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W4_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W4_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W4_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := (W6_arr m ρ c 2).trans (((dat2 (V5 m ρ) c).arrAt_in 2 rfl _).trans (A_eq2 (V5 m ρ) c 2))
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W4_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment: entered with every unscoped buffer at the boundary's contents, left with its arrays at what its
    write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the boundary's contents, left with its arrays at what its
    write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the boundary's contents, left with its arrays at what its
    write-backs leave and every other buffer as entered. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V5 m ρ) c); unfold Pipeline.ΦA
    iintro ⟨Hp, -, Hr⟩
    isplitl [Hr]; · iexact Hr
    iexact Hp
  hout c := by
    refine (hout2 (V5 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .host (hseg hostOps2 hostOps2_sub hostOps2_fresh' (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting; the result buffer
    ends at what the output-projection region's write-backs leave, the five arguments as launched. -/
theorem run_main : θ_run defs (onTc (τ := τ) (main (F := F))) ⟨m, fun _ => 0, ρ⟩ (fun r => ∀ c : Dev nD,
      r.2.mem ((c.tc : Thread nD τ).loc main_v0) = (dat2 (V5 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v0 (by decide))).trans (W6_arr m ρ c 3),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.KernelIdeal.Hand

end
-- ==== Proof.KI.Pieces2.lean ====
/-
  What the output projection's body leaves, case by case, as the body's own arithmetic: at a tile's first head the
  accumulator is the head's product added to zero; at a later head it is the product added to what the point before
  left; at the last head the output block is that sum plus the bias.
-/
import proofs.«167322_j54778012893327_2_alg».proof.Proof.KI.Reg2
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz1 : (![0] : Fin 1 → Nat) = fun _ => 0 := by funext a; fin_cases a; rfl
theorem hz2 : (![0, 0] : Fin 2 → Nat) = fun _ => 0 := by funext a; fin_cases a <;> rfl
theorem hz3 : (![0, 0, 0] : Fin 3 → Nat) = fun _ => 0 := by funext a; fin_cases a <;> rfl
theorem hz4 : (![0, 0, 0, 0] : Fin 4 → Nat) = fun _ => 0 := by funext a; fin_cases a <;> rfl

theorem sout2_A_eq (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : cond2_0 i) (hc1 : ¬cond2_1 i)
    (x0 : Vec F S1x1x512x64 .bf16) (x1 : Vec F S1x64x1024 .f32) (x2 : Vec F S1024 .f32) : sout2_A_0 c i arg3 harg3 arg4 harg4 arg5 harg5 arg6 harg6 arg7 harg7 hc0 hc1 x0 x1 x2 = k2_pay2 x0 x1 (k2_pay1 (F := F)) := by
  unfold sout2_A_0
  rw [View.read_writes_eq_canon _ _ _ (scover2_A_0 c i arg3 harg3 arg4 harg4 arg5 harg5 arg6 harg6 arg7 harg7 hc0 hc1 x0 x1 x2)]
  unfold kernelRun2_A
  dsimp only
  sl_unfold_words
  rw [View.canon_cons_unit_zero hz2]
  rw [View.readCov_unit_zero _ hz2]
  simp only [View.readAt_eq_ld, harg3.read_unread, harg4.read_unread, View.ld_unit_zero (S := S1x1x512x64) hz4, View.ld_unit_zero (S := S1x64x1024) hz3]

theorem sout2_B_eq (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : ¬cond2_1 i)
    (x0 : Vec F S1x1x512x64 .bf16) (x1 : Vec F S1x64x1024 .f32) (x2 : Vec F S1024 .f32) (xs0 : Vec F S512x1024 .f32) : sout2_B_0 c i arg3 harg3 arg4 harg4 arg5 harg5 arg6 harg6 arg7 harg7 hc0 hc1 x0 x1 x2 xs0 = k2_pay2 x0 x1 xs0 := by
  unfold sout2_B_0
  rw [View.read_writes_eq_canon _ _ _ (scover2_B_0 c i arg3 harg3 arg4 harg4 arg5 harg5 arg6 harg6 arg7 harg7 hc0 hc1 x0 x1 x2 xs0)]
  unfold kernelRun2_B
  dsimp only
  sl_unfold_words
  rw [View.canon_unit_zero hz2]
  simp only [View.readAt_eq_ld, harg3.read_unread, harg4.read_unread, harg7.read_unread, View.ld_unit_zero (S := S1x1x512x64) hz4, View.ld_unit_zero (S := S1x64x1024) hz3, View.ld_unit_zero (S := S512x1024) hz2]

theorem sout2_C_eq (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x1x512x64 .bf16) (x1 : Vec F S1x64x1024 .f32) (x2 : Vec F S1024 .f32) (xs0 : Vec F S512x1024 .f32) : sout2_C_0 c i arg3 harg3 arg4 harg4 arg5 harg5 arg6 harg6 arg7 harg7 hc0 hc1 x0 x1 x2 xs0 = k2_pay2 x0 x1 xs0 := by
  unfold sout2_C_0
  rw [View.read_writes_eq_canon _ _ _ (scover2_C_0 c i arg3 harg3 arg4 harg4 arg5 harg5 arg6 harg6 arg7 harg7 hc0 hc1 x0 x1 x2 xs0)]
  unfold kernelRun2_C
  dsimp only
  sl_unfold_words
  rw [View.canon_unit_zero hz2]
  simp only [View.readAt_eq_ld, harg3.read_unread, harg4.read_unread, harg7.read_unread, View.ld_unit_zero (S := S1x1x512x64) hz4, View.ld_unit_zero (S := S1x64x1024) hz3, View.ld_unit_zero (S := S512x1024) hz2]

theorem out2_C_eq (c : Dev nD) (i : grid2.Coords) (arg3 : Memref sig .tc .vmem S1x1x512x64 .bf16) (harg3 : arg3.IsWhole) (arg4 : Memref sig .tc .vmem S1x64x1024 .f32) (harg4 : arg4.IsWhole) (arg5 : Memref sig .tc .vmem S1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x1x512x64 .bf16) (x1 : Vec F S1x64x1024 .f32) (x2 : Vec F S1024 .f32) (xs0 : Vec F S512x1024 .f32) : out2_C_3 c i arg3 harg3 arg4 harg4 arg5 harg5 arg6 harg6 arg7 harg7 hc0 hc1 x0 x1 x2 xs0 = k2_pay3 (k2_pay2 x0 x1 xs0) x2 := by
  unfold out2_C_3
  rw [View.read_writes_eq_canon _ _ _ (cover2_C_3 c i arg3 harg3 arg4 harg4 arg5 harg5 arg6 harg6 arg7 harg7 hc0 hc1 x0 x1 x2 xs0)]
  unfold kernelRun2_C
  dsimp only
  sl_unfold_words
  rw [View.canon_unit_zero hz3]
  rw [View.readCov_unit_zero _ hz2]
  simp only [View.readAt_eq_ld, harg3.read_unread, harg4.read_unread, harg5.read_unread, harg7.read_unread, View.ld_unit_zero (S := S1x1x512x64) hz4, View.ld_unit_zero (S := S1x64x1024) hz3, View.ld_unit_zero (S := S512x1024) hz2, View.ld_unit_zero (S := S1024) hz1]

end Cert.KernelIdeal.Hand

end
-- ==== Proof.Spec.lean ====
/-
  The specification both programs are proved against: scaled dot-product self-attention with a fused
  projection in front and an output projection behind, written index by index on the extended reals.
  For x[b,s,d], a projection weight w[e,d] (e < 3072), bias bq[e], an output weight wo[e,d], bias bo[e]:
    proj b s e      = (sum over d of x[b,s,d] * w[e,d]) + bq[e]
    q, k, v         = the three thirds of proj's last axis, head h taking the 64 columns h*64 .. h*64+63
    score b h i j   = (sum over t < 64 of q[b,i,h,t] * k[b,j,h,t]) * 1/8
  and, for any score matrix s and values v (the softmax-weighted average, `softCtx`):
    rowMax s i      = the maximum over j of s i j (folded from -infinity)
    expo s i j      = exp (s i j - rowMax s i);  rowSum s i = sum over j of expo s i j
    softCtx s v i t = sum over j of (expo s i j / rowSum s i) * v j t
  then
    ctx b h i t     = softCtx (score b h) (v b h) i t
    out b s e       = (sum over h < 16, t < 64 of ctx b h s t * wo[e, h*64+t]) + bo[e]
  No program is imported: only the ideal operations and the index constructors.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The scale 1/8 as both programs spell it: the f32 word of 0.125, never evaluated. -/
abbrev eighth : EReal := Ideal.ofBits .f32 0x3E000000#32
/-- The word both programs start a running maximum from (f32's minus infinity). -/
abbrev negInf : EReal := Ideal.ofBits .f32 0xFF800000#32

/-- Column `o + h*64 + t` of the fused projection: head `h`'s column `t` in the third starting at `o`. -/
def col3 (o : Nat) (ho : o + 1024 ≤ 3072) (h : Fin 16) (t : Fin 64) : Fin 3072 :=
  ⟨o + h.val * 64 + t.val, by have := h.isLt; have := t.isLt; omega⟩
/-- Column `h*64 + t` of the model axis. -/
def col1 (h : Fin 16) (t : Fin 64) : Fin 1024 :=
  ⟨h.val * 64 + t.val, by have := h.isLt; have := t.isLt; omega⟩

/-! ## The softmax-weighted average over 2048 keys, for any number of query rows -/

section Soft
variable {n : Nat} (s : Fin n → Fin 2048 → EReal) (v : Fin 2048 → Fin 64 → EReal)
def rowMax (i : Fin n) : EReal := (Finset.univ : Finset (Fin 2048)).fold max negInf (fun j => s i j)
def expo (i : Fin n) (j : Fin 2048) : EReal := Ideal.exp (s i j - rowMax s i)
def rowSum (i : Fin n) : EReal := ∑ j : Fin 2048, expo s i j
def softCtx (i : Fin n) (t : Fin 64) : EReal := ∑ j : Fin 2048, Ideal.div (expo s i j) (rowSum s i) * v j t
end Soft

/-! ## The whole function -/

section Whole
variable (x : Fin 2 → Fin 2048 → Fin 1024 → EReal) (w : Fin 3072 → Fin 1024 → EReal) (bq : Fin 3072 → EReal)
  (wo : Fin 1024 → Fin 1024 → EReal) (bo : Fin 1024 → EReal)

/-- The fused projection. -/
def proj (b : Fin 2) (s : Fin 2048) (e : Fin 3072) : EReal := (∑ d : Fin 1024, x b s d * w e d) + bq e
def qh (b : Fin 2) (h : Fin 16) (s : Fin 2048) (t : Fin 64) : EReal := proj x w bq b s (col3 0 (by omega) h t)
def kh (b : Fin 2) (h : Fin 16) (s : Fin 2048) (t : Fin 64) : EReal := proj x w bq b s (col3 1024 (by omega) h t)
def vh (b : Fin 2) (h : Fin 16) (s : Fin 2048) (t : Fin 64) : EReal := proj x w bq b s (col3 2048 (by omega) h t)
/-- The scaled scores. -/
def score (b : Fin 2) (h : Fin 16) (i j : Fin 2048) : EReal := (∑ t : Fin 64, qh x w bq b h i t * kh x w bq b h j t) * eighth
/-- The attention output per head. -/
def ctx (b : Fin 2) (h : Fin 16) (i : Fin 2048) (t : Fin 64) : EReal := softCtx (score x w bq b h) (vh x w bq b h) i t
/-- The result. -/
def out (b : Fin 2) (s : Fin 2048) (e : Fin 1024) : EReal :=
  (∑ h : Fin 16, ∑ t : Fin 64, ctx x w bq b h s t * wo e (col1 h t)) + bo e
end Whole

/-- The result as an array of the argument arrays (the form both runs' posts are stated with). -/
def arr (X : FVec Ideal (⟨3, ![2, 2048, 1024]⟩ : Shape) .f32) (W : FVec Ideal (⟨2, ![3072, 1024]⟩ : Shape) .f32)
    (B : FVec Ideal (⟨1, ![3072]⟩ : Shape) .f32) (WO : FVec Ideal (⟨2, ![1024, 1024]⟩ : Shape) .f32)
    (BO : FVec Ideal (⟨1, ![1024]⟩ : Shape) .f32) : FVec Ideal (⟨3, ![2, 2048, 1024]⟩ : Shape) .f32 :=
  fun j => out (fun a b c => X (ix3 a b c)) (fun e d => W (ix2 e d)) (fun e => B (ix1 e)) (fun e d => WO (ix2 e d))
    (fun e => BO (ix1 e)) (j 0) (j 1) (j 2)

end Cert.Attn

end
-- ==== Proof.KI.Pay2.lean ====
/-
  The output-projection body's stored values at an index: the accumulator is cleared to zero, each head adds
  its 64-term product y·w to the accumulator, and the last head adds the bias row.
-/
import proofs.«167322_j54778012893327_2_alg».proof.Proof.Gen.KernelIdeal.Skeleton
import proofs.«167322_j54778012893327_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Attn

/-- The cleared accumulator is zero everywhere. -/
theorem pay_zero (j : S512x1024.Idx) : k2_pay1 (F := Ideal) j = 0 := by
  unfold k2_pay1
  rw [shapeCast_self]
  exact Ideal.ofBits_zero_f32

/-! The operand indices of the [512,64] x [64,1024] product at an output index and a contraction index. -/

theorem dotO_l0 (i : S512x1024.Idx) (q : dot_S512x64_S64x1024_S512x1024_1_0_0_1_n_n.contr.Idx) : (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem dotO_l1 (i : S512x1024.Idx) (q : dot_S512x64_S64x1024_S512x1024_1_0_0_1_n_n.contr.Idx) : (dot_S512x64_S64x1024_S512x1024_1_0_0_1_n_n.lhsIdx i q 1).val = (q ⟨0, by decide⟩).val :=
  dot_S512x64_S64x1024_S512x1024_1_0_0_1_n_n.lhsIdx_val_of_single rfl i q
theorem dotO_r0 (i : S512x1024.Idx) (q : dot_S512x64_S64x1024_S512x1024_1_0_0_1_n_n.contr.Idx) : (dot_S512x64_S64x1024_S512x1024_1_0_0_1_n_n.rhsIdx i q 0).val = (q ⟨0, by decide⟩).val :=
  dot_S512x64_S64x1024_S512x1024_1_0_0_1_n_n.rhsIdx_val_of_single rfl i q
theorem dotO_r1 (i : S512x1024.Idx) (q : dot_S512x64_S64x1024_S512x1024_1_0_0_1_n_n.contr.Idx) : (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- One head's step: the accumulator plus the sum over the head's 64 columns of y times w. -/
theorem pay_acc (y : Vec Ideal S1x1x512x64 .bf16) (w : Vec Ideal S1x64x1024 .f32) (a : Vec Ideal S512x1024 .f32)
    (r : Fin 512) (e : Fin 1024) :
    k2_pay2 y w a (ix2 r e) = a (ix2 r e) + ∑ t : Fin 64, y (ix4 0 0 r t) * w (ix3 0 t e) := by
  unfold k2_pay2
  rw [shapeCast_self]
  refine (addf_apply _ _ _).trans ?_
  refine congrArg (a (ix2 r e) + ·) ?_
  simp only [matmul]
  rw [Ideal.matmul_constant_zero_apply,
    ← Equiv.sum_comp (contrEquiv1 dot_S512x64_S64x1024_S512x1024_1_0_0_1_n_n 64 rfl rfl).symm]
  refine Finset.sum_congr rfl fun t _ => ?_
  have hk := contrEquiv1_symm_val dot_S512x64_S64x1024_S512x1024_1_0_0_1_n_n 64 rfl rfl t
  have el : dot_S512x64_S64x1024_S512x1024_1_0_0_1_n_n.lhsIdx (ix2 r e) ((contrEquiv1 dot_S512x64_S64x1024_S512x1024_1_0_0_1_n_n 64 rfl rfl).symm t) = ix2 r t :=
    funext fun ax => Fin.ext (by
      match ax with
      | ⟨0, _⟩ => exact dotO_l0 _ _
      | ⟨1, _⟩ => exact (dotO_l1 _ _).trans hk)
  have er : dot_S512x64_S64x1024_S512x1024_1_0_0_1_n_n.rhsIdx (ix2 r e) ((contrEquiv1 dot_S512x64_S64x1024_S512x1024_1_0_0_1_n_n 64 rfl rfl).symm t) = ix2 t e :=
    funext fun ax => Fin.ext (by
      match ax with
      | ⟨0, _⟩ => exact (dotO_r0 _ _).trans hk
      | ⟨1, _⟩ => exact dotO_r1 _ _)
  rw [el, er]
  refine congrArg₂ (· * ·) ?_ ?_
  · exact shapeCast_apply y shapeCasts_S1x1x512x64_S512x64 (ix2 r t) (ix4 0 0 r t) (by
      rw [Shape.rowMajor_val_four, Shape.rowMajor_val_two]
      show ((0 * 1 + 0) * 512 + r.val) * 64 + t.val = r.val * 64 + t.val
      omega)
  · show shapeCast S64x1024 w shapeCasts_S1x64x1024_S64x1024 (ix2 t e) = w (ix3 0 t e)
    exact shapeCast_1ab_ab_apply w _ t e

/-- The last head's store: the accumulator plus the bias of the column. -/
theorem pay_out (a : Vec Ideal S512x1024 .f32) (b : Vec Ideal S1024 .f32) (r : Fin 512) (e : Fin 1024) :
    k2_pay3 a b (ix3 0 r e) = a (ix2 r e) + b (ix1 e) := by
  unfold k2_pay3
  refine (shapeCast_ab_1ab_apply _ _ 0 r e).trans ?_
  refine (addf_apply _ _ _).trans ?_
  refine congrArg (a (ix2 r e) + ·) ?_
  refine (broadcastTo_1b_ab_apply _ _ r e).trans ?_
  exact shapeCast_a_1a_apply _ _ 0 e

end Cert.KernelIdeal.Pay

end
-- ==== Proof.KI.Val2Acc.lean ====
/-
  The accumulator of the output projection as a sum over heads. Along the sixteen consecutive grid points of one
  (batch, row-tile) pair the scratch holds, after the point of head h, zero plus the sum over the heads 0..h of that
  head's product (the point's attention block times the point's block of the output weight); at the last head the
  output block is that sum plus the bias.
-/
import proofs.«167322_j54778012893327_2_alg».proof.Proof.KI.Pieces2
import proofs.«167322_j54778012893327_2_alg».proof.Proof.KI.Pay2
import proofs.«167322_j54778012893327_2_alg».proof.Proof.Spec
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand Cert.KernelIdeal.Pay Cert.Attn Idealize.ShloMosaic.ValueIdx

local notation "𝕄" => MT nD τ sig Unit (Elt Ideal) ℕ (UR sig nD τ) ℕ

variable (V : (c : Dev nD) → (b : Ref sig .tc) → Buf (Elt Ideal) ((c : Thread nD τ).loc b))

/-- The three input blocks at a point, at their literal shapes. -/
def yblk (c : Dev nD) (t : Fin cfg2.N) : Vec Ideal S1x1x512x64 .bf16 := iblk2 V c 0 t
def wblk (c : Dev nD) (t : Fin cfg2.N) : Vec Ideal S1x64x1024 .f32 := iblk2 V c 1 t
def bblk (c : Dev nD) (t : Fin cfg2.N) : Vec Ideal S1024 .f32 := iblk2 V c 2 t

/-- The accumulator scratch after position `n`; its reset value and its step. -/
def accF (c : Dev nD) (n : ℕ) (h : n < cfg2.N) : Vec Ideal S512x1024 .f32 := (outsAt2 V c n h).2
def aF (c : Dev nD) (n : ℕ) (h : n < cfg2.N) : Vec Ideal S512x1024 .f32 :=
  k2_pay2 (yblk V c ⟨n, h⟩) (wblk V c ⟨n, h⟩) (k2_pay1 (F := Ideal))
def gF (c : Dev nD) (n : ℕ) (h : n < cfg2.N) (acc : Vec Ideal S512x1024 .f32) : Vec Ideal S512x1024 .f32 :=
  k2_pay2 (yblk V c ⟨n, h⟩) (wblk V c ⟨n, h⟩) acc

theorem acc_reset (c : Dev nD) (n : ℕ) (h : n < cfg2.N) (hn : n % 16 = 0) : accF V c n h = aF V c n h := by
  have h1 : ¬ n % 16 = 15 := by omega
  unfold accF
  have hp := outsAt2_A V c ⟨n, h⟩ hn h1
  dsimp only at hp
  rw [hp]
  dsimp only
  rw [sout2_A_eq]
  unfold aF yblk wblk
  rfl

theorem acc_step (c : Dev nD) (n : ℕ) (h : n + 1 < cfg2.N) (hn : ¬(n + 1) % 16 = 0) :
    accF V c (n + 1) h = gF V c (n + 1) h (accF V c n (Nat.lt_of_succ_lt h)) := by
  unfold accF
  by_cases h1 : (n + 1) % 16 = 15
  · have hp := outsAt2_C V c ⟨n + 1, h⟩ hn h1
    dsimp only at hp
    rw [hp]
    dsimp only
    rw [sout2_C_eq]
    unfold gF yblk wblk
    simp only [Nat.add_sub_cancel]
  · have hp := outsAt2_B V c ⟨n + 1, h⟩ hn h1
    dsimp only at hp
    rw [hp]
    dsimp only
    rw [sout2_B_eq]
    unfold gF yblk wblk
    simp only [Nat.add_sub_cancel]

/-- The accumulator after point `t` is the fold along `t`'s run of sixteen points. -/
theorem acc_fold (c : Dev nD) (t : ℕ) (ht : t < cfg2.N) (h' : 16 * (t / 16) + t % 16 < cfg2.N) :
    accF V c t ht = Pipeline.accAt (aF V c) (gF V c) (16 * (t / 16)) (t % 16) h' :=
  Pipeline.eq_accAt_of_mod (accF V c) 16 (aF V c) (gF V c) (acc_reset V c) (acc_step V c) (by omega) t ht h'

/-- One head's product at a row and a column of the tile: the point's attention block times its block of the output weight. -/
def headProd (c : Dev nD) (n : ℕ) (r : Fin 512) (e : Fin 1024) : EReal :=
  if h : n < cfg2.N then ∑ tt : Fin 64, yblk V c ⟨n, h⟩ (ix4 0 0 r tt) * wblk V c ⟨n, h⟩ (ix3 0 tt e) else 0

theorem aF_apply (c : Dev nD) (n : ℕ) (h : n < cfg2.N) (r : Fin 512) (e : Fin 1024) :
    aF V c n h (ix2 r e) = 0 + headProd V c n r e := by
  unfold aF headProd
  rw [pay_acc, pay_zero, dif_pos h]

theorem gF_apply (c : Dev nD) (n : ℕ) (h : n < cfg2.N) (acc : Vec Ideal S512x1024 .f32) (r : Fin 512) (e : Fin 1024) :
    gF V c n h acc (ix2 r e) = acc (ix2 r e) + headProd V c n r e := by
  unfold gF headProd
  rw [pay_acc, dif_pos h]

/-- The accumulator after the `j`-th point of the run starting at `16 q`: zero plus the products of the heads `0 … j`. -/
theorem acc_sum (c : Dev nD) (q j : ℕ) (hj : j ≤ 15) (h : 16 * q + j < cfg2.N) (r : Fin 512) (e : Fin 1024) :
    Pipeline.accAt (aF V c) (gF V c) (16 * q) j h (ix2 r e)
      = 0 + ∑ s ∈ Finset.range (j + 1), headProd V c (16 * q + s) r e := by
  have key := Pipeline.accAt_add_apply (N := cfg2.N) (ι := S512x1024.Idx) (β := EReal) (aF V c) (gF V c) (fun _ => 0)
    (fun n i => headProd V c n (i 0) (i 1)) (16 * q) 15
    (fun h i => by
      obtain ⟨r, e, rfl⟩ : ∃ (r : Fin 512) (e : Fin 1024), i = ix2 r e := ⟨i 0, i 1, eq_ix2 i⟩
      exact aF_apply V c _ h r e)
    (fun n h acc i _ _ => by
      obtain ⟨r, e, rfl⟩ : ∃ (r : Fin 512) (e : Fin 1024), i = ix2 r e := ⟨i 0, i 1, eq_ix2 i⟩
      exact gF_apply V c n h acc r e)
    j hj h (ix2 r e)
  exact key

/-- At a tile's last head the output block is the accumulator plus the bias. -/
theorem out_last (c : Dev nD) (t : Fin cfg2.N) (h1 : t.val % 16 = 15) :
    (outsAt2 V c t.val t.isLt).1 = k2_pay3 (accF V c t.val t.isLt) (bblk V c t) := by
  have h0 : ¬ t.val % 16 = 0 := by omega
  unfold accF
  rw [outsAt2_C V c t h0 h1]
  dsimp only
  rw [sout2_C_eq, out2_C_eq]
  unfold bblk
  rfl

end Cert.KernelIdeal.HandValue

end
-- ==== Proof.Algebra.lean ====
/-
  The algebra that joins the kernel's arrangement of the computation to the specification, on the extended
  reals: the value of the scale 1/8; a nonnegative real factor moves out of a sum of products; a sum over
  range 16 started from zero is the sum over the 16 heads; a row of the softmax-weighted average depends only
  on that row of the scores; and a sum over the 1024 model columns is the double sum over heads and head
  columns.
-/
import proofs.«167322_j54778012893327_2_alg».proof.Proof.Spec
import Mathlib.Data.EReal.Operations
import Mathlib.Algebra.BigOperators.Fin
import Mathlib.Algebra.BigOperators.Intervals

noncomputable section

namespace Cert.Attn

open Idealize.ShloMosaic

/-- The scale's word denotes the real 1/8. -/
theorem eighth_eq : eighth = ((1 / 8 : ℝ) : EReal) := by
  unfold eighth
  simp [Ideal.ofBits, Ideal.ieee, -EReal.coe_mul]; norm_num

/-- The scale is a nonnegative extended real that is not the top. -/
theorem eighth_nonneg : (0 : EReal) ≤ eighth := by
  rw [eighth_eq]; exact_mod_cast (by norm_num : (0 : ℝ) ≤ 1 / 8)
theorem eighth_ne_top : eighth ≠ ⊤ := by
  rw [eighth_eq]; exact EReal.coe_ne_top _

/-- Multiplication by the scale distributes over every sum of extended reals. -/
theorem sum_mul_eighth {ι : Type} (S : Finset ι) (f : ι → EReal) : (∑ x ∈ S, f x) * eighth = ∑ x ∈ S, f x * eighth := by
  classical
  induction S using Finset.induction_on with
  | empty => simp
  | insert a S ha ih =>
    rw [Finset.sum_insert ha, Finset.sum_insert ha,
      EReal.right_distrib_of_nonneg_of_ne_top eighth_nonneg eighth_ne_top, ih]

/-- The scale on the left factor of every product moves out of the sum. -/
theorem sum_scale {n : Nat} (a b : Fin n → EReal) :
    ∑ t : Fin n, (a t * eighth) * b t = (∑ t : Fin n, a t * b t) * eighth := by
  rw [sum_mul_eighth]
  refine Finset.sum_congr rfl fun t _ => ?_
  rw [mul_assoc, mul_comm eighth (b t), ← mul_assoc]

/-- A sum over range 16 started from zero is the sum over the 16 heads. -/
theorem zero_add_range16 (M : ℕ → EReal) : (0 : EReal) + ∑ s ∈ Finset.range 16, M s = ∑ h : Fin 16, M h.val := by
  rw [zero_add, Finset.sum_range]

/-- The softmax-weighted average at row i and column t depends only on row i of the scores and column t of the values. -/
theorem softCtx_row_col {n n' : Nat} (s : Fin n → Fin 2048 → EReal) (s' : Fin n' → Fin 2048 → EReal)
    (v v' : Fin 2048 → Fin 64 → EReal) (i : Fin n) (i' : Fin n') (t : Fin 64)
    (hs : ∀ j, s i j = s' i' j) (hv : ∀ j, v j t = v' j t) : softCtx s v i t = softCtx s' v' i' t := by
  have hrow : (fun j => s i j) = (fun j => s' i' j) := funext hs
  have hmax : rowMax s i = rowMax s' i' := by unfold rowMax; rw [hrow]
  have hexp : ∀ j, expo s i j = expo s' i' j := fun j => by unfold expo; rw [hs j, hmax]
  have hsum : rowSum s i = rowSum s' i' := by unfold rowSum; exact Finset.sum_congr rfl fun j _ => hexp j
  unfold softCtx
  exact Finset.sum_congr rfl fun j _ => by rw [hexp j, hsum, hv j]

theorem softCtx_congr {n : Nat} (s s' : Fin n → Fin 2048 → EReal) (v v' : Fin 2048 → Fin 64 → EReal) (i : Fin n) (t : Fin 64)
    (hs : ∀ j, s i j = s' i j) (hv : ∀ j, v j t = v' j t) : softCtx s v i t = softCtx s' v' i t :=
  softCtx_row_col s s' v v' i i t hs hv

theorem softCtx_row {n n' : Nat} (s : Fin n → Fin 2048 → EReal) (s' : Fin n' → Fin 2048 → EReal) (v : Fin 2048 → Fin 64 → EReal)
    (i : Fin n) (i' : Fin n') (t : Fin 64) (hs : ∀ j, s i j = s' i' j) : softCtx s v i t = softCtx s' v i' t :=
  softCtx_row_col s s' v v i i' t hs fun _ => rfl

/-- A model column is a head and a head column: d = h*64 + t. -/
def headEquiv : Fin 16 × Fin 64 ≃ Fin 1024 where
  toFun p := col1 p.1 p.2
  invFun d := (⟨d.val / 64, by have := d.isLt; omega⟩, ⟨d.val % 64, by omega⟩)
  left_inv := fun ⟨h, t⟩ => by
    have hh := h.isLt; have ht := t.isLt
    refine Prod.ext (Fin.ext ?_) (Fin.ext ?_)
    · show (h.val * 64 + t.val) / 64 = h.val; omega
    · show (h.val * 64 + t.val) % 64 = t.val; omega
  right_inv := fun d => Fin.ext (by
    show d.val / 64 * 64 + d.val % 64 = d.val; omega)

/-- A sum over the 1024 model columns is the double sum over the 16 heads and their 64 columns. -/
theorem sum_heads (f : Fin 1024 → EReal) : ∑ d : Fin 1024, f d = ∑ h : Fin 16, ∑ t : Fin 64, f (col1 h t) := by
  rw [← Equiv.sum_comp headEquiv f, Fintype.sum_prod_type]
  rfl

end Cert.Attn

end
-- ==== Proof.Compose.lean ====
/-
  The kernel's arrangement of the whole function is the specification's: scaling the query by 1/8 before the
  64-term product is scaling the product, and the output projection accumulated head by head from zero, then
  the bias, is the double sum over heads and head columns plus the bias.
-/
import proofs.«167322_j54778012893327_2_alg».proof.Proof.Spec
import proofs.«167322_j54778012893327_2_alg».proof.Proof.Algebra

noncomputable section

namespace Cert.Attn

open Idealize.ShloMosaic

/-- With q scaled before the product the scores, hence the whole result, are the specification's. -/
theorem kernel_out_eq (x : Fin 2 → Fin 2048 → Fin 1024 → EReal) (w : Fin 3072 → Fin 1024 → EReal) (bq : Fin 3072 → EReal)
    (wo : Fin 1024 → Fin 1024 → EReal) (bo : Fin 1024 → EReal) (b : Fin 2) (s : Fin 2048) (e : Fin 1024) :
    (∑ h : Fin 16, ∑ t : Fin 64,
      softCtx (fun i j : Fin 2048 => ∑ t' : Fin 64,
          (proj x w bq b i (col3 0 (by omega) h t') * eighth) * proj x w bq b j (col3 1024 (by omega) h t'))
        (fun j t => proj x w bq b j (col3 2048 (by omega) h t)) s t * wo e (col1 h t)) + bo e
      = out x w bq wo bo b s e := by
  unfold out
  refine congrArg (· + bo e) ?_
  refine Finset.sum_congr rfl fun h _ => Finset.sum_congr rfl fun t _ => ?_
  refine congrArg (· * wo e (col1 h t)) ?_
  unfold ctx
  refine softCtx_congr _ _ _ _ s t (fun j => ?_) (fun j => rfl)
  unfold score qh kh
  exact sum_scale _ _

/-- The head-by-head accumulation from zero, then the bias: the sum over the 16 heads plus the bias. -/
theorem heads_fold (M : ℕ → EReal) (bias : EReal) :
    ((0 : EReal) + ∑ s ∈ Finset.range (15 + 1), M s) + bias = (∑ h : Fin 16, M h.val) + bias :=
  congrArg (· + bias) (zero_add_range16 M)

end Cert.Attn

end
-- ==== Proof.KI.Val2.lean ====
/-
  The value of the output-projection region at the ideal operations: the array it leaves is, index by index, the
  sum over the sixteen heads and the sixty-four columns of a head of the attention output times the re-viewed output
  weight, plus the bias — read off the arrays as the region finds them. A tile's output block is written back at the
  tile's last head only, holding the accumulated sum; the tiles cover the array.
-/
import proofs.«167322_j54778012893327_2_alg».proof.Proof.KI.Val2Acc
import proofs.«167322_j54778012893327_2_alg».proof.Proof.Algebra
import proofs.«167322_j54778012893327_2_alg».proof.Proof.Compose

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand Cert.KernelIdeal.Pay Cert.Attn Idealize.ShloMosaic.ValueIdx

local notation "𝕄" => MT nD τ sig Unit (Elt Ideal) ℕ (UR sig nD τ) ℕ

variable (V : (c : Dev nD) → (b : Ref sig .tc) → Buf (Elt Ideal) ((c : Thread nD τ).loc b))

/-- The region's three input arrays as it finds them, at their literal shapes: the attention output laid out
    [batch, head, row, column], the output weight viewed [head, column, model], the output bias. -/
abbrev inY2 (c : Dev nD) : S2x16x2048x64.Idx → EReal := V c main_call0_v2
abbrev inW2 (c : Dev nD) : S16x64x1024.Idx → EReal := V c main_call0_v4
abbrev inB2 (c : Dev nD) : S1024.Idx → EReal := V c main_arg4

/-! ## The block index maps over the grid -/

/-- The index maps of the region, decided over its 128 points: a point is (batch, row tile, head) = (t / 64, t / 16 % 4, t % 16). -/
theorem idx_facts2 : ∀ t : Fin cfg2.N,
    win2_0.index t (0 : Fin 4) = t.val / 64 ∧ win2_0.index t (1 : Fin 4) = t.val % 16 ∧ win2_0.index t (2 : Fin 4) = t.val / 16 % 4
    ∧ win2_0.index t (3 : Fin 4) = 0
    ∧ win2_1.index t (0 : Fin 3) = t.val % 16 ∧ win2_1.index t (1 : Fin 3) = 0 ∧ win2_1.index t (2 : Fin 3) = 0
    ∧ win2_2.index t (0 : Fin 1) = 0
    ∧ win2_3.index t (0 : Fin 3) = t.val / 64 ∧ win2_3.index t (1 : Fin 3) = t.val / 16 % 4 ∧ win2_3.index t (2 : Fin 3) = 0 :=
  (by decide +kernel : ∀ t : Fin grid2.N, _)

/-! ## The input blocks as parts of their arrays -/

theorem yblk_apply (c : Dev nD) (t : Fin cfg2.N) (r : Fin 512) (tt : Fin 64) (B : Fin 2) (H : Fin 16) (S : Fin 2048)
    (hB : B.val = t.val / 64) (hH : H.val = t.val % 16) (hS : S.val = t.val / 16 % 4 * 512 + r.val) :
    yblk V c t (ix4 0 0 r tt) = inY2 V c (ix4 B H S tt) := by
  obtain ⟨e0, e1, e2, e3, -⟩ := idx_facts2 t
  unfold yblk iblk2
  rw [View.read_apply]
  show V c main_call0_v2 _ = V c main_call0_v2 _
  congr 1
  funext a
  apply Fin.ext
  match a with
  | ⟨0, _⟩ => show win2_0.index t 0 * 1 + 1 * 0 = B.val; omega
  | ⟨1, _⟩ => show win2_0.index t 1 * 1 + 1 * 0 = H.val; omega
  | ⟨2, _⟩ => show win2_0.index t 2 * 512 + 1 * r.val = S.val; omega
  | ⟨3, _⟩ => show win2_0.index t 3 * 64 + 1 * tt.val = tt.val; omega

theorem wblk_apply (c : Dev nD) (t : Fin cfg2.N) (tt : Fin 64) (e : Fin 1024) (H : Fin 16) (hH : H.val = t.val % 16) :
    wblk V c t (ix3 0 tt e) = inW2 V c (ix3 H tt e) := by
  obtain ⟨-, -, -, -, e0, e1, e2, -⟩ := idx_facts2 t
  unfold wblk iblk2
  rw [View.read_apply]
  show V c main_call0_v4 _ = V c main_call0_v4 _
  congr 1
  funext a
  apply Fin.ext
  match a with
  | ⟨0, _⟩ => show win2_1.index t 0 * 1 + 1 * 0 = H.val; omega
  | ⟨1, _⟩ => show win2_1.index t 1 * 64 + 1 * tt.val = tt.val; omega
  | ⟨2, _⟩ => show win2_1.index t 2 * 1024 + 1 * e.val = e.val; omega

theorem bblk_apply (c : Dev nD) (t : Fin cfg2.N) (e : Fin 1024) :
    bblk V c t (ix1 e) = inB2 V c (ix1 e) := by
  obtain ⟨-, -, -, -, -, -, -, e0, -⟩ := idx_facts2 t
  unfold bblk iblk2
  rw [View.read_apply]
  show V c main_arg4 _ = V c main_arg4 _
  congr 1
  funext a
  apply Fin.ext
  match a with
  | ⟨0, _⟩ => show win2_2.index t 0 * 1024 + 1 * e.val = e.val; omega

/-! ## One head's product, read off the arrays -/

/-- Head `s` of the run of tile `q` = (batch `q / 4`, row tile `q % 4`): its product at row `r`, column `e` of the tile. -/
theorem headProd_eq (c : Dev nD) (q : ℕ) (hq : q < 8) (s : Fin 16) (r : Fin 512) (e : Fin 1024) (B : Fin 2) (S : Fin 2048)
    (hB : B.val = q / 4) (hS : S.val = q % 4 * 512 + r.val) :
    headProd V c (16 * q + s.val) r e = ∑ tt : Fin 64, inY2 V c (ix4 B s S tt) * inW2 V c (ix3 s tt e) := by
  have hN : cfg2.N = 128 := N_2
  have hlt : 16 * q + s.val < cfg2.N := by have := s.isLt; omega
  unfold headProd
  rw [dif_pos hlt]
  refine Finset.sum_congr rfl fun tt _ => ?_
  rw [yblk_apply V c ⟨16 * q + s.val, hlt⟩ r tt B s S (by show B.val = (16 * q + s.val) / 64; have := s.isLt; omega)
      (by show s.val = (16 * q + s.val) % 16; have := s.isLt; omega)
      (by show S.val = (16 * q + s.val) / 16 % 4 * 512 + r.val; have := s.isLt; omega),
    wblk_apply V c ⟨16 * q + s.val, hlt⟩ tt e s (by show s.val = (16 * q + s.val) % 16; have := s.isLt; omega)]

/-! ## The array the region leaves -/

/-- The whole output array: per row and model column, the sum over heads and head columns, plus the bias. -/
def G2 (c : Dev nD) : S2x2048x1024.Idx → EReal :=
  fun i => (∑ h : Fin 16, ∑ tt : Fin 64, inY2 V c (ix4 (i 0) h (i 1) tt) * inW2 V c (ix3 h tt (i 2))) + inB2 V c (ix1 (i 2))

theorem emb2_3 (t : Fin cfg2.N) (z : Fin 1) (r : Fin 512) (e : Fin 1024) (B : Fin 2) (S : Fin 2048)
    (hB : B.val = t.val / 64) (hS : S.val = t.val / 16 % 4 * 512 + r.val) :
    ((cfg2.win 3).blk t).view.emb (ix3 z r e : S1x512x1024.Idx) = (ix3 B S e : S2x2048x1024.Idx) := by
  obtain ⟨-, -, -, -, -, -, -, -, e0, e1, e2⟩ := idx_facts2 t
  funext a; apply Fin.ext
  match a with
  | ⟨0, _⟩ => show win2_3.index t 0 * 1 + 1 * z.val = B.val; have := z.isLt; omega
  | ⟨1, _⟩ => show win2_3.index t 1 * 512 + 1 * r.val = S.val; omega
  | ⟨2, _⟩ => show win2_3.index t 2 * 1024 + 1 * e.val = e.val; omega

/-- What a tile's last point writes back is its block of `G2`. -/
theorem flushed2_3_eq (c : Dev nD) (t : Fin cfg2.N) (hf : (cfg2.win 3).flush t = true) :
    (dat2 V c).flushed 3 t = ((cfg2.win 3).blk t).view.read (Elt Ideal) (G2 V c) := by
  have h1 : t.val % 16 = 15 := (flush2_3 t).mp hf
  have hN : cfg2.N = 128 := N_2
  have htl : t.val < 128 := lt_of_lt_of_eq t.isLt hN
  show (cfg2.win 3).cut (grid2.coords t) ((dat2 V c).after 3 t) = _
  rw [after2_3, out_last V c t h1]
  funext j
  obtain ⟨z, r, e, rfl⟩ : ∃ (z : Fin 1) (r : Fin 512) (e : Fin 1024), j = (ix3 z r e : S1x512x1024.Idx) :=
    ⟨j 0, j 1, j 2, eq_ix3 j⟩
  obtain rfl : z = 0 := Subsingleton.elim _ _
  show k2_pay3 (accF V c t.val t.isLt) (bblk V c t) (ix3 0 r e)
    = G2 V c (((cfg2.win 3).blk t).view.emb (ix3 0 r e : S1x512x1024.Idx))
  rw [emb2_3 t 0 r e ⟨t.val / 64, by omega⟩ ⟨t.val / 16 % 4 * 512 + r.val, by omega⟩ rfl rfl]
  rw [pay_out, bblk_apply]
  have h' : 16 * (t.val / 16) + t.val % 16 < cfg2.N := by omega
  rw [acc_fold V c t.val t.isLt h']
  have hsum := acc_sum V c (t.val / 16) (t.val % 16) (by omega) h' r e
  rw [hsum, h1]
  show ((0 : EReal) + ∑ s ∈ Finset.range (15 + 1), headProd V c (16 * (t.val / 16) + s) r e) + inB2 V c (ix1 e) = _
  rw [heads_fold]
  unfold G2
  show _ = (∑ h : Fin 16, ∑ tt : Fin 64, inY2 V c (ix4 (⟨t.val / 64, by omega⟩ : Fin 2) h (⟨t.val / 16 % 4 * 512 + r.val, by omega⟩ : Fin 2048) tt)
      * inW2 V c (ix3 h tt e)) + inB2 V c (ix1 e)
  congr 1
  refine Finset.sum_congr rfl fun s _ => ?_
  exact headProd_eq V c (t.val / 16) (by omega) s r e _ _ (by show t.val / 64 = t.val / 16 / 4; omega)
    (by show t.val / 16 % 4 * 512 + r.val = t.val / 16 % 4 * 512 + r.val; rfl)

theorem mem_blk2_3 (t : Fin cfg2.N) (i : S2x2048x1024.Idx) :
    i ∈ ((cfg2.win 3).blk t).view.set ↔ ∀ a : Fin 3, win2_3.index t a * S1x512x1024.size a ≤ (i a).val ∧ (i a).val < win2_3.index t a * S1x512x1024.size a + S1x512x1024.size a := by
  show i ∈ ((View.whole main_v0).slice (win2_3.rect t)).set ↔ _
  rw [View.set_slice_whole, Rect.mem_set_unit]
  exact Iff.rfl

/-- Every index of the array is in the block of its tile's last point. -/
theorem cover2_3' (i : S2x2048x1024.Idx) :
    ∃ t : Fin cfg2.N, (cfg2.win 3).flush t = true ∧ i ∈ ((cfg2.win 3).blk t).view.set := by
  have hN : cfg2.N = 128 := N_2
  have hi0 : (i 0).val < 2 := (i 0).isLt
  have hi1 : (i 1).val < 2048 := (i 1).isLt
  have hi2 : (i 2).val < 1024 := (i 2).isLt
  let t : Fin cfg2.N := ⟨((i 0).val * 4 + (i 1).val / 512) * 16 + 15, by omega⟩
  have htv : t.val = ((i 0).val * 4 + (i 1).val / 512) * 16 + 15 := rfl
  obtain ⟨-, -, -, -, -, -, -, -, e0, e1, e2⟩ := idx_facts2 t
  refine ⟨t, (flush2_3 t).mpr (by omega), ?_⟩
  rw [mem_blk2_3]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 512 ≤ (i 1).val ∧ (i 1).val < win2_3.index t (1 : Fin 3) * 512 + 512; omega
  | ⟨2, _⟩ => show win2_3.index t (2 : Fin 3) * 1024 ≤ (i 2).val ∧ (i 2).val < win2_3.index t (2 : Fin 3) * 1024 + 1024; omega

/-- The array after the region. -/
theorem final2_3 (c : Dev nD) : (dat2 V c).arrAt 3 cfg2.N = G2 V c :=
  (dat2 V c).arrAt_eq_of_cover 3 (G2 V c) (fun t hf => flushed2_3_eq V c t hf) cover2_3'

end Cert.KernelIdeal.HandValue

end
-- ==== Proof.KI.Pay0.lean ====
/-
  The projection body's stored values at an index: a 128-row block of x times the fused weight plus the bias,
  cut into the q, k and v thirds (q scaled by 1/8), each third re-laid from [128, 1024] to [1, 16, 128, 64]
  so that head h takes the 64 columns h*64 .. h*64+63.
-/
import proofs.«167322_j54778012893327_2_alg».proof.Proof.Gen.KernelIdeal.Skeleton
import proofs.«167322_j54778012893327_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Attn

/-! The operand indices of the [128,1024] x [1024,3072] product at an output index and a contraction index. -/

theorem dotP_l0 (i : S128x3072.Idx) (q : dot_S128x1024_S1024x3072_S128x3072_1_0_0_1_n_n.contr.Idx) : (dot_S128x1024_S1024x3072_S128x3072_1_0_0_1_n_n.lhsIdx i q 0).val = (i 0).val := by
  unfold DotDims.lhsIdx
  rw [dif_neg (show ¬(0 : Fin S128x1024.rank) ∈ dot_S128x1024_S1024x3072_S128x3072_1_0_0_1_n_n.lhsBatch by decide), dif_pos (show (0 : Fin S128x1024.rank) ∈ dot_S128x1024_S1024x3072_S128x3072_1_0_0_1_n_n.lhsNonContracting by decide)]
  rfl
theorem dotP_l1 (i : S128x3072.Idx) (q : dot_S128x1024_S1024x3072_S128x3072_1_0_0_1_n_n.contr.Idx) : (dot_S128x1024_S1024x3072_S128x3072_1_0_0_1_n_n.lhsIdx i q 1).val = (q ⟨0, by decide⟩).val :=
  dot_S128x1024_S1024x3072_S128x3072_1_0_0_1_n_n.lhsIdx_val_of_single rfl i q
theorem dotP_r0 (i : S128x3072.Idx) (q : dot_S128x1024_S1024x3072_S128x3072_1_0_0_1_n_n.contr.Idx) : (dot_S128x1024_S1024x3072_S128x3072_1_0_0_1_n_n.rhsIdx i q 0).val = (q ⟨0, by decide⟩).val :=
  dot_S128x1024_S1024x3072_S128x3072_1_0_0_1_n_n.rhsIdx_val_of_single rfl i q
theorem dotP_r1 (i : S128x3072.Idx) (q : dot_S128x1024_S1024x3072_S128x3072_1_0_0_1_n_n.contr.Idx) : (dot_S128x1024_S1024x3072_S128x3072_1_0_0_1_n_n.rhsIdx i q 1).val = (i 1).val := by
  unfold DotDims.rhsIdx
  rw [dif_neg (show ¬(1 : Fin S1024x3072.rank) ∈ dot_S128x1024_S1024x3072_S128x3072_1_0_0_1_n_n.rhsBatch by decide), dif_pos (show (1 : Fin S1024x3072.rank) ∈ dot_S128x1024_S1024x3072_S128x3072_1_0_0_1_n_n.rhsNonContracting by decide)]
  rfl

/-- The fused projection of the block at row r and column c: the 1024-term product plus the bias of the column. -/
theorem pay1_apply (v0 : Vec Ideal S1x128x1024 .f32) (v3 : Vec Ideal S1024x3072 .f32) (v7 : Vec Ideal S3072 .f32)
    (r : Fin 128) (c : Fin 3072) :
    k0_pay1 v0 v3 v7 (ix2 r c) = (∑ d : Fin 1024, v0 (ix3 0 r d) * v3 (ix2 d c)) + v7 (ix1 c) := by
  unfold k0_pay1
  refine (addf_apply _ _ _).trans ?_
  refine congrArg₂ (· + ·) ?_ ?_
  · simp only [matmul]
    rw [Ideal.matmul_constant_zero_apply, ← Equiv.sum_comp (contrEquiv1 dot_S128x1024_S1024x3072_S128x3072_1_0_0_1_n_n 1024 rfl rfl).symm]
    refine Finset.sum_congr rfl fun d _ => ?_
    have hk := contrEquiv1_symm_val dot_S128x1024_S1024x3072_S128x3072_1_0_0_1_n_n 1024 rfl rfl d
    have el : dot_S128x1024_S1024x3072_S128x3072_1_0_0_1_n_n.lhsIdx (ix2 r c) ((contrEquiv1 dot_S128x1024_S1024x3072_S128x3072_1_0_0_1_n_n 1024 rfl rfl).symm d) = ix2 r d :=
      funext fun ax => Fin.ext (by
        match ax with
        | ⟨0, _⟩ => exact dotP_l0 _ _
        | ⟨1, _⟩ => exact (dotP_l1 _ _).trans hk)
    have er : dot_S128x1024_S1024x3072_S128x3072_1_0_0_1_n_n.rhsIdx (ix2 r c) ((contrEquiv1 dot_S128x1024_S1024x3072_S128x3072_1_0_0_1_n_n 1024 rfl rfl).symm d) = ix2 d c :=
      funext fun ax => Fin.ext (by
        match ax with
        | ⟨0, _⟩ => exact (dotP_r0 _ _).trans hk
        | ⟨1, _⟩ => exact dotP_r1 _ _)
    rw [el, er]
    refine congrArg₂ (· * ·) ?_ ?_
    · show shapeCast S128x1024 v0 shapeCasts_S1x128x1024_S128x1024 (ix2 r d) = v0 (ix3 0 r d)
      exact shapeCast_1ab_ab_apply v0 _ r d
    · show shapeCast S1024x3072 v3 shapeCasts_S1024x3072_S1024x3072 (ix2 d c) = v3 (ix2 d c)
      rw [shapeCast_self]
  · refine (broadcastTo_1b_ab_apply _ _ r c).trans ?_
    exact shapeCast_a_1a_apply _ _ 0 c

/-- The re-layout [128,1024] -> [128,16,64] -> [16,128,64] -> [1,16,128,64] reads, at (0, h, r, t), the block at
    row r and column h*64 + t. -/
theorem relay_apply {α : Type} (X : S128x1024.Idx → α) (h : Fin 16) (r : Fin 128) (t : Fin 64) :
    shapeCast S1x16x128x64 (transpose S16x128x64 [1, 0, 2] (shapeCast S128x16x64 X shapeCasts_S128x1024_S128x16x64)
      transposes_S128x16x64_p1_0_2_S16x128x64) shapeCasts_S16x128x64_S1x16x128x64 (ix4 0 h r t) = X (ix2 r (col1 h t)) := by
  refine (shapeCast_abc_1abc_apply _ _ 0 h r t).trans ?_
  refine (transpose_apply _ _ transposes_S128x16x64_p1_0_2_S16x128x64 (ix3 h r t) (ix3 r h t)
    (fun b => match b with | ⟨0, _⟩ => rfl | ⟨1, _⟩ => rfl | ⟨2, _⟩ => rfl)).trans ?_
  exact shapeCast_apply X shapeCasts_S128x1024_S128x16x64 (ix3 r h t) (ix2 r (col1 h t)) (by
    rw [Shape.rowMajor_val_two, Shape.rowMajor_val_three]
    show r.val * 1024 + (h.val * 64 + t.val) = (r.val * 16 + h.val) * 64 + t.val
    omega)

/-- The stored q: the projection's first third at head h, column t, times 1/8. -/
theorem pay_q (v0 : Vec Ideal S1x128x1024 .f32) (v3 : Vec Ideal S1024x3072 .f32) (v7 : Vec Ideal S3072 .f32)
    (h : Fin 16) (r : Fin 128) (t : Fin 64) :
    k0_pay2 v0 v3 v7 (ix4 0 h r t)
      = ((∑ d : Fin 1024, v0 (ix3 0 r d) * v3 (ix2 d (col3 0 (by omega) h t))) + v7 (ix1 (col3 0 (by omega) h t))) * eighth := by
  unfold k0_pay2
  refine (relay_apply _ h r t).trans ?_
  show (extractStridedSlice S128x1024 ![0, 0] (k0_pay1 v0 v3 v7) slices_S128x3072_o0_0_S128x1024 (ix2 r (col1 h t))) * eighth = _
  refine congrArg (· * eighth) ?_
  refine (slice2_axis1_apply 0 _ _ r (col1 h t) (col3 0 (by omega) h t) (by
    show 0 + h.val * 64 + t.val = 0 + (h.val * 64 + t.val); omega)).trans ?_
  exact pay1_apply v0 v3 v7 r _

/-- The stored k: the projection's second third at head h, column t. -/
theorem pay_k (v0 : Vec Ideal S1x128x1024 .f32) (v3 : Vec Ideal S1024x3072 .f32) (v7 : Vec Ideal S3072 .f32)
    (h : Fin 16) (r : Fin 128) (t : Fin 64) :
    k0_pay3 v0 v3 v7 (ix4 0 h r t)
      = (∑ d : Fin 1024, v0 (ix3 0 r d) * v3 (ix2 d (col3 1024 (by omega) h t))) + v7 (ix1 (col3 1024 (by omega) h t)) := by
  unfold k0_pay3
  refine (relay_apply _ h r t).trans ?_
  show extractStridedSlice S128x1024 ![0, 1024] (k0_pay1 v0 v3 v7) slices_S128x3072_o0_1024_S128x1024 (ix2 r (col1 h t)) = _
  refine (slice2_axis1_apply 1024 _ _ r (col1 h t) (col3 1024 (by omega) h t) (by
    show 1024 + h.val * 64 + t.val = 1024 + (h.val * 64 + t.val); omega)).trans ?_
  exact pay1_apply v0 v3 v7 r _

/-- The stored v: the projection's last third at head h, column t. -/
theorem pay_v (v0 : Vec Ideal S1x128x1024 .f32) (v3 : Vec Ideal S1024x3072 .f32) (v7 : Vec Ideal S3072 .f32)
    (h : Fin 16) (r : Fin 128) (t : Fin 64) :
    k0_pay4 v0 v3 v7 (ix4 0 h r t)
      = (∑ d : Fin 1024, v0 (ix3 0 r d) * v3 (ix2 d (col3 2048 (by omega) h t))) + v7 (ix1 (col3 2048 (by omega) h t)) := by
  unfold k0_pay4
  refine (relay_apply _ h r t).trans ?_
  show extractStridedSlice S128x1024 ![0, 2048] (k0_pay1 v0 v3 v7) slices_S128x3072_o0_2048_S128x1024 (ix2 r (col1 h t)) = _
  refine (slice2_axis1_apply 2048 _ _ r (col1 h t) (col3 2048 (by omega) h t) (by
    show 2048 + h.val * 64 + t.val = 2048 + (h.val * 64 + t.val); omega)).trans ?_
  exact pay1_apply v0 v3 v7 r _

end Cert.KernelIdeal.Pay

end
-- ==== Proof.KI.Val0.lean ====
import proofs.«167322_j54778012893327_2_alg».proof.Proof.KI.Reg0
import proofs.«167322_j54778012893327_2_alg».proof.Proof.Spec
import proofs.«167322_j54778012893327_2_alg».proof.Proof.KI.Pay0
import Idealize.ShloMosaic.Lib.Pipeline.Value
import Idealize.ShloMosaic.Lib.ValueIdx
import Idealize.ShloMosaic.Lib.Tactic

/-! The value of region 0 (the fused QKV projection) at the ideal operations: each of the three arrays the region
    leaves — queries, keys, values, laid out [batch, head, row, column] — is, index by index, the activations' row
    against the weight's column plus the bias (the queries scaled by 1/8), read off the arrays as the region finds them.
    From the blocks to the array: the index maps over the grid, each input block as a part of its array, what a point
    writes back as a block of one whole-array function, the blocks' cover of the array. -/

set_option maxRecDepth 16384

noncomputable section

namespace Cert.KernelIdeal.HandValue

open Cert.KernelIdeal Cert.KernelIdeal.Gen Cert.KernelIdeal.Hand Cert.Attn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The block index maps over the grid -/

/-- The index maps of region 0, decided over its 32 points: the activations' block moves with the output's on the batch
    and row axes, the weight and the bias are one block, and the three outputs move together. -/
theorem idx_facts0 : ∀ t : Fin cfg0.N,
    win0_0.index t (0 : Fin 3) = win0_3.index t (0 : Fin 4) ∧ win0_0.index t (1 : Fin 3) = win0_3.index t (2 : Fin 4)
    ∧ win0_0.index t (2 : Fin 3) = 0
    ∧ win0_1.index t (0 : Fin 2) = 0 ∧ win0_1.index t (1 : Fin 2) = 0 ∧ win0_2.index t (0 : Fin 1) = 0
    ∧ win0_3.index t (1 : Fin 4) = 0 ∧ win0_3.index t (3 : Fin 4) = 0
    ∧ win0_3.index t (0 : Fin 4) ≤ 1 ∧ win0_3.index t (2 : Fin 4) ≤ 15
    ∧ win0_4.index t = win0_3.index t ∧ win0_5.index t = win0_3.index t :=
  (by decide +kernel : ∀ t : Fin grid0.N, _)

/-- Every (batch, row tile) is some point's output block. -/
theorem idx_onto0 : ∀ (q0 : Fin 2) (q2 : Fin 16), ∃ t : Fin cfg0.N, win0_3.index t = ![q0.val, 0, q2.val, 0] :=
  (by decide +kernel : ∀ (q0 : Fin 2) (q2 : Fin 16), ∃ t : Fin grid0.N, win0_3.index t = ![q0.val, 0, q2.val, 0])

/-! ## The input blocks as parts of their arrays -/

/-- The activations' block at point `t`: row `r` of the block is row `index 1 * 128 + r` of batch `index 0`. -/
theorem iblk0_0_apply (c : Dev nD) (t : Fin cfg0.N) (x : S1x128x1024.Idx) (k : S2x2048x1024.Idx)
    (hk0 : (k 0).val = win0_0.index t 0 * 1 + (x 0).val) (hk1 : (k 1).val = win0_0.index t 1 * 128 + (x 1).val)
    (hk2 : (k 2).val = win0_0.index t 2 * 1024 + (x 2).val) :
    (iblk0 V c 0 t : Vec Ideal S1x128x1024 .f32) x = (V c main_arg0 : S2x2048x1024.Idx → EReal) k := by
  unfold iblk0
  rw [View.read_apply]
  show V c main_arg0 _ = V c main_arg0 _
  congr 1
  funext a
  apply Fin.ext
  match a with
  | ⟨0, _⟩ => show win0_0.index t 0 * 1 + 1 * (x 0).val = (k 0).val; omega
  | ⟨1, _⟩ => show win0_0.index t 1 * 128 + 1 * (x 1).val = (k 1).val; omega
  | ⟨2, _⟩ => show win0_0.index t 2 * 1024 + 1 * (x 2).val = (k 2).val; omega

/-- The weight's block is the whole weight. -/
theorem iblk0_1_apply (c : Dev nD) (t : Fin cfg0.N) (x : S1024x3072.Idx) :
    (iblk0 V c 1 t : Vec Ideal S1024x3072 .f32) x = (V c main_call0_v0 : S1024x3072.Idx → EReal) x := by
  obtain ⟨-, -, -, e0, e1, -⟩ := idx_facts0 t
  unfold iblk0
  rw [View.read_apply]
  show V c main_call0_v0 _ = V c main_call0_v0 _
  congr 1
  funext a
  apply Fin.ext
  match a with
  | ⟨0, _⟩ => show win0_1.index t 0 * 1024 + 1 * (x 0).val = (x 0).val; omega
  | ⟨1, _⟩ => show win0_1.index t 1 * 3072 + 1 * (x 1).val = (x 1).val; omega

/-- The bias's block is the whole bias. -/
theorem iblk0_2_apply (c : Dev nD) (t : Fin cfg0.N) (x : S3072.Idx) :
    (iblk0 V c 2 t : Vec Ideal S3072 .f32) x = (V c main_arg2 : S3072.Idx → EReal) x := by
  obtain ⟨-, -, -, -, -, e0, -⟩ := idx_facts0 t
  unfold iblk0
  rw [View.read_apply]
  show V c main_arg2 _ = V c main_arg2 _
  congr 1
  funext a
  apply Fin.ext
  match a with
  | ⟨0, _⟩ => show win0_2.index t 0 * 3072 + 1 * (x 0).val = (x 0).val; omega

/-! ## The arrays the region leaves -/

/-- The region's three input arrays as it finds them, at their literal shapes: the activations, the transposed
    projection weight, the projection bias. -/
abbrev inX (c : Dev nD) : S2x2048x1024.Idx → EReal := V c main_arg0
abbrev inW (c : Dev nD) : S1024x3072.Idx → EReal := V c main_call0_v0
abbrev inB (c : Dev nD) : S3072.Idx → EReal := V c main_arg2

/-- Head `h`'s column `t`, in the third of the fused projection starting at column `o`, of row `s` of batch `b`:
    the activations' row against the weight's column plus the bias, read off the arrays as the region finds them. -/
def projAt (c : Dev nD) (o : Nat) (ho : o + 1024 ≤ 3072) (b : Fin 2) (h : Fin 16) (s : Fin 2048) (t : Fin 64) : EReal :=
  (∑ d : Fin 1024, inX V c (ix3 b s d) * inW V c (ix2 d (col3 o ho h t))) + inB V c (ix1 (col3 o ho h t))

/-- A whole output array of the region: `post` of that projection, index by index. -/
def G0 (c : Dev nD) (o : Nat) (ho : o + 1024 ≤ 3072) (post : EReal → EReal) : S2x16x2048x64.Idx → EReal :=
  fun i => post (projAt V c o ho (i 0) (i 1) (i 2) (i 3))

/-! ## Output window 3 -/

/-- An element of output window 3's block at point `t` sits in the array at the point's batch, the same head, the
    point's row tile times 128 plus its row, the same column. -/
theorem emb0_3 (t : Fin cfg0.N) (z : Fin 1) (hh : Fin 16) (r : Fin 128) (t' : Fin 64) (B : Fin 2) (S : Fin 2048)
    (hB : B.val = win0_3.index t 0) (hS : S.val = win0_3.index t 2 * 128 + r.val) :
    ((cfg0.win 3).blk t).view.emb (ix4 z hh r t' : S1x16x128x64.Idx) = (ix4 B hh S t' : S2x16x2048x64.Idx) := by
  obtain ⟨-, -, -, -, -, -, e1, e3, -, -, e4, e5⟩ := idx_facts0 t
  funext a; apply Fin.ext
  match a with
  | ⟨0, _⟩ => show win0_3.index t 0 * 1 + 1 * z.val = B.val; have := z.isLt; omega
  | ⟨1, _⟩ => show win0_3.index t 1 * 16 + 1 * hh.val = hh.val; omega
  | ⟨2, _⟩ => show win0_3.index t 2 * 128 + 1 * r.val = S.val; omega
  | ⟨3, _⟩ => show win0_3.index t 3 * 64 + 1 * t'.val = t'.val; omega

/-- What point `t` writes back to output window 3's array is block `t` of `G0`, given the payload's value at an index. -/
theorem flushed0_3_eq (o : Nat) (ho : o + 1024 ≤ 3072) (post : EReal → EReal)
    (hpay : ∀ (v0 : Vec Ideal S1x128x1024 .f32) (v3 : Vec Ideal S1024x3072 .f32) (v7 : Vec Ideal S3072 .f32)
      (h : Fin 16) (r : Fin 128) (t : Fin 64), k0_pay2 v0 v3 v7 (ix4 0 h r t)
        = post ((∑ d : Fin 1024, v0 (ix3 0 r d) * v3 (ix2 d (col3 o ho h t))) + v7 (ix1 (col3 o ho h t))))
    (c : Dev nD) (t : Fin cfg0.N) :
    (dat0 V c).flushed 3 t = ((cfg0.win 3).blk t).view.read (Elt Ideal) (G0 V c o ho post) := by
  show (cfg0.win 3).cut (grid0.coords t) ((dat0 V c).after 3 t) = _
  rw [after0_3]
  unfold out0_3
  rw [View.canon_unit_zero hz4]
  simp only [View.ld_unit_zero (S := S1x128x1024) hz3, View.ld_unit_zero (S := S1024x3072) hz2, View.ld_unit_zero (S := S3072) hz1]
  funext j
  obtain ⟨z, hh, r, t', rfl⟩ : ∃ (z : Fin 1) (hh : Fin 16) (r : Fin 128) (t' : Fin 64), j = (ix4 z hh r t' : S1x16x128x64.Idx) :=
    ⟨j 0, j 1, j 2, j 3, eq_ix4 j⟩
  obtain rfl : z = 0 := Subsingleton.elim _ _
  obtain ⟨e00, e01, e02, -, -, -, -, -, b0, b2, -, -⟩ := idx_facts0 t
  show k0_pay2 (iblk0 V c 0 t) (iblk0 V c 1 t) (iblk0 V c 2 t) (ix4 0 hh r t')
    = G0 V c o ho post (((cfg0.win 3).blk t).view.emb (ix4 0 hh r t' : S1x16x128x64.Idx))
  rw [emb0_3 t 0 hh r t' ⟨win0_3.index t 0, by omega⟩ ⟨win0_3.index t 2 * 128 + r.val, by omega⟩ rfl rfl]
  refine (hpay _ _ _ hh r t').trans ?_
  show post _ = post _
  congr 1
  unfold projAt
  congr 1
  · refine Finset.sum_congr rfl fun d _ => ?_
    rw [iblk0_0_apply V c t (ix3 0 r d) (ix3 ⟨win0_3.index t 0, by omega⟩ ⟨win0_3.index t 2 * 128 + r.val, by omega⟩ d)
      (by show win0_3.index t 0 = win0_0.index t 0 * 1 + 0; omega) (by show win0_3.index t 2 * 128 + r.val = win0_0.index t 1 * 128 + r.val; omega)
      (by show d.val = win0_0.index t 2 * 1024 + d.val; omega), iblk0_1_apply]
  · rw [iblk0_2_apply]

/-- An index of the array is in point `t`'s block iff each coordinate is in the block's range on its axis. -/
theorem mem_blk0_3 (t : Fin cfg0.N) (i : S2x16x2048x64.Idx) :
    i ∈ ((cfg0.win 3).blk t).view.set ↔ ∀ a : Fin 4, win0_3.index t a * S1x16x128x64.size a ≤ (i a).val ∧ (i a).val < win0_3.index t a * S1x16x128x64.size a + S1x16x128x64.size a := by
  show i ∈ ((View.whole main_call0_v1_0).slice (win0_3.rect t)).set ↔ _
  rw [View.set_slice_whole, Rect.mem_set_unit]
  exact Iff.rfl

/-- Every index of the array is in some point's block: the point of its batch and of its row's tile. -/
theorem cover0_3' (i : S2x16x2048x64.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto0 ⟨(i 0).val, hi0⟩ ⟨(i 2).val / 128, by omega⟩
  obtain ⟨-, -, -, -, -, -, -, -, -, -, e4, e5⟩ := idx_facts0 t
  have q0 : win0_3.index t (0 : Fin 4) = (i 0).val := congrFun ht 0
  have q1 : win0_3.index t (1 : Fin 4) = 0 := congrFun ht 1
  have q2 : win0_3.index t (2 : Fin 4) = (i 2).val / 128 := congrFun ht 2
  have q3 : win0_3.index t (3 : Fin 4) = 0 := congrFun ht 3
  refine ⟨t, flush0_3 t, ?_⟩
  rw [mem_blk0_3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 128 ≤ (i 2).val ∧ (i 2).val < win0_3.index t (2 : Fin 4) * 128 + 128; omega
  | ⟨3, _⟩ => show win0_3.index t (3 : Fin 4) * 64 ≤ (i 3).val ∧ (i 3).val < win0_3.index t (3 : Fin 4) * 64 + 64; omega

/-- The array after the region, given the payload's value at an index: `G0`. -/
theorem final0_3_of (o : Nat) (ho : o + 1024 ≤ 3072) (post : EReal → EReal)
    (hpay : ∀ (v0 : Vec Ideal S1x128x1024 .f32) (v3 : Vec Ideal S1024x3072 .f32) (v7 : Vec Ideal S3072 .f32)
      (h : Fin 16) (r : Fin 128) (t : Fin 64), k0_pay2 v0 v3 v7 (ix4 0 h r t)
        = post ((∑ d : Fin 1024, v0 (ix3 0 r d) * v3 (ix2 d (col3 o ho h t))) + v7 (ix1 (col3 o ho h t))))
    (c : Dev nD) : (dat0 V c).arrAt 3 cfg0.N = G0 V c o ho post :=
  (dat0 V c).arrAt_eq_of_cover 3 (G0 V c o ho post) (fun t _ => flushed0_3_eq V o ho post hpay c t) cover0_3'

/-! ## Output window 4 -/

/-- An element of output window 4's block at point `t` sits in the array at the point's batch, the same head, the
    point's row tile times 128 plus its row, the same column. -/
theorem emb0_4 (t : Fin cfg0.N) (z : Fin 1) (hh : Fin 16) (r : Fin 128) (t' : Fin 64) (B : Fin 2) (S : Fin 2048)
    (hB : B.val = win0_3.index t 0) (hS : S.val = win0_3.index t 2 * 128 + r.val) :
    ((cfg0.win 4).blk t).view.emb (ix4 z hh r t' : S1x16x128x64.Idx) = (ix4 B hh S t' : S2x16x2048x64.Idx) := by
  obtain ⟨-, -, -, -, -, -, e1, e3, -, -, e4, e5⟩ := idx_facts0 t
  funext a; apply Fin.ext
  match a with
  | ⟨0, _⟩ => show win0_4.index t 0 * 1 + 1 * z.val = B.val; rw [e4]; have := z.isLt; omega
  | ⟨1, _⟩ => show win0_4.index t 1 * 16 + 1 * hh.val = hh.val; rw [e4]; omega
  | ⟨2, _⟩ => show win0_4.index t 2 * 128 + 1 * r.val = S.val; rw [e4]; omega
  | ⟨3, _⟩ => show win0_4.index t 3 * 64 + 1 * t'.val = t'.val; rw [e4]; omega

/-- What point `t` writes back to output window 4's array is block `t` of `G0`, given the payload's value at an index. -/
theorem flushed0_4_eq (o : Nat) (ho : o + 1024 ≤ 3072) (post : EReal → EReal)
    (hpay : ∀ (v0 : Vec Ideal S1x128x1024 .f32) (v3 : Vec Ideal S1024x3072 .f32) (v7 : Vec Ideal S3072 .f32)
      (h : Fin 16) (r : Fin 128) (t : Fin 64), k0_pay3 v0 v3 v7 (ix4 0 h r t)
        = post ((∑ d : Fin 1024, v0 (ix3 0 r d) * v3 (ix2 d (col3 o ho h t))) + v7 (ix1 (col3 o ho h t))))
    (c : Dev nD) (t : Fin cfg0.N) :
    (dat0 V c).flushed 4 t = ((cfg0.win 4).blk t).view.read (Elt Ideal) (G0 V c o ho post) := by
  show (cfg0.win 4).cut (grid0.coords t) ((dat0 V c).after 4 t) = _
  rw [after0_4]
  unfold out0_4
  rw [View.canon_unit_zero hz4]
  simp only [View.ld_unit_zero (S := S1x128x1024) hz3, View.ld_unit_zero (S := S1024x3072) hz2, View.ld_unit_zero (S := S3072) hz1]
  funext j
  obtain ⟨z, hh, r, t', rfl⟩ : ∃ (z : Fin 1) (hh : Fin 16) (r : Fin 128) (t' : Fin 64), j = (ix4 z hh r t' : S1x16x128x64.Idx) :=
    ⟨j 0, j 1, j 2, j 3, eq_ix4 j⟩
  obtain rfl : z = 0 := Subsingleton.elim _ _
  obtain ⟨e00, e01, e02, -, -, -, -, -, b0, b2, -, -⟩ := idx_facts0 t
  show k0_pay3 (iblk0 V c 0 t) (iblk0 V c 1 t) (iblk0 V c 2 t) (ix4 0 hh r t')
    = G0 V c o ho post (((cfg0.win 4).blk t).view.emb (ix4 0 hh r t' : S1x16x128x64.Idx))
  rw [emb0_4 t 0 hh r t' ⟨win0_3.index t 0, by omega⟩ ⟨win0_3.index t 2 * 128 + r.val, by omega⟩ rfl rfl]
  refine (hpay _ _ _ hh r t').trans ?_
  show post _ = post _
  congr 1
  unfold projAt
  congr 1
  · refine Finset.sum_congr rfl fun d _ => ?_
    rw [iblk0_0_apply V c t (ix3 0 r d) (ix3 ⟨win0_3.index t 0, by omega⟩ ⟨win0_3.index t 2 * 128 + r.val, by omega⟩ d)
      (by show win0_3.index t 0 = win0_0.index t 0 * 1 + 0; omega) (by show win0_3.index t 2 * 128 + r.val = win0_0.index t 1 * 128 + r.val; omega)
      (by show d.val = win0_0.index t 2 * 1024 + d.val; omega), iblk0_1_apply]
  · rw [iblk0_2_apply]

/-- An index of the array is in point `t`'s block iff each coordinate is in the block's range on its axis. -/
theorem mem_blk0_4 (t : Fin cfg0.N) (i : S2x16x2048x64.Idx) :
    i ∈ ((cfg0.win 4).blk t).view.set ↔ ∀ a : Fin 4, win0_4.index t a * S1x16x128x64.size a ≤ (i a).val ∧ (i a).val < win0_4.index t a * S1x16x128x64.size a + S1x16x128x64.size a := by
  show i ∈ ((View.whole main_call0_v1_1).slice (win0_4.rect t)).set ↔ _
  rw [View.set_slice_whole, Rect.mem_set_unit]
  exact Iff.rfl

/-- Every index of the array is in some point's block: the point of its batch and of its row's tile. -/
theorem cover0_4' (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto0 ⟨(i 0).val, hi0⟩ ⟨(i 2).val / 128, by omega⟩
  obtain ⟨-, -, -, -, -, -, -, -, -, -, e4, e5⟩ := idx_facts0 t
  have q0 : win0_3.index t (0 : Fin 4) = (i 0).val := congrFun ht 0
  have q1 : win0_3.index t (1 : Fin 4) = 0 := congrFun ht 1
  have q2 : win0_3.index t (2 : Fin 4) = (i 2).val / 128 := congrFun ht 2
  have q3 : win0_3.index t (3 : Fin 4) = 0 := congrFun ht 3
  refine ⟨t, flush0_4 t, ?_⟩
  rw [mem_blk0_4, e4]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 128 ≤ (i 2).val ∧ (i 2).val < win0_3.index t (2 : Fin 4) * 128 + 128; omega
  | ⟨3, _⟩ => show win0_3.index t (3 : Fin 4) * 64 ≤ (i 3).val ∧ (i 3).val < win0_3.index t (3 : Fin 4) * 64 + 64; omega

/-- The array after the region, given the payload's value at an index: `G0`. -/
theorem final0_4_of (o : Nat) (ho : o + 1024 ≤ 3072) (post : EReal → EReal)
    (hpay : ∀ (v0 : Vec Ideal S1x128x1024 .f32) (v3 : Vec Ideal S1024x3072 .f32) (v7 : Vec Ideal S3072 .f32)
      (h : Fin 16) (r : Fin 128) (t : Fin 64), k0_pay3 v0 v3 v7 (ix4 0 h r t)
        = post ((∑ d : Fin 1024, v0 (ix3 0 r d) * v3 (ix2 d (col3 o ho h t))) + v7 (ix1 (col3 o ho h t))))
    (c : Dev nD) : (dat0 V c).arrAt 4 cfg0.N = G0 V c o ho post :=
  (dat0 V c).arrAt_eq_of_cover 4 (G0 V c o ho post) (fun t _ => flushed0_4_eq V o ho post hpay c t) cover0_4'

/-! ## Output window 5 -/

/-- An element of output window 5's block at point `t` sits in the array at the point's batch, the same head, the
    point's row tile times 128 plus its row, the same column. -/
theorem emb0_5 (t : Fin cfg0.N) (z : Fin 1) (hh : Fin 16) (r : Fin 128) (t' : Fin 64) (B : Fin 2) (S : Fin 2048)
    (hB : B.val = win0_3.index t 0) (hS : S.val = win0_3.index t 2 * 128 + r.val) :
    ((cfg0.win 5).blk t).view.emb (ix4 z hh r t' : S1x16x128x64.Idx) = (ix4 B hh S t' : S2x16x2048x64.Idx) := by
  obtain ⟨-, -, -, -, -, -, e1, e3, -, -, e4, e5⟩ := idx_facts0 t
  funext a; apply Fin.ext
  match a with
  | ⟨0, _⟩ => show win0_5.index t 0 * 1 + 1 * z.val = B.val; rw [e5]; have := z.isLt; omega
  | ⟨1, _⟩ => show win0_5.index t 1 * 16 + 1 * hh.val = hh.val; rw [e5]; omega
  | ⟨2, _⟩ => show win0_5.index t 2 * 128 + 1 * r.val = S.val; rw [e5]; omega
  | ⟨3, _⟩ => show win0_5.index t 3 * 64 + 1 * t'.val = t'.val; rw [e5]; omega

/-- What point `t` writes back to output window 5's array is block `t` of `G0`, given the payload's value at an index. -/
theorem flushed0_5_eq (o : Nat) (ho : o + 1024 ≤ 3072) (post : EReal → EReal)
    (hpay : ∀ (v0 : Vec Ideal S1x128x1024 .f32) (v3 : Vec Ideal S1024x3072 .f32) (v7 : Vec Ideal S3072 .f32)
      (h : Fin 16) (r : Fin 128) (t : Fin 64), k0_pay4 v0 v3 v7 (ix4 0 h r t)
        = post ((∑ d : Fin 1024, v0 (ix3 0 r d) * v3 (ix2 d (col3 o ho h t))) + v7 (ix1 (col3 o ho h t))))
    (c : Dev nD) (t : Fin cfg0.N) :
    (dat0 V c).flushed 5 t = ((cfg0.win 5).blk t).view.read (Elt Ideal) (G0 V c o ho post) := by
  show (cfg0.win 5).cut (grid0.coords t) ((dat0 V c).after 5 t) = _
  rw [after0_5]
  unfold out0_5
  rw [View.canon_unit_zero hz4]
  simp only [View.ld_unit_zero (S := S1x128x1024) hz3, View.ld_unit_zero (S := S1024x3072) hz2, View.ld_unit_zero (S := S3072) hz1]
  funext j
  obtain ⟨z, hh, r, t', rfl⟩ : ∃ (z : Fin 1) (hh : Fin 16) (r : Fin 128) (t' : Fin 64), j = (ix4 z hh r t' : S1x16x128x64.Idx) :=
    ⟨j 0, j 1, j 2, j 3, eq_ix4 j⟩
  obtain rfl : z = 0 := Subsingleton.elim _ _
  obtain ⟨e00, e01, e02, -, -, -, -, -, b0, b2, -, -⟩ := idx_facts0 t
  show k0_pay4 (iblk0 V c 0 t) (iblk0 V c 1 t) (iblk0 V c 2 t) (ix4 0 hh r t')
    = G0 V c o ho post (((cfg0.win 5).blk t).view.emb (ix4 0 hh r t' : S1x16x128x64.Idx))
  rw [emb0_5 t 0 hh r t' ⟨win0_3.index t 0, by omega⟩ ⟨win0_3.index t 2 * 128 + r.val, by omega⟩ rfl rfl]
  refine (hpay _ _ _ hh r t').trans ?_
  show post _ = post _
  congr 1
  unfold projAt
  congr 1
  · refine Finset.sum_congr rfl fun d _ => ?_
    rw [iblk0_0_apply V c t (ix3 0 r d) (ix3 ⟨win0_3.index t 0, by omega⟩ ⟨win0_3.index t 2 * 128 + r.val, by omega⟩ d)
      (by show win0_3.index t 0 = win0_0.index t 0 * 1 + 0; omega) (by show win0_3.index t 2 * 128 + r.val = win0_0.index t 1 * 128 + r.val; omega)
      (by show d.val = win0_0.index t 2 * 1024 + d.val; omega), iblk0_1_apply]
  · rw [iblk0_2_apply]

/-- An index of the array is in point `t`'s block iff each coordinate is in the block's range on its axis. -/
theorem mem_blk0_5 (t : Fin cfg0.N) (i : S2x16x2048x64.Idx) :
    i ∈ ((cfg0.win 5).blk t).view.set ↔ ∀ a : Fin 4, win0_5.index t a * S1x16x128x64.size a ≤ (i a).val ∧ (i a).val < win0_5.index t a * S1x16x128x64.size a + S1x16x128x64.size a := by
  show i ∈ ((View.whole main_call0_v1_2).slice (win0_5.rect t)).set ↔ _
  rw [View.set_slice_whole, Rect.mem_set_unit]
  exact Iff.rfl

/-- Every index of the array is in some point's block: the point of its batch and of its row's tile. -/
theorem cover0_5' (i : S2x16x2048x64.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto0 ⟨(i 0).val, hi0⟩ ⟨(i 2).val / 128, by omega⟩
  obtain ⟨-, -, -, -, -, -, -, -, -, -, e4, e5⟩ := idx_facts0 t
  have q0 : win0_3.index t (0 : Fin 4) = (i 0).val := congrFun ht 0
  have q1 : win0_3.index t (1 : Fin 4) = 0 := congrFun ht 1
  have q2 : win0_3.index t (2 : Fin 4) = (i 2).val / 128 := congrFun ht 2
  have q3 : win0_3.index t (3 : Fin 4) = 0 := congrFun ht 3
  refine ⟨t, flush0_5 t, ?_⟩
  rw [mem_blk0_5, e5]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 128 ≤ (i 2).val ∧ (i 2).val < win0_3.index t (2 : Fin 4) * 128 + 128; omega
  | ⟨3, _⟩ => show win0_3.index t (3 : Fin 4) * 64 ≤ (i 3).val ∧ (i 3).val < win0_3.index t (3 : Fin 4) * 64 + 64; omega

/-- The array after the region, given the payload's value at an index: `G0`. -/
theorem final0_5_of (o : Nat) (ho : o + 1024 ≤ 3072) (post : EReal → EReal)
    (hpay : ∀ (v0 : Vec Ideal S1x128x1024 .f32) (v3 : Vec Ideal S1024x3072 .f32) (v7 : Vec Ideal S3072 .f32)
      (h : Fin 16) (r : Fin 128) (t : Fin 64), k0_pay4 v0 v3 v7 (ix4 0 h r t)
        = post ((∑ d : Fin 1024, v0 (ix3 0 r d) * v3 (ix2 d (col3 o ho h t))) + v7 (ix1 (col3 o ho h t))))
    (c : Dev nD) : (dat0 V c).arrAt 5 cfg0.N = G0 V c o ho post :=
  (dat0 V c).arrAt_eq_of_cover 5 (G0 V c o ho post) (fun t _ => flushed0_5_eq V o ho post hpay c t) cover0_5'

/-! ## The three arrays, index by index -/

/-- The query array the region leaves: the first third of the fused projection, scaled by 1/8. -/
theorem final0_3 (c : Dev nD) (b : Fin 2) (h : Fin 16) (s : Fin 2048) (t : Fin 64) :
    (dat0 V c).arrAt 3 cfg0.N (ix4 b h s t)
      = ((∑ d : Fin 1024, inX V c (ix3 b s d) * inW V c (ix2 d (col3 0 (by omega) h t))) + inB V c (ix1 (col3 0 (by omega) h t))) * eighth :=
  congrFun (final0_3_of V 0 (by omega) (fun x => x * eighth) Cert.KernelIdeal.Pay.pay_q c) (ix4 b h s t)

/-- The key array: the second third. -/
theorem final0_4 (c : Dev nD) (b : Fin 2) (h : Fin 16) (s : Fin 2048) (t : Fin 64) :
    (dat0 V c).arrAt 4 cfg0.N (ix4 b h s t)
      = (∑ d : Fin 1024, inX V c (ix3 b s d) * inW V c (ix2 d (col3 1024 (by omega) h t))) + inB V c (ix1 (col3 1024 (by omega) h t)) :=
  congrFun (final0_4_of V 1024 (by omega) (fun x => x) Cert.KernelIdeal.Pay.pay_k c) (ix4 b h s t)

/-- The value array: the last third. -/
theorem final0_5 (c : Dev nD) (b : Fin 2) (h : Fin 16) (s : Fin 2048) (t : Fin 64) :
    (dat0 V c).arrAt 5 cfg0.N (ix4 b h s t)
      = (∑ d : Fin 1024, inX V c (ix3 b s d) * inW V c (ix2 d (col3 2048 (by omega) h t))) + inB V c (ix1 (col3 2048 (by omega) h t)) :=
  congrFun (final0_5_of V 2048 (by omega) (fun x => x) Cert.KernelIdeal.Pay.pay_v c) (ix4 b h s t)

end Cert.KernelIdeal.HandValue

end
-- ==== Proof.KI.Pay1.lean ====
/-
  The attention body's stored values at an index: for a 512-row query tile of one head, the scores q·kᵀ, the row
  maximum folded from minus infinity, the exponentials of the differences, their row sum, the quotients, and the
  quotients' product with v: the softmax-weighted average of the rows of v.
-/
import proofs.«167322_j54778012893327_2_alg».proof.Proof.Gen.KernelIdeal.Skeleton
import proofs.«167322_j54778012893327_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Attn

/-! ## The keepdims column forms: [a] -> [a, 1] -> [a, b] -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[a, b]` array cast to `[1, 1, a, b]` reads, at `(u, w, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add])

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-! ## The row reductions of a [512, 2048] block -/

/-- The index a reduction over the columns inserts: row i, column j. -/
theorem lift_row (i : Fin 512) (j : Fin 2048) : reduces_S512x2048_S512.lift (ix1 i) j = ix2 i j :=
  funext fun c => Fin.ext (by
    match c with
    | ⟨0, _⟩ => rfl
    | ⟨1, _⟩ => rfl)

/-- A row's maximum, folded from minus infinity. -/
theorem rowmax_apply (X : FVec Ideal S512x2048 .f32) (i : Fin 512) :
    multiReduction (F := Ideal) .maximumf [1] S512 X 0xFF800000#32 reduces_S512x2048_S512 (.inl rfl) rfl (ix1 i)
      = (Finset.univ : Finset (Fin 2048)).fold max negInf (fun j => X (ix2 i j)) := by
  refine (Ideal.multiReduction_maximumf_single X 0xFF800000#32 reduces_S512x2048_S512 (.inl rfl) rfl (ix1 i)).trans ?_
  refine congrArg (fun f : Fin 2048 → EReal => (Finset.univ : Finset (Fin 2048)).fold max negInf f) ?_
  funext j
  exact congrArg X (lift_row i j)

/-- A row's sum. -/
theorem rowsum_apply (X : FVec Ideal S512x2048 .f32) (i : Fin 512) :
    multiReduction (F := Ideal) .add [1] S512 X 0x00000000#32 reduces_S512x2048_S512 (.inl rfl) rfl (ix1 i)
      = ∑ j : Fin 2048, X (ix2 i j) := by
  refine (Ideal.multiReduction_add_single X 0x00000000#32 reduces_S512x2048_S512 (.inl rfl) rfl (ix1 i)).trans ?_
  refine Finset.sum_congr rfl fun j _ => ?_
  exact congrArg X (lift_row i j)

/-- A per-row value spread over the row's 2048 columns. -/
theorem col_apply {α : Type} (Y : S512.Idx → α) (i : Fin 512) (j : Fin 2048) :
    broadcastTo S512x2048 (shapeCast S512x1 Y shapeCasts_S512_S512x1) broadcasts_S512x1_S512x2048 (ix2 i j) = Y (ix1 i) :=
  (broadcastTo_a1_ab_apply _ _ i j).trans (shapeCast_a_a1_apply Y _ i 0)

/-! ## The body's three stages -/

/-- The scores of the tile: q times k transposed, into zero. -/
def scoreBlk (q : Vec Ideal S1x1x512x64 .bf16) (k : Vec Ideal S1x1x2048x64 .bf16) : FVec Ideal S512x2048 .f32 :=
  matmul dot_S512x64_S64x2048_S512x2048_1_0_0_1_n_n none
    (shapeCast S512x64 q shapeCasts_S1x1x512x64_S512x64 : FVec Ideal S512x64 .bf16)
    (transpose S64x2048 [1, 0] (shapeCast S2048x64 k shapeCasts_S1x1x2048x64_S2048x64 : FVec Ideal S2048x64 .bf16)
      transposes_S2048x64_p1_0_S64x2048 : FVec Ideal S64x2048 .bf16)
    (constant (F := Ideal) S512x2048 .f32 0x00000000#32)

/-- The exponentials of a block's entries less their row's maximum. -/
def expBlk (X : FVec Ideal S512x2048 .f32) : FVec Ideal S512x2048 .f32 :=
  exp (subf X (broadcastTo S512x2048 (shapeCast S512x1
    (multiReduction (F := Ideal) .maximumf [1] S512 X 0xFF800000#32 reduces_S512x2048_S512 (.inl rfl) rfl)
    shapeCasts_S512_S512x1) broadcasts_S512x1_S512x2048))

/-- A block's entries divided by their row's sum. -/
def probBlk (E : FVec Ideal S512x2048 .f32) : FVec Ideal S512x2048 .f32 :=
  divf E (broadcastTo S512x2048 (shapeCast S512x1
    (multiReduction (F := Ideal) .add [1] S512 E 0x00000000#32 reduces_S512x2048_S512 (.inl rfl) rfl)
    shapeCasts_S512_S512x1) broadcasts_S512x1_S512x2048)

/-- The body's stored value is the three stages followed by the product with v. -/
theorem k1_pay1_eq (q : Vec Ideal S1x1x512x64 .bf16) (k v : Vec Ideal S1x1x2048x64 .bf16) :
    k1_pay1 q k v = shapeCast S1x1x512x64
      (truncf .bf16 (matmul dot_S512x2048_S2048x64_S512x64_1_0_0_1_n_n none
        (truncf .bf16 (probBlk (expBlk (scoreBlk q k))) bitsLt_bf16_f32 : FVec Ideal S512x2048 .bf16)
        (shapeCast S2048x64 v shapeCasts_S1x1x2048x64_S2048x64 : FVec Ideal S2048x64 .bf16)
        (constant (F := Ideal) S512x64 .f32 0x00000000#32)) bitsLt_bf16_f32 : FVec Ideal S512x64 .bf16)
      shapeCasts_S512x64_S1x1x512x64 := rfl

/-! The operand indices of the two products at an output index and a contraction index. -/

theorem dotS_l0 (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem dotS_l1 (i : S512x2048.Idx) (q : dot_S512x64_S64x2048_S512x2048_1_0_0_1_n_n.contr.Idx) : (dot_S512x64_S64x2048_S512x2048_1_0_0_1_n_n.lhsIdx i q 1).val = (q ⟨0, by decide⟩).val :=
  dot_S512x64_S64x2048_S512x2048_1_0_0_1_n_n.lhsIdx_val_of_single rfl i q
theorem dotS_r0 (i : S512x2048.Idx) (q : dot_S512x64_S64x2048_S512x2048_1_0_0_1_n_n.contr.Idx) : (dot_S512x64_S64x2048_S512x2048_1_0_0_1_n_n.rhsIdx i q 0).val = (q ⟨0, by decide⟩).val :=
  dot_S512x64_S64x2048_S512x2048_1_0_0_1_n_n.rhsIdx_val_of_single rfl i q
theorem dotS_r1 (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

theorem dotC_l0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem dotC_l1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem dotC_r0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem dotC_r1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- A score: the 64-term product of a query row and a key row. -/
theorem scoreBlk_apply (q : Vec Ideal S1x1x512x64 .bf16) (k : Vec Ideal S1x1x2048x64 .bf16) (i : Fin 512) (j : Fin 2048) :
    scoreBlk q k (ix2 i j) = ∑ t' : Fin 64, q (ix4 0 0 i t') * k (ix4 0 0 j t') := by
  unfold scoreBlk
  simp only [matmul]
  rw [Ideal.matmul_constant_zero_apply, ← Equiv.sum_comp (contrEquiv1 dot_S512x64_S64x2048_S512x2048_1_0_0_1_n_n 64 rfl rfl).symm]
  refine Finset.sum_congr rfl fun t' _ => ?_
  have hk := contrEquiv1_symm_val dot_S512x64_S64x2048_S512x2048_1_0_0_1_n_n 64 rfl rfl t'
  have el : dot_S512x64_S64x2048_S512x2048_1_0_0_1_n_n.lhsIdx (ix2 i j) ((contrEquiv1 dot_S512x64_S64x2048_S512x2048_1_0_0_1_n_n 64 rfl rfl).symm t') = ix2 i t' :=
    funext fun ax => Fin.ext (by
      match ax with
      | ⟨0, _⟩ => exact dotS_l0 _ _
      | ⟨1, _⟩ => exact (dotS_l1 _ _).trans hk)
  have er : dot_S512x64_S64x2048_S512x2048_1_0_0_1_n_n.rhsIdx (ix2 i j) ((contrEquiv1 dot_S512x64_S64x2048_S512x2048_1_0_0_1_n_n 64 rfl rfl).symm t') = ix2 t' j :=
    funext fun ax => Fin.ext (by
      match ax with
      | ⟨0, _⟩ => exact (dotS_r0 _ _).trans hk
      | ⟨1, _⟩ => exact dotS_r1 _ _)
  rw [el, er]
  refine congrArg₂ (· * ·) ?_ ?_
  · exact shapeCast_11ab_ab_apply q _ i t'
  · refine (transpose_ix2_apply _ _ t' j).trans ?_
    exact shapeCast_11ab_ab_apply k _ j t'

/-- An exponential: of the entry less its row's maximum. -/
theorem expBlk_apply (X : FVec Ideal S512x2048 .f32) (i : Fin 512) (j : Fin 2048) :
    expBlk X (ix2 i j)
      = Ideal.exp (X (ix2 i j) - (Finset.univ : Finset (Fin 2048)).fold max negInf (fun j' => X (ix2 i j'))) := by
  unfold expBlk
  show Ideal.exp (X (ix2 i j) - broadcastTo S512x2048 (shapeCast S512x1
    (multiReduction (F := Ideal) .maximumf [1] S512 X 0xFF800000#32 reduces_S512x2048_S512 (.inl rfl) rfl)
    shapeCasts_S512_S512x1) broadcasts_S512x1_S512x2048 (ix2 i j)) = _
  rw [col_apply, rowmax_apply]

/-- A quotient: the entry over its row's sum. -/
theorem probBlk_apply (E : FVec Ideal S512x2048 .f32) (i : Fin 512) (j : Fin 2048) :
    probBlk E (ix2 i j) = Ideal.div (E (ix2 i j)) (∑ j' : Fin 2048, E (ix2 i j')) := by
  unfold probBlk
  show Ideal.div (E (ix2 i j)) (broadcastTo S512x2048 (shapeCast S512x1
    (multiReduction (F := Ideal) .add [1] S512 E 0x00000000#32 reduces_S512x2048_S512 (.inl rfl) rfl)
    shapeCasts_S512_S512x1) broadcasts_S512x1_S512x2048 (ix2 i j)) = _
  rw [col_apply, rowsum_apply]

/-- The stored attention output: the softmax-weighted average of v's rows under the tile's scores. -/
theorem pay_attn (q : Vec Ideal S1x1x512x64 .bf16) (k v : Vec Ideal S1x1x2048x64 .bf16) (i : Fin 512) (t : Fin 64) :
    k1_pay1 q k v (ix4 0 0 i t)
      = softCtx (fun i j => ∑ t' : Fin 64, q (ix4 0 0 i t') * k (ix4 0 0 j t')) (fun j t => v (ix4 0 0 j t)) i t := by
  rw [k1_pay1_eq]
  refine (shapeCast_ab_11ab_apply _ _ 0 0 i t).trans ?_
  show matmul dot_S512x2048_S2048x64_S512x64_1_0_0_1_n_n none
        (truncf .bf16 (probBlk (expBlk (scoreBlk q k))) bitsLt_bf16_f32 : FVec Ideal S512x2048 .bf16)
        (shapeCast S2048x64 v shapeCasts_S1x1x2048x64_S2048x64 : FVec Ideal S2048x64 .bf16)
        (constant (F := Ideal) S512x64 .f32 0x00000000#32) (ix2 i t) = _
  simp only [matmul]
  rw [Ideal.matmul_constant_zero_apply, ← Equiv.sum_comp (contrEquiv1 dot_S512x2048_S2048x64_S512x64_1_0_0_1_n_n 2048 rfl rfl).symm]
  unfold softCtx
  refine Finset.sum_congr rfl fun j _ => ?_
  have hk := contrEquiv1_symm_val dot_S512x2048_S2048x64_S512x64_1_0_0_1_n_n 2048 rfl rfl j
  have el : dot_S512x2048_S2048x64_S512x64_1_0_0_1_n_n.lhsIdx (ix2 i t) ((contrEquiv1 dot_S512x2048_S2048x64_S512x64_1_0_0_1_n_n 2048 rfl rfl).symm j) = ix2 i j :=
    funext fun ax => Fin.ext (by
      match ax with
      | ⟨0, _⟩ => exact dotC_l0 _ _
      | ⟨1, _⟩ => exact (dotC_l1 _ _).trans hk)
  have er : dot_S512x2048_S2048x64_S512x64_1_0_0_1_n_n.rhsIdx (ix2 i t) ((contrEquiv1 dot_S512x2048_S2048x64_S512x64_1_0_0_1_n_n 2048 rfl rfl).symm j) = ix2 j t :=
    funext fun ax => Fin.ext (by
      match ax with
      | ⟨0, _⟩ => exact (dotC_r0 _ _).trans hk
      | ⟨1, _⟩ => exact dotC_r1 _ _)
  rw [el, er]
  refine congrArg₂ (· * ·) ?_ ?_
  · show probBlk (expBlk (scoreBlk q k)) (ix2 i j) = _
    have hE : ∀ j' : Fin 2048, expBlk (scoreBlk q k) (ix2 i j')
        = expo (fun i j => ∑ t' : Fin 64, q (ix4 0 0 i t') * k (ix4 0 0 j t')) i j' := fun j' => by
      rw [expBlk_apply]
      unfold expo rowMax
      simp only [scoreBlk_apply]
    rw [probBlk_apply]
    unfold rowSum
    simp only [hE]
  · exact shapeCast_11ab_ab_apply v _ j t

end Cert.KernelIdeal.Pay

end
-- ==== Proof.KI.Val1.lean ====
import proofs.«167322_j54778012893327_2_alg».proof.Proof.KI.Reg1
import proofs.«167322_j54778012893327_2_alg».proof.Proof.Spec
import proofs.«167322_j54778012893327_2_alg».proof.Proof.KI.Pay1
import Idealize.ShloMosaic.Lib.Pipeline.Value
import Idealize.ShloMosaic.Lib.ValueIdx
import Idealize.ShloMosaic.Lib.Tactic

/-! The value of region 1 (the per-head softmax attention) at the ideal operations: the array the region leaves, laid
    out [batch, head, row, column], is index by index the softmax-weighted average of the head's values under the head's
    query-key products, read off the arrays as the region finds them. From the blocks to the array: one row of the
    average depends on that row of the scores only, the index maps over the grid, each input block as a part of its
    array, what a point writes back as a block of one whole-array function, the blocks' cover of the array. -/

set_option maxRecDepth 16384

noncomputable section

namespace Cert.KernelIdeal.HandValue

open Cert.KernelIdeal Cert.KernelIdeal.Gen Cert.KernelIdeal.Hand Cert.Attn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1_4 : (![0, 0, 0, 0] : Fin 4 → Nat) = fun _ => 0 := funext fun a => by fin_cases a <;> rfl

/-! ## One row of the softmax-weighted average depends on that row of the scores only -/

/-- Two score matrices, of any numbers of rows, that agree on a row give that row the same weighted average. -/
theorem softCtx_row {n n' : Nat} (s : Fin n → Fin 2048 → EReal) (s' : Fin n' → Fin 2048 → EReal)
    (v v' : Fin 2048 → Fin 64 → EReal) (i : Fin n) (i' : Fin n') (t : Fin 64)
    (hs : ∀ j, s i j = s' i' j) (hv : ∀ j, v j t = v' j t) : softCtx s v i t = softCtx s' v' i' t := by
  have hm : rowMax s i = rowMax s' i' := by
    unfold rowMax
    exact congrArg (fun f => (Finset.univ : Finset (Fin 2048)).fold max negInf f) (funext hs)
  have he : ∀ j, expo s i j = expo s' i' j := fun j => by unfold expo; rw [hs j, hm]
  have hsum : rowSum s i = rowSum s' i' := by unfold rowSum; exact Finset.sum_congr rfl fun j _ => he j
  unfold softCtx
  exact Finset.sum_congr rfl fun j _ => by rw [he j, hsum, hv j]

/-! ## The block index maps over the grid -/

/-- The index maps of region 1, decided over its 128 points: the queries' block moves with the output's; the keys' and
    the values' blocks are the whole head of the output's batch and head. -/
theorem idx_facts1 : ∀ t : Fin cfg1.N,
    win1_0.index t = win1_3.index t
    ∧ win1_1.index t (0 : Fin 4) = win1_3.index t (0 : Fin 4) ∧ win1_1.index t (1 : Fin 4) = win1_3.index t (1 : Fin 4)
    ∧ win1_1.index t (2 : Fin 4) = 0 ∧ win1_1.index t (3 : Fin 4) = 0
    ∧ win1_2.index t = win1_1.index t
    ∧ win1_3.index t (0 : Fin 4) ≤ 1 ∧ win1_3.index t (1 : Fin 4) ≤ 15 ∧ win1_3.index t (2 : Fin 4) ≤ 3
    ∧ win1_3.index t (3 : Fin 4) = 0 :=
  (by decide +kernel : ∀ t : Fin grid1.N, _)

/-- Every (batch, head, query tile) is some point's output block. -/
theorem idx_onto1 : ∀ (q0 : Fin 2) (q1 : Fin 16) (q2 : Fin 4), ∃ t : Fin cfg1.N, win1_3.index t = ![q0.val, q1.val, q2.val, 0] :=
  (by decide +kernel : ∀ (q0 : Fin 2) (q1 : Fin 16) (q2 : Fin 4), ∃ t : Fin grid1.N, win1_3.index t = ![q0.val, q1.val, q2.val, 0])

/-! ## The input blocks as parts of their arrays -/

/-- The queries' block at point `t`: row `r` of the block is row `index 2 * 512 + r` of the point's batch and head. -/
theorem iblk1_0_apply (c : Dev nD) (t : Fin cfg1.N) (x : S1x1x512x64.Idx) (k : S2x16x2048x64.Idx)
    (hk0 : (k 0).val = win1_0.index t 0 * 1 + (x 0).val) (hk1 : (k 1).val = win1_0.index t 1 * 1 + (x 1).val)
    (hk2 : (k 2).val = win1_0.index t 2 * 512 + (x 2).val) (hk3 : (k 3).val = win1_0.index t 3 * 64 + (x 3).val) :
    (iblk1 V c 0 t : Vec Ideal S1x1x512x64 .bf16) x = (V c main_call0_v1_0 : S2x16x2048x64.Idx → EReal) k := by
  unfold iblk1
  rw [View.read_apply]
  show V c main_call0_v1_0 _ = V c main_call0_v1_0 _
  congr 1
  funext a
  apply Fin.ext
  match a with
  | ⟨0, _⟩ => show win1_0.index t 0 * 1 + 1 * (x 0).val = (k 0).val; omega
  | ⟨1, _⟩ => show win1_0.index t 1 * 1 + 1 * (x 1).val = (k 1).val; omega
  | ⟨2, _⟩ => show win1_0.index t 2 * 512 + 1 * (x 2).val = (k 2).val; omega
  | ⟨3, _⟩ => show win1_0.index t 3 * 64 + 1 * (x 3).val = (k 3).val; omega

/-- The keys' block at point `t`: the whole head of the point's batch and head. -/
theorem iblk1_1_apply (c : Dev nD) (t : Fin cfg1.N) (x : S1x1x2048x64.Idx) (k : S2x16x2048x64.Idx)
    (hk0 : (k 0).val = win1_1.index t 0 * 1 + (x 0).val) (hk1 : (k 1).val = win1_1.index t 1 * 1 + (x 1).val)
    (hk2 : (k 2).val = win1_1.index t 2 * 2048 + (x 2).val) (hk3 : (k 3).val = win1_1.index t 3 * 64 + (x 3).val) :
    (iblk1 V c 1 t : Vec Ideal S1x1x2048x64 .bf16) x = (V c main_call0_v1_1 : S2x16x2048x64.Idx → EReal) k := by
  unfold iblk1
  rw [View.read_apply]
  show V c main_call0_v1_1 _ = V c main_call0_v1_1 _
  congr 1
  funext a
  apply Fin.ext
  match a with
  | ⟨0, _⟩ => show win1_1.index t 0 * 1 + 1 * (x 0).val = (k 0).val; omega
  | ⟨1, _⟩ => show win1_1.index t 1 * 1 + 1 * (x 1).val = (k 1).val; omega
  | ⟨2, _⟩ => show win1_1.index t 2 * 2048 + 1 * (x 2).val = (k 2).val; omega
  | ⟨3, _⟩ => show win1_1.index t 3 * 64 + 1 * (x 3).val = (k 3).val; omega

/-- The values' block at point `t`: the whole head of the point's batch and head. -/
theorem iblk1_2_apply (c : Dev nD) (t : Fin cfg1.N) (x : S1x1x2048x64.Idx) (k : S2x16x2048x64.Idx)
    (hk0 : (k 0).val = win1_2.index t 0 * 1 + (x 0).val) (hk1 : (k 1).val = win1_2.index t 1 * 1 + (x 1).val)
    (hk2 : (k 2).val = win1_2.index t 2 * 2048 + (x 2).val) (hk3 : (k 3).val = win1_2.index t 3 * 64 + (x 3).val) :
    (iblk1 V c 2 t : Vec Ideal S1x1x2048x64 .bf16) x = (V c main_call0_v1_2 : S2x16x2048x64.Idx → EReal) k := by
  unfold iblk1
  rw [View.read_apply]
  show V c main_call0_v1_2 _ = V c main_call0_v1_2 _
  congr 1
  funext a
  apply Fin.ext
  match a with
  | ⟨0, _⟩ => show win1_2.index t 0 * 1 + 1 * (x 0).val = (k 0).val; omega
  | ⟨1, _⟩ => show win1_2.index t 1 * 1 + 1 * (x 1).val = (k 1).val; omega
  | ⟨2, _⟩ => show win1_2.index t 2 * 2048 + 1 * (x 2).val = (k 2).val; omega
  | ⟨3, _⟩ => show win1_2.index t 3 * 64 + 1 * (x 3).val = (k 3).val; omega

/-! ## The array the region leaves -/

/-- The region's three input arrays as it finds them, at their literal shape: queries, keys, values. -/
abbrev inQ1 (c : Dev nD) : S2x16x2048x64.Idx → EReal := V c main_call0_v1_0
abbrev inK1 (c : Dev nD) : S2x16x2048x64.Idx → EReal := V c main_call0_v1_1
abbrev inV1 (c : Dev nD) : S2x16x2048x64.Idx → EReal := V c main_call0_v1_2

/-- The attention output of batch `b`, head `h`, query row `i`, column `t`: the softmax-weighted average of the head's
    values under the head's unscaled query-key products. -/
def ctxAt (c : Dev nD) (b : Fin 2) (h : Fin 16) (i : Fin 2048) (t : Fin 64) : EReal :=
  softCtx (fun i j : Fin 2048 => ∑ t' : Fin 64, inQ1 V c (ix4 b h i t') * inK1 V c (ix4 b h j t')) (fun j t => inV1 V c (ix4 b h j t)) i t

/-- The whole output array. -/
def G1 (c : Dev nD) : S2x16x2048x64.Idx → EReal := fun i => ctxAt V c (i 0) (i 1) (i 2) (i 3)

/-- An element of the output's block at point `t` sits in the array at the point's batch and head, the point's query
    tile times 512 plus its row, the same column. -/
theorem emb1_3 (t : Fin cfg1.N) (z z' : Fin 1) (r : Fin 512) (t' : Fin 64) (B : Fin 2) (H : Fin 16) (S : Fin 2048)
    (hB : B.val = win1_3.index t 0) (hH : H.val = win1_3.index t 1) (hS : S.val = win1_3.index t 2 * 512 + r.val) :
    ((cfg1.win 3).blk t).view.emb (ix4 z z' r t' : S1x1x512x64.Idx) = (ix4 B H S t' : S2x16x2048x64.Idx) := by
  obtain ⟨-, -, -, -, -, -, -, -, -, e3⟩ := idx_facts1 t
  funext a; apply Fin.ext
  match a with
  | ⟨0, _⟩ => show win1_3.index t 0 * 1 + 1 * z.val = B.val; have := z.isLt; omega
  | ⟨1, _⟩ => show win1_3.index t 1 * 1 + 1 * z'.val = H.val; have := z'.isLt; omega
  | ⟨2, _⟩ => show win1_3.index t 2 * 512 + 1 * r.val = S.val; omega
  | ⟨3, _⟩ => show win1_3.index t 3 * 64 + 1 * t'.val = t'.val; omega

/-- What point `t` writes back to the output's array is block `t` of `G1`, given the payload's value at an index. -/
theorem flushed1_3_eq
    (hpay : ∀ (q : Vec Ideal S1x1x512x64 .bf16) (k v : Vec Ideal S1x1x2048x64 .bf16) (i : Fin 512) (t : Fin 64),
      k1_pay1 q k v (ix4 0 0 i t)
        = softCtx (fun i j => ∑ t' : Fin 64, q (ix4 0 0 i t') * k (ix4 0 0 j t')) (fun j t => v (ix4 0 0 j t)) i t)
    (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz1_4]
  simp only [View.ld_unit_zero (S := S1x1x512x64) hz1_4, View.ld_unit_zero (S := S1x1x2048x64) hz1_4]
  funext j
  obtain ⟨z, z', r, t', rfl⟩ : ∃ (z z' : Fin 1) (r : Fin 512) (t' : Fin 64), j = (ix4 z z' r t' : S1x1x512x64.Idx) :=
    ⟨j 0, j 1, j 2, j 3, eq_ix4 j⟩
  obtain rfl : z = 0 := Subsingleton.elim _ _
  obtain rfl : z' = 0 := Subsingleton.elim _ _
  obtain ⟨e0, e10, e11, e12, e13, e2, b0, b1, b2, b3⟩ := idx_facts1 t
  show k1_pay1 (iblk1 V c 0 t) (iblk1 V c 1 t) (iblk1 V c 2 t) (ix4 0 0 r t')
    = G1 V c (((cfg1.win 3).blk t).view.emb (ix4 0 0 r t' : S1x1x512x64.Idx))
  rw [emb1_3 t 0 0 r t' ⟨win1_3.index t 0, by omega⟩ ⟨win1_3.index t 1, by omega⟩ ⟨win1_3.index t 2 * 512 + r.val, by omega⟩ rfl rfl rfl]
  refine (hpay _ _ _ r t').trans ?_
  show _ = ctxAt V c _ _ _ _
  unfold ctxAt
  refine softCtx_row _ _ _ _ r _ t' (fun j => ?_) (fun j => ?_)
  · refine Finset.sum_congr rfl fun u _ => ?_
    rw [iblk1_0_apply V c t (ix4 0 0 r u) (ix4 ⟨win1_3.index t 0, by omega⟩ ⟨win1_3.index t 1, by omega⟩ ⟨win1_3.index t 2 * 512 + r.val, by omega⟩ u)
        (by rw [e0]; show win1_3.index t 0 = win1_3.index t 0 * 1 + 0; omega) (by rw [e0]; show win1_3.index t 1 = win1_3.index t 1 * 1 + 0; omega)
        (by rw [e0]) (by rw [e0]; show u.val = win1_3.index t 3 * 64 + u.val; omega),
      iblk1_1_apply V c t (ix4 0 0 j u) (ix4 ⟨win1_3.index t 0, by omega⟩ ⟨win1_3.index t 1, by omega⟩ j u)
        (by show win1_3.index t 0 = win1_1.index t 0 * 1 + 0; omega) (by show win1_3.index t 1 = win1_1.index t 1 * 1 + 0; omega)
        (by show j.val = win1_1.index t 2 * 2048 + j.val; omega) (by show u.val = win1_1.index t 3 * 64 + u.val; omega)]
  · rw [iblk1_2_apply V c t (ix4 0 0 j t') (ix4 ⟨win1_3.index t 0, by omega⟩ ⟨win1_3.index t 1, by omega⟩ j t')
        (by rw [e2]; show win1_3.index t 0 = win1_1.index t 0 * 1 + 0; omega) (by rw [e2]; show win1_3.index t 1 = win1_1.index t 1 * 1 + 0; omega)
        (by rw [e2]; show j.val = win1_1.index t 2 * 2048 + j.val; omega) (by rw [e2]; show t'.val = win1_1.index t 3 * 64 + t'.val; omega)]

/-- An index of the array is in point `t`'s block iff each coordinate is in the block's range on its axis. -/
theorem mem_blk1_3 (t : Fin cfg1.N) (i : S2x16x2048x64.Idx) :
    i ∈ ((cfg1.win 3).blk t).view.set ↔ ∀ a : Fin 4, win1_3.index t a * S1x1x512x64.size a ≤ (i a).val ∧ (i a).val < win1_3.index t a * S1x1x512x64.size a + S1x1x512x64.size a := by
  show i ∈ ((View.whole main_call0_v2).slice (win1_3.rect t)).set ↔ _
  rw [View.set_slice_whole, Rect.mem_set_unit]
  exact Iff.rfl

/-- Every index of the array is in some point's block: the point of its batch, its head and its row's tile. -/
theorem cover1_3' (i : S2x16x2048x64.Idx) :
    ∃ t : Fin cfg1.N, (cfg1.win 3).flush t = true ∧ i ∈ ((cfg1.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto1 ⟨(i 0).val, hi0⟩ ⟨(i 1).val, hi1⟩ ⟨(i 2).val / 512, by omega⟩
  have q0 : win1_3.index t (0 : Fin 4) = (i 0).val := congrFun ht 0
  have q1 : win1_3.index t (1 : Fin 4) = (i 1).val := congrFun ht 1
  have q2 : win1_3.index t (2 : Fin 4) = (i 2).val / 512 := congrFun ht 2
  have q3 : win1_3.index t (3 : Fin 4) = 0 := congrFun ht 3
  refine ⟨t, flush1_3 t, ?_⟩
  rw [mem_blk1_3]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 512 ≤ (i 2).val ∧ (i 2).val < win1_3.index t (2 : Fin 4) * 512 + 512; omega
  | ⟨3, _⟩ => show win1_3.index t (3 : Fin 4) * 64 ≤ (i 3).val ∧ (i 3).val < win1_3.index t (3 : Fin 4) * 64 + 64; omega

/-- The array after the region, given the payload's value at an index: `G1`. -/
theorem final1_3_of
    (hpay : ∀ (q : Vec Ideal S1x1x512x64 .bf16) (k v : Vec Ideal S1x1x2048x64 .bf16) (i : Fin 512) (t : Fin 64),
      k1_pay1 q k v (ix4 0 0 i t)
        = softCtx (fun i j => ∑ t' : Fin 64, q (ix4 0 0 i t') * k (ix4 0 0 j t')) (fun j t => v (ix4 0 0 j t)) i t)
    (c : Dev nD) : (dat1 V c).arrAt 3 cfg1.N = G1 V c :=
  (dat1 V c).arrAt_eq_of_cover 3 (G1 V c) (fun t _ => flushed1_3_eq V hpay c t) cover1_3'

/-! ## The array, index by index -/

/-- The attention array the region leaves: per batch and head, each query row's softmax-weighted average of the head's
    values under the head's query-key products, read off the arrays as the region finds them. -/
theorem final1_3 (c : Dev nD) (b : Fin 2) (h : Fin 16) (i : Fin 2048) (t : Fin 64) :
    (dat1 V c).arrAt 3 cfg1.N (ix4 b h i t)
      = softCtx (fun i j : Fin 2048 => ∑ t' : Fin 64, inQ1 V c (ix4 b h i t') * inK1 V c (ix4 b h j t'))
          (fun j t => inV1 V c (ix4 b h j t)) i t :=
  congrFun (final1_3_of V Cert.KernelIdeal.Pay.pay_attn c) (ix4 b h i t)

end Cert.KernelIdeal.HandValue

end
-- ==== Proof.KI.Entry.lean ====
/-
  The kernel program's host stretches and the contents at its segment boundaries, read index by index at the ideal
  values: the first stretch transposes the projection weight (element (d, e) of the transposed array is w[e, d]); the
  second transposes the output weight and re-views it as [16, 64, 1024] (element (h, t, e) is wo[e, h*64 + t]); the
  arguments the regions read are as launched, and each region's result arrays are what its write-backs leave.
-/
import proofs.«167322_j54778012893327_2_alg».proof.Proof.KI.Run
import proofs.«167322_j54778012893327_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.HandValue

open Idealize.ShloMosaic Idealize.ShloMosaic.TcCoe Idealize.SL.Sem
open Cert.KernelIdeal Cert.KernelIdeal.Gen Cert.KernelIdeal.Hand Cert.Attn Idealize.ShloMosaic.ValueIdx

variable (m : (ℓ : Loc nD τ sig) → Buf (Elt Ideal) ℓ) (ρ : Dev nD → PrngReg) (c : Dev nD)

/-! ## Walking a buffer back to the launch memory -/

/-- The first host stretch writes only the transposed projection weight. -/
theorem W1_main_arg0 : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg1 : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg2 : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg3 : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_main_arg4 : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- Neither of the first two regions writes the output weight or the output bias. -/
theorem W4_main_arg3 : W4 m ρ c (Proc.devRef .tc main_arg3) = m ((c : Thread nD τ).loc main_arg3) :=
  ((W4_of_ne m ρ c main_arg3 (by decide)).trans (W2_of_ne m ρ c main_arg3 (by decide))).trans (W1_main_arg3 m ρ c)
theorem W4_main_arg4 : W4 m ρ c (Proc.devRef .tc main_arg4) = m ((c : Thread nD τ).loc main_arg4) :=
  ((W4_of_ne m ρ c main_arg4 (by decide)).trans (W2_of_ne m ρ c main_arg4 (by decide))).trans (W1_main_arg4 m ρ c)

/-! ## The first stretch -/

/-- E1a: the input is as launched when the projection region starts. -/
theorem E1a : V1 m ρ c main_arg0 = m ((c : Thread nD τ).loc main_arg0) := W1_main_arg0 m ρ c
/-- E1b: so is the projection bias. -/
theorem E1b : V1 m ρ c main_arg2 = m ((c : Thread nD τ).loc main_arg2) := W1_main_arg2 m ρ c

/-- The transposed projection weight as the host operation's term. -/
theorem V1_call0_v0 : (V1 m ρ c main_call0_v0 : S1024x3072.Idx → EReal)
    = transpose S1024x3072 [1, 0] (m ((c : Thread nD τ).loc main_arg1)) transposes_S3072x1024_S1024x3072_1_0 := by
  show StableHlo.after hostOps0 (W0 m ρ c) (Proc.devRef .tc main_call0_v0) = _
  open StableHlo in after_results
  rfl

/-- E2: element (d, e) of the transposed projection weight is w[e, d]. -/
theorem E2 (d : Fin 1024) (e : Fin 3072) :
    V1 m ρ c main_call0_v0 (ix2 d e) = m ((c : Thread nD τ).loc main_arg1) (ix2 e d) := by
  refine (congrFun (V1_call0_v0 m ρ c) (ix2 d e)).trans ?_
  exact transpose_apply [1, 0] _ transposes_S3072x1024_S1024x3072_1_0 (ix2 d e) (ix2 e d)
    (fun b => match b with | ⟨0, _⟩ => rfl | ⟨1, _⟩ => rfl)

/-! ## The regions' result arrays -/

/-- E3: the projection region leaves its three result arrays at what its write-backs produce. -/
theorem E3_0 : V2 m ρ c main_call0_v1_0 = (dat0 (V1 m ρ) c).arrAt 3 cfg0.N := W2_arr m ρ c 3
theorem E3_1 : V2 m ρ c main_call0_v1_1 = (dat0 (V1 m ρ) c).arrAt 4 cfg0.N := W2_arr m ρ c 4
theorem E3_2 : V2 m ρ c main_call0_v1_2 = (dat0 (V1 m ρ) c).arrAt 5 cfg0.N := W2_arr m ρ c 5

/-- E4: the second stretch does not write the attention region's result array. -/
theorem E4 : V5 m ρ c main_call0_v2 = (dat1 (V2 m ρ) c).arrAt 3 cfg1.N :=
  (StableHlo.after_of_forall_not_mem (b := Proc.devRef .tc main_call0_v2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arr m ρ c 3)

/-! ## The second stretch -/

/-- The re-viewed transposed output weight as the host operations' term. -/
theorem V5_call0_v4 : (V5 m ρ c main_call0_v4 : S16x64x1024.Idx → EReal)
    = shapeCast S16x64x1024 (transpose S1024x1024 [1, 0] (W4 m ρ c (Proc.devRef .tc main_arg3)) transposes_S1024x1024_S1024x1024_1_0)
        shapeCasts_S1024x1024_S16x64x1024 := by
  show StableHlo.after hostOps2 (W4 m ρ c) (Proc.devRef .tc main_call0_v4) = _
  open StableHlo in after_results
  rfl

/-- E5: element (h, t, e) of the re-viewed transposed output weight is wo[e, h*64 + t]. -/
theorem E5 (h : Fin 16) (t : Fin 64) (e : Fin 1024) :
    V5 m ρ c main_call0_v4 (ix3 h t e) = m ((c : Thread nD τ).loc main_arg3) (ix2 e (col1 h t)) := by
  have hh := h.isLt; have ht := t.isLt; have he := e.isLt
  refine (congrFun (V5_call0_v4 m ρ c) (ix3 h t e)).trans ?_
  refine (shapeCast_apply _ shapeCasts_S1024x1024_S16x64x1024 (ix3 h t e) (ix2 (col1 h t) e) ?_).trans ?_
  · rw [Shape.rowMajor_val_two, Shape.rowMajor_val_three]
    show (h.val * 64 + t.val) * 1024 + e.val = (h.val * 64 + t.val) * 1024 + e.val
    rfl
  refine (transpose_apply [1, 0] _ transposes_S1024x1024_S1024x1024_1_0 (ix2 (col1 h t) e) (ix2 e (col1 h t))
    (fun b => match b with | ⟨0, _⟩ => rfl | ⟨1, _⟩ => rfl)).trans ?_
  exact congrFun (W4_main_arg3 m ρ c) (ix2 e (col1 h t))

/-- E6: the output bias is as launched when the output-projection region starts. -/
theorem E6 : V5 m ρ c main_arg4 = m ((c : Thread nD τ).loc main_arg4) :=
  (StableHlo.after_of_forall_not_mem (b := Proc.devRef .tc main_arg4) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg4 m ρ c)

end Cert.KernelIdeal.HandValue

end
-- ==== Proof.KI.Chain.lean ====
import proofs.«167322_j54778012893327_2_alg».proof.Proof.KI.Val0
import proofs.«167322_j54778012893327_2_alg».proof.Proof.KI.Val1
import proofs.«167322_j54778012893327_2_alg».proof.Proof.KI.Entry
import proofs.«167322_j54778012893327_2_alg».proof.Proof.Spec

/-! Regions 0 and 1 chained to the launch arrays: the attention array the second region leaves is, index by index, the
    softmax-weighted average of the specification's value projection under the products of its query projection scaled
    by 1/8 with its key projection — the three thirds of the fused projection of the launched input, weight and bias.
    The first region's arrays are the projection of the arrays it finds, which are the launched ones (the weight
    transposed by the first host stretch); the second region finds the first region's arrays. -/

set_option maxRecDepth 16384

noncomputable section

namespace Cert.KernelIdeal.HandValue

open Cert.KernelIdeal Cert.KernelIdeal.Gen Cert.KernelIdeal.Hand Cert.Attn
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The launch arrays, curried as the specification takes them -/

/-- The input x[b, s, d]. -/
abbrev xC : Fin 2 → Fin 2048 → Fin 1024 → EReal :=
  fun a b d => (m ((c : Thread nD τ).loc main_arg0) : S2x2048x1024.Idx → EReal) (ix3 a b d)
/-- The projection weight w[e, d]. -/
abbrev wC : Fin 3072 → Fin 1024 → EReal :=
  fun e d => (m ((c : Thread nD τ).loc main_arg1) : S3072x1024.Idx → EReal) (ix2 e d)
/-- The projection bias bq[e]. -/
abbrev bC : Fin 3072 → EReal :=
  fun e => (m ((c : Thread nD τ).loc main_arg2) : S3072.Idx → EReal) (ix1 e)

/-! ## The first region's arrays are the specification's projection -/

/-- The projection of the arrays the first region finds is the projection of the launch arrays: the input and the bias
    are as launched, and element (d, e) of the transposed weight is w[e, d]. -/
theorem proj_chain (o : Nat) (ho : o + 1024 ≤ 3072) (b : Fin 2) (h : Fin 16) (s : Fin 2048) (t : Fin 64) :
    projAt (V1 m ρ) c o ho b h s t = proj (xC m c) (wC m c) (bC m c) b s (col3 o ho h t) := by
  unfold projAt proj
  exact congrArg₂ (· + ·)
    (Finset.sum_congr rfl fun d _ => congrArg₂ (· * ·) (congrFun (E1a m ρ c) (ix3 b s d)) (E2 m ρ c d (col3 o ho h t)))
    (congrFun (E1b m ρ c) (ix1 (col3 o ho h t)))

/-- The queries the second region finds: the first third of the projection, scaled by 1/8. -/
theorem q_chain (b : Fin 2) (h : Fin 16) (s : Fin 2048) (t : Fin 64) :
    inQ1 (V2 m ρ) c (ix4 b h s t) = proj (xC m c) (wC m c) (bC m c) b s (col3 0 (by omega) h t) * eighth :=
  (congrFun (E3_0 m ρ c) (ix4 b h s t)).trans
    ((final0_3 (V1 m ρ) c b h s t).trans (congrArg (· * eighth) (proj_chain m ρ c 0 (by omega) b h s t)))

/-- The keys it finds: the second third. -/
theorem k_chain (b : Fin 2) (h : Fin 16) (s : Fin 2048) (t : Fin 64) :
    inK1 (V2 m ρ) c (ix4 b h s t) = proj (xC m c) (wC m c) (bC m c) b s (col3 1024 (by omega) h t) :=
  (congrFun (E3_1 m ρ c) (ix4 b h s t)).trans
    ((final0_4 (V1 m ρ) c b h s t).trans (proj_chain m ρ c 1024 (by omega) b h s t))

/-- The values it finds: the last third. -/
theorem v_chain (b : Fin 2) (h : Fin 16) (s : Fin 2048) (t : Fin 64) :
    inV1 (V2 m ρ) c (ix4 b h s t) = proj (xC m c) (wC m c) (bC m c) b s (col3 2048 (by omega) h t) :=
  (congrFun (E3_2 m ρ c) (ix4 b h s t)).trans
    ((final0_5 (V1 m ρ) c b h s t).trans (proj_chain m ρ c 2048 (by omega) b h s t))

/-! ## The attention array from the launch arrays -/

/-- The attention array when the last region starts, index by index, from the launch arrays. -/
theorem ctx_chain (b : Fin 2) (h : Fin 16) (s : Fin 2048) (tt : Fin 64) :
    (V5 m ρ c main_call0_v2 : S2x16x2048x64.Idx → EReal) (ix4 b h s tt)
      = softCtx (fun i j : Fin 2048 => ∑ t' : Fin 64,
            (proj (xC m c) (wC m c) (bC m c) b i (col3 0 (by omega) h t') * eighth)
              * proj (xC m c) (wC m c) (bC m c) b j (col3 1024 (by omega) h t'))
          (fun j t => proj (xC m c) (wC m c) (bC m c) b j (col3 2048 (by omega) h t)) s tt := by
  refine (congrFun (E4 m ρ c) (ix4 b h s tt)).trans ((final1_3 (V2 m ρ) c b h s tt).trans ?_)
  refine softCtx_row _ _ _ _ s s tt (fun j => ?_) (fun j => ?_)
  · exact Finset.sum_congr rfl fun t' _ => congrArg₂ (· * ·) (q_chain m ρ c b h s t') (k_chain m ρ c b h j t')
  · exact v_chain m ρ c b h j tt

end Cert.KernelIdeal.HandValue

end
-- ==== Proof.KI.Value.lean ====
/-
  The kernel program's result as a function of the launch arrays. The output-projection region leaves, per row and
  model column, the sum over heads and head columns of the attention output times the re-viewed output weight, plus the
  bias; the attention output is the softmax-weighted average of the value rows under the scores of the pre-scaled
  queries against the keys; queries, keys and values are the thirds of the fused projection. With the scale moved out
  of the score sum and the output weight read through its transpose and re-view, that is the specification.
-/
import proofs.«167322_j54778012893327_2_alg».proof.Proof.KI.Val2
import proofs.«167322_j54778012893327_2_alg».proof.Proof.KI.Chain
import proofs.«167322_j54778012893327_2_alg».proof.Proof.Compose

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand Cert.KernelIdeal.Pay Cert.Attn Idealize.ShloMosaic.ValueIdx

local notation "𝕄" => MT nD τ sig Unit (Elt Ideal) ℕ (UR sig nD τ) ℕ

variable (m : (ℓ : Loc nD τ sig) → Buf (Elt Ideal) ℓ) (ρ : Dev nD → PrngReg) (c : Dev nD)

theorem kernel_value :
    (dat2 (V5 m ρ) c).arrAt 3 cfg2.N
      = Cert.Attn.arr (m ((c : Thread nD τ).loc main_arg0)) (m ((c : Thread nD τ).loc main_arg1)) (m ((c : Thread nD τ).loc main_arg2))
          (m ((c : Thread nD τ).loc main_arg3)) (m ((c : Thread nD τ).loc main_arg4)) := by
  rw [final2_3 (V5 m ρ) c]
  funext i
  obtain ⟨b, s, e, rfl⟩ : ∃ (b : Fin 2) (s : Fin 2048) (e : Fin 1024), i = (ix3 b s e : S2x2048x1024.Idx) :=
    ⟨i 0, i 1, i 2, eq_ix3 i⟩
  unfold G2 Cert.Attn.arr
  show (∑ h : Fin 16, ∑ tt : Fin 64, inY2 (V5 m ρ) c (ix4 b h s tt) * inW2 (V5 m ρ) c (ix3 h tt e)) + inB2 (V5 m ρ) c (ix1 e)
    = out (xC m c) (wC m c) (bC m c)
        (fun e d => (m ((c : Thread nD τ).loc main_arg3) : S1024x1024.Idx → EReal) (ix2 e d))
        (fun e => (m ((c : Thread nD τ).loc main_arg4) : S1024.Idx → EReal) (ix1 e)) b s e
  rw [← kernel_out_eq]
  congr 1
  refine Finset.sum_congr rfl fun h _ => Finset.sum_congr rfl fun tt _ => ?_
  rw [show inY2 (V5 m ρ) c (ix4 b h s tt) = _ from ctx_chain m ρ c b h s tt,
    show inW2 (V5 m ρ) c (ix3 h tt e) = _ from E5 m ρ c h tt e]

end Cert.KernelIdeal.HandValue

end
-- ==== Proof.RefValue1.lean ====
/-
  The reference's fused projection and its three per-head reads, index by index:
  operation 3 (the dot over d plus the broadcast bias) at (b, s, e) is proj b s e, and after the slice at offset o,
  the reshape [2,2048,1024] -> [2,2048,16,64] and the transpose [0,2,1,3], the element (b, h, s, t) is the
  projection's column o + h*64 + t.
-/
import proofs.«167322_j54778012893327_2_alg».proof.Proof.Gen.ReferenceIdeal.Read
import proofs.«167322_j54778012893327_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-- The argument arrays read by coordinates, as the specification takes them. -/
abbrev xf (X : FVec Ideal S2x2048x1024 .f32) : Fin 2 → Fin 2048 → Fin 1024 → EReal := fun a b c => X (ix3 a b c)
abbrev wf (W : FVec Ideal S3072x1024 .f32) : Fin 3072 → Fin 1024 → EReal := fun e d => W (ix2 e d)
abbrev bf (B : FVec Ideal S3072 .f32) : Fin 3072 → EReal := fun e => B (ix1 e)

section
variable (X : FVec Ideal S2x2048x1024 .f32) (W : FVec Ideal S3072x1024 .f32) (B : FVec Ideal S3072 .f32)

theorem lidx0 (b : Fin 2) (s : Fin 2048) (e : Fin 3072) (k : Fin 1024) :
    lidx_main_v0 (ix3 b s e) k = ix3 b s k := by
  funext a; match a with | ⟨0, _⟩ => rfl | ⟨1, _⟩ => rfl | ⟨2, _⟩ => rfl
theorem ridx0 (b : Fin 2) (s : Fin 2048) (e : Fin 3072) (k : Fin 1024) :
    ridx_main_v0 (ix3 b s e) k = ix2 e k := by
  funext a; match a with | ⟨0, _⟩ => rfl | ⟨1, _⟩ => rfl
theorem bidx (b : Fin 2) (s : Fin 2048) (e : Fin 3072) :
    idx_main_v1 (idx_main_v2 (ix3 b s e)) = ix1 e := by
  funext a; match a with | ⟨0, _⟩ => rfl

/-- Operation 3 at (b, s, e): the sum over d of x[b,s,d] * w[e,d], plus the bias at e. -/
theorem v3_at (b : Fin 2) (s : Fin 2048) (e : Fin 3072) :
    val_main_v3 (F := Ideal) X W B (ix3 b s e) = Cert.Attn.proj (xf X) (wf W) (bf B) b s e := by
  refine (val_main_v3_apply (F := Ideal) X W B _).trans ?_
  rw [val_main_v0_apply, val_main_v2_apply, val_main_v1_apply, bidx]
  unfold Cert.Attn.proj
  refine congrArg (· + B (ix1 e)) (Finset.sum_congr rfl fun k _ => ?_)
  rw [lidx0, ridx0]

/-- The slice at column offset o, the reshape and the transpose send (b, h, s, t) to (b, s, o + h*64 + t). -/
theorem hidx4 (b : Fin 2) (h : Fin 16) (s : Fin 2048) (t : Fin 64) :
    idx_main_v4 (idx_main_v7 (idx_main_v8 (ix4 b h s t))) = ix3 b s (Cert.Attn.col3 0 (by omega) h t) := by
  have hb := b.isLt; have hh := h.isLt; have hs := s.isLt; have ht := t.isLt
  funext a
  match a with
  | ⟨0, _⟩ => exact Fin.ext (by show (((b.val * 2048 + s.val) * 16 + h.val) * 64 + t.val) / 2097152 = b.val; omega)
  | ⟨1, _⟩ => exact Fin.ext (by show (((b.val * 2048 + s.val) * 16 + h.val) * 64 + t.val) / 1024 % 2048 = s.val; omega)
  | ⟨2, _⟩ => exact Fin.ext (by show (((b.val * 2048 + s.val) * 16 + h.val) * 64 + t.val) % 1024 = 0 + h.val * 64 + t.val; omega)
theorem hidx5 (b : Fin 2) (h : Fin 16) (s : Fin 2048) (t : Fin 64) :
    idx_main_v5 (idx_main_v9 (idx_main_v10 (ix4 b h s t))) = ix3 b s (Cert.Attn.col3 1024 (by omega) h t) := by
  have hb := b.isLt; have hh := h.isLt; have hs := s.isLt; have ht := t.isLt
  funext a
  match a with
  | ⟨0, _⟩ => exact Fin.ext (by show (((b.val * 2048 + s.val) * 16 + h.val) * 64 + t.val) / 2097152 = b.val; omega)
  | ⟨1, _⟩ => exact Fin.ext (by show (((b.val * 2048 + s.val) * 16 + h.val) * 64 + t.val) / 1024 % 2048 = s.val; omega)
  | ⟨2, _⟩ => exact Fin.ext (by show 1024 + (((b.val * 2048 + s.val) * 16 + h.val) * 64 + t.val) % 1024 = 1024 + h.val * 64 + t.val; omega)
theorem hidx6 (b : Fin 2) (h : Fin 16) (s : Fin 2048) (t : Fin 64) :
    idx_main_v6 (idx_main_v11 (idx_main_v12 (ix4 b h s t))) = ix3 b s (Cert.Attn.col3 2048 (by omega) h t) := by
  have hb := b.isLt; have hh := h.isLt; have hs := s.isLt; have ht := t.isLt
  funext a
  match a with
  | ⟨0, _⟩ => exact Fin.ext (by show (((b.val * 2048 + s.val) * 16 + h.val) * 64 + t.val) / 2097152 = b.val; omega)
  | ⟨1, _⟩ => exact Fin.ext (by show (((b.val * 2048 + s.val) * 16 + h.val) * 64 + t.val) / 1024 % 2048 = s.val; omega)
  | ⟨2, _⟩ => exact Fin.ext (by show 2048 + (((b.val * 2048 + s.val) * 16 + h.val) * 64 + t.val) % 1024 = 2048 + h.val * 64 + t.val; omega)

/-- Operation 8 (the query heads) at (b, h, s, t). -/
theorem v8_at (b : Fin 2) (h : Fin 16) (s : Fin 2048) (t : Fin 64) :
    val_main_v8 (F := Ideal) X W B (ix4 b h s t) = Cert.Attn.qh (xf X) (wf W) (bf B) b h s t := by
  rw [val_main_v8_apply, val_main_v7_apply, val_main_v4_apply, hidx4]
  exact v3_at X W B b s _
/-- Operation 10 (the key heads) at (b, h, s, t). -/
theorem v10_at (b : Fin 2) (h : Fin 16) (s : Fin 2048) (t : Fin 64) :
    val_main_v10 (F := Ideal) X W B (ix4 b h s t) = Cert.Attn.kh (xf X) (wf W) (bf B) b h s t := by
  rw [val_main_v10_apply, val_main_v9_apply, val_main_v5_apply, hidx5]
  exact v3_at X W B b s _
/-- Operation 12 (the value heads) at (b, h, s, t). -/
theorem v12_at (b : Fin 2) (h : Fin 16) (s : Fin 2048) (t : Fin 64) :
    val_main_v12 (F := Ideal) X W B (ix4 b h s t) = Cert.Attn.vh (xf X) (wf W) (bf B) b h s t := by
  rw [val_main_v12_apply, val_main_v11_apply, val_main_v6_apply, hidx6]
  exact v3_at X W B b s _

end

end Cert.ReferenceIdeal.RefValue

end
-- ==== Proof.RefValue2.lean ====
/-
  The reference's attention core, index by index, per batch b and head h:
  operation 15 is the scaled score (the sum over t of q * k, times 1/8 after the sum); operation 18 is the row maximum
  (the maximum of minus infinity and the fold of max from minus infinity is that fold); operation 22 is
  exp (score - row maximum); operation 23 is the row sum (zero plus the sum); operation 26 is the quotient
  and operation 27 the weighted sum of the value rows.
-/
import proofs.«167322_j54778012893327_2_alg».proof.Proof.RefValue1
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open scoped BigOperators

section
variable (X : FVec Ideal S2x2048x1024 .f32) (W : FVec Ideal S3072x1024 .f32) (B : FVec Ideal S3072 .f32)

/-- The score matrix of batch b, head h. -/
abbrev sc (b : Fin 2) (h : Fin 16) : Fin 2048 → Fin 2048 → EReal := Cert.Attn.score (xf X) (wf W) (bf B) b h

theorem lidx13 (b : Fin 2) (h : Fin 16) (i j : Fin 2048) (k : Fin 64) :
    lidx_main_v13 (ix4 b h i j) k = ix4 b h i k := by
  funext a; match a with | ⟨0, _⟩ => rfl | ⟨1, _⟩ => rfl | ⟨2, _⟩ => rfl | ⟨3, _⟩ => rfl
theorem ridx13 (b : Fin 2) (h : Fin 16) (i j : Fin 2048) (k : Fin 64) :
    ridx_main_v13 (ix4 b h i j) k = ix4 b h j k := by
  funext a; match a with | ⟨0, _⟩ => rfl | ⟨1, _⟩ => rfl | ⟨2, _⟩ => rfl | ⟨3, _⟩ => rfl

/-- Operation 15 at (b, h, i, j): the scaled score. -/
theorem v15_at (b : Fin 2) (h : Fin 16) (i j : Fin 2048) :
    val_main_v15 (F := Ideal) X W B (ix4 b h i j) = Cert.Attn.score (xf X) (wf W) (bf B) b h i j := by
  refine (val_main_v15_apply (F := Ideal) X W B _).trans ?_
  rw [val_main_v13_apply, val_main_v14_apply, val_main_cst_apply]
  unfold Cert.Attn.score
  refine congrArg (· * Cert.Attn.eighth) (Finset.sum_congr rfl fun k _ => ?_)
  rw [lidx13, ridx13, v8_at, v10_at]

/-- The reduction over the last axis of the score array, as the library's one-axis form wants it. -/
theorem red3 : S2x16x2048x2048.Reduces [3] S2x16x2048 := by decide
theorem lift3 (hr : S2x16x2048x2048.Reduces [3] S2x16x2048) (b : Fin 2) (h : Fin 16) (i : Fin 2048) (k : Fin 2048) :
    hr.lift (ix3 b h i) k = ix4 b h i k := by
  funext c; apply Fin.ext
  match c with | ⟨0, _⟩ => rfl | ⟨1, _⟩ => rfl | ⟨2, _⟩ => rfl | ⟨3, _⟩ => rfl

/-- A maximum-reduce over the last axis of a [2,16,2048,2048] array, at (b, h, i): the fold of max from the initial
    value over the row (the order of the fold is immaterial: max is commutative and associative). -/
theorem hostMax_row (y : FVec Ideal S2x16x2048x2048 .f32) (init : FVec Ideal S_ .f32)
    (h' : S2x16x2048x2048.ReducesTo [3] S2x16x2048) (hr : S2x16x2048x2048.Reduces [3] S2x16x2048) (hu : 0 < S_.numel)
    (b : Fin 2) (h : Fin 16) (i : Fin 2048) :
    Host.reduce FloatOps.maximumf y init h' hu (ix3 b h i)
      = (Finset.univ : Finset (Fin 2048)).fold max (init (Shape.Idx.first hu)) (fun j => y (ix4 b h i j)) := by
  refine (Host.reduce_eq_fold_single FloatOps.maximumf y init h' hr hu (ix3 b h i)).trans ?_
  have hf : (y ∘ hr.lift (ix3 b h i)) = fun j : Fin 2048 => y (ix4 b h i j) :=
    funext fun k => congrArg y (lift3 hr b h i k)
  exact congrArg (fun f => Finset.fold max (init (Shape.Idx.first hu)) f (Finset.univ : Finset (Fin 2048))) hf

/-- Operation 16 at (b, h, i): the fold of max from minus infinity over the row's scores. -/
theorem v16_at (b : Fin 2) (h : Fin 16) (i : Fin 2048) :
    val_main_v16 (F := Ideal) X W B (ix3 b h i)
      = (Finset.univ : Finset (Fin 2048)).fold max Cert.Attn.negInf (fun j => sc X W B b h i j) := by
  unfold val_main_v16
  generalize hy : val_main_v15 (F := Ideal) X W B = y
  refine (hostMax_row y _ _ red3 _ b h i).trans ?_
  have hf : (fun j : Fin 2048 => y (ix4 b h i j)) = fun j => sc X W B b h i j :=
    funext fun j => by rw [← hy]; exact v15_at X W B b h i j
  rw [hf]
  rfl

/-- Operation 18 at (b, h, i): the row maximum. -/
theorem v18_at (b : Fin 2) (h : Fin 16) (i : Fin 2048) :
    val_main_v18 (F := Ideal) X W B (ix3 b h i) = Cert.Attn.rowMax (sc X W B b h) i := by
  refine (val_main_v18_apply (F := Ideal) X W B _).trans ?_
  rw [val_main_v17_apply, val_main_cst_1_apply, v16_at]
  unfold Cert.Attn.rowMax
  exact max_eq_right ((Finset.le_fold_max _).mpr (Or.inl (le_refl _)))

theorem idx20 (b : Fin 2) (h : Fin 16) (i j : Fin 2048) :
    idx_main_v19 (idx_main_v20 (ix4 b h i j)) = ix3 b h i := by
  funext a; match a with | ⟨0, _⟩ => rfl | ⟨1, _⟩ => rfl | ⟨2, _⟩ => rfl

/-- Operation 22 at (b, h, i, j): exp (score - row maximum). -/
theorem v22_at (b : Fin 2) (h : Fin 16) (i j : Fin 2048) :
    val_main_v22 (F := Ideal) X W B (ix4 b h i j) = Cert.Attn.expo (sc X W B b h) i j := by
  refine (val_main_v22_apply (F := Ideal) X W B _).trans ?_
  rw [val_main_v21_apply, val_main_v20_apply, val_main_v19_apply, idx20, v18_at, v15_at]
  rfl

theorem idx23 (b : Fin 2) (h : Fin 16) (i : Fin 2048) (k : Fin 2048) :
    idx_main_v23 (ix3 b h i) k = ix4 b h i k := by
  funext a; match a with | ⟨0, _⟩ => rfl | ⟨1, _⟩ => rfl | ⟨2, _⟩ => rfl | ⟨3, _⟩ => rfl

/-- Operation 23 at (b, h, i): the row sum (zero plus the sum over the row). -/
theorem v23_at (b : Fin 2) (h : Fin 16) (i : Fin 2048) :
    val_main_v23 (F := Ideal) X W B (ix3 b h i) = Cert.Attn.rowSum (sc X W B b h) i := by
  rw [val_main_v23_apply, val_main_cst_2_apply]
  unfold Cert.Attn.rowSum
  rw [Ideal.ofBits_def, Ideal.ofBits_zero_f32, zero_add]
  refine Finset.sum_congr rfl fun k _ => ?_
  rw [idx23, v22_at]

theorem idx25 (b : Fin 2) (h : Fin 16) (i j : Fin 2048) :
    idx_main_v24 (idx_main_v25 (ix4 b h i j)) = ix3 b h i := by
  funext a; match a with | ⟨0, _⟩ => rfl | ⟨1, _⟩ => rfl | ⟨2, _⟩ => rfl

/-- Operation 26 at (b, h, i, j): the softmax weight. -/
theorem v26_at (b : Fin 2) (h : Fin 16) (i j : Fin 2048) :
    val_main_v26 (F := Ideal) X W B (ix4 b h i j)
      = Ideal.div (Cert.Attn.expo (sc X W B b h) i j) (Cert.Attn.rowSum (sc X W B b h) i) := by
  refine (val_main_v26_apply (F := Ideal) X W B _).trans ?_
  rw [val_main_v25_apply, val_main_v24_apply, idx25, v23_at, v22_at]
  rfl

theorem lidx27 (b : Fin 2) (h : Fin 16) (i : Fin 2048) (t : Fin 64) (k : Fin 2048) :
    lidx_main_v27 (ix4 b h i t) k = ix4 b h i k := by
  funext a; match a with | ⟨0, _⟩ => rfl | ⟨1, _⟩ => rfl | ⟨2, _⟩ => rfl | ⟨3, _⟩ => rfl
theorem ridx27 (b : Fin 2) (h : Fin 16) (i : Fin 2048) (t : Fin 64) (k : Fin 2048) :
    ridx_main_v27 (ix4 b h i t) k = ix4 b h k t := by
  funext a; match a with | ⟨0, _⟩ => rfl | ⟨1, _⟩ => rfl | ⟨2, _⟩ => rfl | ⟨3, _⟩ => rfl

/-- Operation 27 at (b, h, i, t): the attention output of head h. -/
theorem v27_at (b : Fin 2) (h : Fin 16) (i : Fin 2048) (t : Fin 64) :
    val_main_v27 (F := Ideal) X W B (ix4 b h i t) = Cert.Attn.ctx (xf X) (wf W) (bf B) b h i t := by
  rw [val_main_v27_apply]
  unfold Cert.Attn.ctx Cert.Attn.softCtx
  refine Finset.sum_congr rfl fun k _ => ?_
  rw [lidx27, ridx27, v26_at, v12_at]

end

end Cert.ReferenceIdeal.RefValue

end
-- ==== Proof.RefValue3.lean ====
/-
  The reference's output projection, index by index: after the transpose back and the reshape
  [2,2048,16,64] -> [2,2048,1024], column h*64 + t of the model axis holds head h's output at t; the last dot sums over
  the 1024 columns, which is the double sum over the heads h and their columns t; then the bias is added.
-/
import proofs.«167322_j54778012893327_2_alg».proof.Proof.RefValue2

noncomputable section

namespace Cert.ReferenceIdeal.RefValue

open Cert.ReferenceIdeal Cert.ReferenceIdeal.Gen Cert.ReferenceIdeal.Read Idealize.ShloMosaic Idealize.ShloMosaic.ValueIdx
open scoped BigOperators

/-- A model-axis column is a head and a column of it: (h, t) ↦ h*64 + t is a bijection onto the 1024 columns. -/
def colEquiv : Fin 16 × Fin 64 ≃ Fin 1024 where
  toFun p := Cert.Attn.col1 p.1 p.2
  invFun k := (⟨k.val / 64, by have := k.isLt; omega⟩, ⟨k.val % 64, by omega⟩)
  left_inv p := by
    obtain ⟨h, t⟩ := p
    have hh := h.isLt; have ht := t.isLt
    refine Prod.ext (Fin.ext ?_) (Fin.ext ?_)
    · show (h.val * 64 + t.val) / 64 = h.val; omega
    · show (h.val * 64 + t.val) % 64 = t.val; omega
  right_inv k := Fin.ext (by show k.val / 64 * 64 + k.val % 64 = k.val; omega)

/-- So a sum over the 1024 columns is the double sum over heads and their columns. -/
theorem sum_cols {M : Type*} [AddCommMonoid M] (f : Fin 1024 → M) :
    ∑ k : Fin 1024, f k = ∑ h : Fin 16, ∑ t : Fin 64, f (Cert.Attn.col1 h t) := by
  rw [← Equiv.sum_comp colEquiv f, Fintype.sum_prod_type]
  rfl

section
variable (X : FVec Ideal S2x2048x1024 .f32) (W : FVec Ideal S3072x1024 .f32) (B : FVec Ideal S3072 .f32)
  (WO : FVec Ideal S1024x1024 .f32) (BO : FVec Ideal S1024 .f32)

/-- The reshape back and the transpose back send (b, s, h*64 + t) to (b, h, s, t). -/
theorem oidx (b : Fin 2) (s : Fin 2048) (h : Fin 16) (t : Fin 64) :
    idx_main_v28 (idx_main_v29 (ix3 b s (Cert.Attn.col1 h t))) = ix4 b h s t := by
  have hb := b.isLt; have hh := h.isLt; have hs := s.isLt; have ht := t.isLt
  funext a
  match a with
  | ⟨0, _⟩ => exact Fin.ext (by show ((b.val * 2048 + s.val) * 1024 + (h.val * 64 + t.val)) / 2097152 = b.val; omega)
  | ⟨1, _⟩ => exact Fin.ext (by show ((b.val * 2048 + s.val) * 1024 + (h.val * 64 + t.val)) / 64 % 16 = h.val; omega)
  | ⟨2, _⟩ => exact Fin.ext (by show ((b.val * 2048 + s.val) * 1024 + (h.val * 64 + t.val)) / 1024 % 2048 = s.val; omega)
  | ⟨3, _⟩ => exact Fin.ext (by show ((b.val * 2048 + s.val) * 1024 + (h.val * 64 + t.val)) % 64 = t.val; omega)

/-- Operation 29 at (b, s, h*64 + t): head h's output at (s, t). -/
theorem v29_at (b : Fin 2) (s : Fin 2048) (h : Fin 16) (t : Fin 64) :
    val_main_v29 (F := Ideal) X W B (ix3 b s (Cert.Attn.col1 h t)) = Cert.Attn.ctx (xf X) (wf W) (bf B) b h s t := by
  rw [val_main_v29_apply, val_main_v28_apply, oidx]
  exact v27_at X W B b h s t

theorem lidx30 (b : Fin 2) (s : Fin 2048) (e k : Fin 1024) : lidx_main_v30 (ix3 b s e) k = ix3 b s k := by
  funext a; match a with | ⟨0, _⟩ => rfl | ⟨1, _⟩ => rfl | ⟨2, _⟩ => rfl
theorem ridx30 (b : Fin 2) (s : Fin 2048) (e k : Fin 1024) : ridx_main_v30 (ix3 b s e) k = ix2 e k := by
  funext a; match a with | ⟨0, _⟩ => rfl | ⟨1, _⟩ => rfl
theorem obidx (b : Fin 2) (s : Fin 2048) (e : Fin 1024) : idx_main_v31 (idx_main_v32 (ix3 b s e)) = ix1 e := by
  funext a; match a with | ⟨0, _⟩ => rfl

/-- Operation 33, the result, at (b, s, e). -/
theorem v33_at (b : Fin 2) (s : Fin 2048) (e : Fin 1024) :
    val_main_v33 (F := Ideal) X W B WO BO (ix3 b s e)
      = Cert.Attn.out (xf X) (wf W) (bf B) (fun e d => WO (ix2 e d)) (fun e => BO (ix1 e)) b s e := by
  refine (val_main_v33_apply (F := Ideal) X W B WO BO _).trans ?_
  rw [val_main_v30_apply, val_main_v32_apply, val_main_v31_apply, obidx]
  unfold Cert.Attn.out
  refine congrArg (· + BO (ix1 e)) ?_
  rw [sum_cols]
  refine Finset.sum_congr rfl fun h _ => Finset.sum_congr rfl fun t _ => ?_
  rw [lidx30, ridx30, v29_at]

end

end Cert.ReferenceIdeal.RefValue

end
-- ==== Proof.RefValue.lean ====
/-
  The reference side of the value claim. The reference's run ends with its result at the composed term of its 38 host
  operations (the generated run); read index by index (RefValue1: the projection and the heads; RefValue2: scores, softmax
  and the weighted sum; RefValue3: the output projection), that term is the specification's array of the five argument
  arrays. So every fair execution of the reference ends with its result at that array and its arguments unchanged.
-/
import proofs.«167322_j54778012893327_2_alg».proof.Defs
import proofs.«167322_j54778012893327_2_alg».proof.Proof.Gen.ReferenceIdeal.Run
import proofs.«167322_j54778012893327_2_alg».proof.Proof.Gen.ReferenceIdeal.Read
import proofs.«167322_j54778012893327_2_alg».proof.Proof.Spec
import proofs.«167322_j54778012893327_2_alg».proof.Proof.RefValue3
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem

/-- The reference's result term, as a function of the five argument arrays, is the specification's array. -/
theorem result_eq (X : FVec Ideal S2x2048x1024 .f32) (W : FVec Ideal S3072x1024 .f32) (B : FVec Ideal S3072 .f32)
    (WO : FVec Ideal S1024x1024 .f32) (BO : FVec Ideal S1024 .f32) :
    val_main_v33 (F := Ideal) X W B WO BO = Cert.Attn.arr X W B WO BO := by
  funext j
  exact (congrArg (val_main_v33 (F := Ideal) X W B WO BO) (eq_ix3 j)).trans (v33_at X W B WO BO (j 0) (j 1) (j 2))

/-- Every fair execution of the reference terminates with its result at the specification's array of the launch
    contents of its five arguments, and the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v33)
          = Cert.Attn.arr (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono
    (fun _ h c => ⟨((h c).1.trans (val_main_v33_eq (F := Ideal) m c)).trans (result_eq _ _ _ _ _), (h c).2⟩)
    (Cert.ReferenceIdeal.Value.run (F := Ideal) m ρ)

/-- The reference runs and leaves its argument arrays unchanged: the run above with the result dropped. -/
theorem frame_ri [hPre_finite_inputs : Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  Multi-head self-attention, three kernels against plain array code.
  The kernel program: a host transpose of the fused projection weight; a kernel computing, per (batch, 128-row tile),
  the fused projection x·Wᵀ + b, split in thirds q, k, v, re-laid head-major, q scaled by 1/8; a kernel computing, per
  (batch, head, 512-row query tile), softmax(q·kᵀ)·v with the row maximum subtracted; a host transpose and re-view of the
  output weight; a kernel summing over the sixteen heads, along the innermost grid axis in a scratch accumulator, the
  head's context times its slice of the output weight, and adding the bias at the last head.
  The reference: the same function written with einsum, jnp.split, reshape/transpose, jax.nn.softmax.
  On the extended reals, with every rounding the identity, both are the function `Cert.Attn.arr` of the five argument
  arrays (Proof/Spec.lean). The two arrangements differ in three places only: the kernel folds the scale 1/8 into q before
  the score sum where the reference scales the sum (multiplication by a nonnegative real distributes over every extended-real
  sum, so no finiteness is needed); the kernel accumulates the output projection head by head from zero where the
  reference takes one sum over the model axis (regrouping a finite sum in a commutative monoid); the kernel reads transposed
  and re-viewed weights (index bookkeeping). Neither side's proof opens the precondition.
  The three frames: the reference's is its run with the result dropped; each kernel program's is the run of its five
  segments (host stretch, region, region, host stretch, region), the third region's invariant carrying the accumulator
  scratch from grid point to grid point (Proof/K/Run.lean at the word-level instance, Proof/KI/Run.lean at the ideal one).
  The idealization rewrote nothing, so `preserves` is `True`.
-/
import proofs.«167322_j54778012893327_2_alg».proof.Defs
import proofs.«167322_j54778012893327_2_alg».proof.Proof.Gen.Kernel
import proofs.«167322_j54778012893327_2_alg».proof.Proof.Gen.KernelIdeal
import proofs.«167322_j54778012893327_2_alg».proof.Proof.Gen.ReferenceIdeal
import proofs.«167322_j54778012893327_2_alg».proof.Proof.Gen.Pre_finite_inputs
import proofs.«167322_j54778012893327_2_alg».proof.Proof.K.Run
import proofs.«167322_j54778012893327_2_alg».proof.Proof.KI.Run
import proofs.«167322_j54778012893327_2_alg».proof.Proof.KI.Value
import proofs.«167322_j54778012893327_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := Cert.ReferenceIdeal.RefValue.frame_ri

theorem preserves : Cert.preserves_Kernel_KernelIdeal := trivial

/-- Both idealized programs end with the result buffer at `Cert.Attn.arr` of the argument arrays, which agree. -/
theorem algebraic : Cert.algebraic_KernelIdeal_ReferenceIdeal := by
  intro m ρ m' ρ' _ hagree
  refine ⟨fun c => Cert.Attn.arr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.HandValue.kernel_value m ρ c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
